-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x7x7x30 : Shape := ⟨4, ![16384, 7, 7, 30]⟩
abbrev S_ : Shape := ⟨0, ![]⟩

class Facts : Prop where
  bcast_S_S16384x7x7x30 : S_.BroadcastsInDim S16384x7x7x30 (![] : Fin 0 → Fin S16384x7x7x30.rank)
  reducesTo_S16384x7x7x30_S_d0_1_2_3 : S16384x7x7x30.ReducesTo [0, 1, 2, 3] S_
  h_S_ : 0 < S_.numel

variable [Facts]

def fn {F : FTy → Type} [FloatOps F] (main_arg0 : FVec F S16384x7x7x30 .f32) (main_arg1 : FVec F S16384x7x7x30 .f32) : IVec S_ 1 :=
  let main_v0 : FVec F S16384x7x7x30 .f32 := Host.absf main_arg0
  let main_cst : FVec F S_ .f32 := constant S_ .f32 0x7F800000#32
  let main_v1 : FVec F S16384x7x7x30 .f32 := broadcastInDim S16384x7x7x30 ![] bcast_S_S16384x7x7x30 main_cst
  let main_v2 : IVec S16384x7x7x30 1 := cmpf .olt main_v0 main_v1
  let main_c : IVec S_ 1 := constantI S_ 1 1#1
  let main_v3 : IVec S_ 1 := (fun x v => Host.reduce IntOp.andi x v reducesTo_S16384x7x7x30_S_d0_1_2_3 h_S_) main_v2 main_c
  let main_v4 : FVec F S16384x7x7x30 .f32 := Host.absf main_arg1
  let main_cst_0 : FVec F S_ .f32 := constant S_ .f32 0x7F800000#32
  let main_v5 : FVec F S16384x7x7x30 .f32 := broadcastInDim S16384x7x7x30 ![] bcast_S_S16384x7x7x30 main_cst_0
  let main_v6 : IVec S16384x7x7x30 1 := cmpf .olt main_v4 main_v5
  let main_c_1 : IVec S_ 1 := constantI S_ 1 1#1
  let main_v7 : IVec S_ 1 := (fun x v => Host.reduce IntOp.andi x v reducesTo_S16384x7x7x30_S_d0_1_2_3 h_S_) main_v6 main_c_1
  let main_v8 : IVec S_ 1 := andi main_v3 main_v7
  main_v8
-- ==== Kernel.lean ====
abbrev S16384x7x7x30 : Shape := ⟨4, ![16384, 7, 7, 30]⟩
abbrev S802816x30 : Shape := ⟨2, ![802816, 30]⟩
abbrev S2x8x128 : Shape := ⟨3, ![2, 8, 128]⟩
abbrev S8192x30 : Shape := ⟨2, ![8192, 30]⟩
abbrev S1x8x128 : Shape := ⟨3, ![1, 8, 128]⟩
abbrev S8192x1 : Shape := ⟨2, ![8192, 1]⟩
abbrev S8192 : Shape := ⟨1, ![8192]⟩
abbrev S8x8x128 : Shape := ⟨3, ![8, 8, 128]⟩
abbrev S8x128 : Shape := ⟨2, ![8, 128]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S16384x7x7x30, .f32⟩
  | .hbm, ⟨1, _⟩ => ⟨S16384x7x7x30, .f32⟩
  | .hbm, ⟨2, _⟩ => ⟨S802816x30, .f32⟩
  | .hbm, ⟨3, _⟩ => ⟨S802816x30, .f32⟩
  | .hbm, ⟨4, _⟩ => ⟨S2x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S8192x30, .f32⟩
  | .local _ .vmem, ⟨1, _⟩ => ⟨S8192x30, .f32⟩
  | .local _ .vmem, ⟨2, _⟩ => ⟨S8192x30, .f32⟩
  | .local _ .vmem, ⟨3, _⟩ => ⟨S8192x30, .f32⟩
  | .local _ .vmem, ⟨4, _⟩ => ⟨S1x8x128, .f32⟩
  | .local _ .vmem, ⟨5, _⟩ => ⟨S1x8x128, .f32⟩
  | _, _ => ⟨S16384x7x7x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 49], ![false, false]⟩

def cc0_transform_0 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c49_i32 : BitVec 32 := 49#32
  let v0 : BitVec 32 := Scalar.muli arg0 c49_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16384x7x7x30_S802816x30 : S16384x7x7x30.ShapeCasts S802816x30
  inb_S1x8x128_S1x8x128_0_0_0 : ∀ a, (![0, 0, 0] : Fin 3 → Nat) a + S1x8x128.size a ≤ S1x8x128.size a
  h_S1x8x128 : 0 < S1x8x128.numel
  inb_S8192x30_S8192x30_0_0 : ∀ a, (![0, 0] : Fin 2 → Nat) a + S8192x30.size a ≤ S8192x30.size a
  h_S8192x30 : 0 < S8192x30.numel
  shapeCasts_S8192x30_S8192x30 : S8192x30.ShapeCasts S8192x30
  slices_S8192x30_o0_4_S8192x1 : S8192x30.Slices ![0, 4] S8192x1
  shapeCasts_S8192x1_S8192 : S8192x1.ShapeCasts S8192
  natLt_1_32 : 1 < 32
  slices_S8192x30_o0_0_S8192x1 : S8192x30.Slices ![0, 0] S8192x1
  slices_S8192x30_o0_1_S8192x1 : S8192x30.Slices ![0, 1] S8192x1
  slices_S8192x30_o0_2_S8192x1 : S8192x30.Slices ![0, 2] S8192x1
  slices_S8192x30_o0_3_S8192x1 : S8192x30.Slices ![0, 3] S8192x1
  slices_S8192x30_o0_5_S8192x1 : S8192x30.Slices ![0, 5] S8192x1
  slices_S8192x30_o0_6_S8192x1 : S8192x30.Slices ![0, 6] S8192x1
  slices_S8192x30_o0_7_S8192x1 : S8192x30.Slices ![0, 7] S8192x1
  slices_S8192x30_o0_8_S8192x1 : S8192x30.Slices ![0, 8] S8192x1
  slices_S8192x30_o0_9_S8192x1 : S8192x30.Slices ![0, 9] S8192x1
  slices_S8192x30_o0_10_S8192x1 : S8192x30.Slices ![0, 10] S8192x1
  slices_S8192x30_o0_11_S8192x1 : S8192x30.Slices ![0, 11] S8192x1
  slices_S8192x30_o0_12_S8192x1 : S8192x30.Slices ![0, 12] S8192x1
  slices_S8192x30_o0_13_S8192x1 : S8192x30.Slices ![0, 13] S8192x1
  slices_S8192x30_o0_14_S8192x1 : S8192x30.Slices ![0, 14] S8192x1
  slices_S8192x30_o0_15_S8192x1 : S8192x30.Slices ![0, 15] S8192x1
  slices_S8192x30_o0_16_S8192x1 : S8192x30.Slices ![0, 16] S8192x1
  slices_S8192x30_o0_17_S8192x1 : S8192x30.Slices ![0, 17] S8192x1
  slices_S8192x30_o0_18_S8192x1 : S8192x30.Slices ![0, 18] S8192x1
  slices_S8192x30_o0_19_S8192x1 : S8192x30.Slices ![0, 19] S8192x1
  slices_S8192x30_o0_20_S8192x1 : S8192x30.Slices ![0, 20] S8192x1
  slices_S8192x30_o0_21_S8192x1 : S8192x30.Slices ![0, 21] S8192x1
  slices_S8192x30_o0_22_S8192x1 : S8192x30.Slices ![0, 22] S8192x1
  slices_S8192x30_o0_23_S8192x1 : S8192x30.Slices ![0, 23] S8192x1
  slices_S8192x30_o0_24_S8192x1 : S8192x30.Slices ![0, 24] S8192x1
  slices_S8192x30_o0_25_S8192x1 : S8192x30.Slices ![0, 25] S8192x1
  slices_S8192x30_o0_26_S8192x1 : S8192x30.Slices ![0, 26] S8192x1
  slices_S8192x30_o0_27_S8192x1 : S8192x30.Slices ![0, 27] S8192x1
  slices_S8192x30_o0_28_S8192x1 : S8192x30.Slices ![0, 28] S8192x1
  slices_S8192x30_o0_29_S8192x1 : S8192x30.Slices ![0, 29] S8192x1
  shapeCasts_S8192_S8x8x128 : S8192.ShapeCasts S8x8x128
  shapeCasts_S1x8x128_S1x8x128 : S1x8x128.ShapeCasts S1x8x128
  reduces_S8x8x128_S8x128 : S8x8x128.Reduces [0] S8x128
  shapeCasts_S8x128_S1x8x128 : S8x128.ShapeCasts S1x8x128
  reducesTo_S2x8x128_S_d0_1_2 : S2x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x30.size a ≤ S802816x30.size a
  hwx0_0 : ∀ i : grid0.Coords, EltTy.bits .f32 = 32 ∨ (Rect.block (s := S802816x30) S8192x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x30.size a ≤ S802816x30.size a
  hwx0_1 : ∀ i : grid0.Coords, EltTy.bits .f32 = 32 ∨ (Rect.block (s := S802816x30) S8192x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S2x8x128.size a
  hwx0_2 : ∀ i : grid0.Coords, EltTy.bits .f32 = 32 ∨ (Rect.block (s := S2x8x128) S1x8x128.size (cc0_transform_2 i) (hinb0_2 i)).WholeWords (EltTy.packing .f32)

variable [Facts₀]

abbrev win0_0 : Pipeline.Window sig grid0 :=
  Pipeline.Window.ofSpec (Memref.whole main_v0) S8192x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x7x7x30 : Shape := ⟨4, ![16384, 7, 7, 30]⟩
abbrev S16384x7x7x1 : Shape := ⟨4, ![16384, 7, 7, 1]⟩
abbrev S16384x7x7 : Shape := ⟨3, ![16384, 7, 7]⟩
abbrev S_ : Shape := ⟨0, ![]⟩
abbrev S16384x7x7x4 : Shape := ⟨4, ![16384, 7, 7, 4]⟩
abbrev S16384x7x7x20 : Shape := ⟨4, ![16384, 7, 7, 20]⟩

abbrev nBuf : Space → Nat
  | .hbm => 294
  | .vmem => 0
  | .smem => 0
  | _ => 0

abbrev hbmTy0_0 (i : Nat) : BufTy := match i % 128 with
  | 0 => ⟨S16384x7x7x30, .f32⟩
  | 1 => ⟨S16384x7x7x30, .f32⟩
  | 2 => ⟨S16384x7x7x1, .f32⟩
  | 3 => ⟨S16384x7x7, .f32⟩
  | 4 => ⟨S_, .f32⟩
  | 5 => ⟨S16384x7x7, .f32⟩
  | 6 => ⟨S16384x7x7, .i1⟩
  | 7 => ⟨S16384x7x7, .f32⟩
  | 8 => ⟨S16384x7x7x4, .f32⟩
  | 9 => ⟨S16384x7x7x4, .f32⟩
  | 10 => ⟨S16384x7x7x4, .f32⟩
  | 11 => ⟨S16384x7x7x1, .f32⟩
  | 12 => ⟨S16384x7x7, .f32⟩
  | 13 => ⟨S16384x7x7x1, .f32⟩
  | 14 => ⟨S16384x7x7, .f32⟩
  | 15 => ⟨S_, .f32⟩
  | 16 => ⟨S16384x7x7, .f32⟩
  | 17 => ⟨S16384x7x7, .f32⟩
  | 18 => ⟨S16384x7x7, .f32⟩
  | 19 => ⟨S16384x7x7x1, .f32⟩
  | 20 => ⟨S16384x7x7, .f32⟩
  | 21 => ⟨S16384x7x7x1, .f32⟩
  | 22 => ⟨S16384x7x7, .f32⟩
  | 23 => ⟨S_, .f32⟩
  | 24 => ⟨S16384x7x7, .f32⟩
  | 25 => ⟨S16384x7x7, .f32⟩
  | 26 => ⟨S16384x7x7, .f32⟩
  | 27 => ⟨S16384x7x7x1, .f32⟩
  | 28 => ⟨S16384x7x7, .f32⟩
  | 29 => ⟨S16384x7x7x1, .f32⟩
  | 30 => ⟨S16384x7x7, .f32⟩
  | 31 => ⟨S_, .f32⟩
  | 32 => ⟨S16384x7x7, .f32⟩
  | 33 => ⟨S16384x7x7, .f32⟩
  | 34 => ⟨S16384x7x7, .f32⟩
  | 35 => ⟨S16384x7x7x1, .f32⟩
  | 36 => ⟨S16384x7x7, .f32⟩
  | 37 => ⟨S16384x7x7x1, .f32⟩
  | 38 => ⟨S16384x7x7, .f32⟩
  | 39 => ⟨S_, .f32⟩
  | 40 => ⟨S16384x7x7, .f32⟩
  | 41 => ⟨S16384x7x7, .f32⟩
  | 42 => ⟨S16384x7x7, .f32⟩
  | 43 => ⟨S16384x7x7x1, .f32⟩
  | 44 => ⟨S16384x7x7, .f32⟩
  | 45 => ⟨S16384x7x7x1, .f32⟩
  | 46 => ⟨S16384x7x7, .f32⟩
  | 47 => ⟨S_, .f32⟩
  | 48 => ⟨S16384x7x7, .f32⟩
  | 49 => ⟨S16384x7x7, .f32⟩
  | 50 => ⟨S16384x7x7, .f32⟩
  | 51 => ⟨S16384x7x7x1, .f32⟩
  | 52 => ⟨S16384x7x7, .f32⟩
  | 53 => ⟨S16384x7x7x1, .f32⟩
  | 54 => ⟨S16384x7x7, .f32⟩
  | 55 => ⟨S_, .f32⟩
  | 56 => ⟨S16384x7x7, .f32⟩
  | 57 => ⟨S16384x7x7, .f32⟩
  | 58 => ⟨S16384x7x7, .f32⟩
  | 59 => ⟨S16384x7x7x1, .f32⟩
  | 60 => ⟨S16384x7x7, .f32⟩
  | 61 => ⟨S16384x7x7x1, .f32⟩
  | 62 => ⟨S16384x7x7, .f32⟩
  | 63 => ⟨S_, .f32⟩
  | 64 => ⟨S16384x7x7, .f32⟩
  | 65 => ⟨S16384x7x7, .f32⟩
  | 66 => ⟨S16384x7x7, .f32⟩
  | 67 => ⟨S16384x7x7x1, .f32⟩
  | 68 => ⟨S16384x7x7, .f32⟩
  | 69 => ⟨S16384x7x7x1, .f32⟩
  | 70 => ⟨S16384x7x7, .f32⟩
  | 71 => ⟨S_, .f32⟩
  | 72 => ⟨S16384x7x7, .f32⟩
  | 73 => ⟨S16384x7x7, .f32⟩
  | 74 => ⟨S16384x7x7, .f32⟩
  | 75 => ⟨S16384x7x7, .f32⟩
  | 76 => ⟨S16384x7x7, .f32⟩
  | 77 => ⟨S16384x7x7, .f32⟩
  | 78 => ⟨S_, .i32⟩
  | 79 => ⟨S_, .f32⟩
  | 80 => ⟨S16384x7x7, .f32⟩
  | 81 => ⟨S16384x7x7, .f32⟩
  | 82 => ⟨S16384x7x7, .f32⟩
  | 83 => ⟨S16384x7x7, .f32⟩
  | 84 => ⟨S16384x7x7, .f32⟩
  | 85 => ⟨S_, .i32⟩
  | 86 => ⟨S_, .f32⟩
  | 87 => ⟨S16384x7x7, .f32⟩
  | 88 => ⟨S16384x7x7, .f32⟩
  | 89 => ⟨S16384x7x7, .f32⟩
  | 90 => ⟨S16384x7x7, .f32⟩
  | 91 => ⟨S16384x7x7, .f32⟩
  | 92 => ⟨S16384x7x7, .f32⟩
  | 93 => ⟨S16384x7x7, .f32⟩
  | 94 => ⟨S16384x7x7, .f32⟩
  | 95 => ⟨S16384x7x7, .f32⟩
  | 96 => ⟨S16384x7x7, .f32⟩
  | 97 => ⟨S16384x7x7, .f32⟩
  | 98 => ⟨S16384x7x7, .f32⟩
  | 99 => ⟨S16384x7x7, .f32⟩
  | 100 => ⟨S_, .f32⟩
  | 101 => ⟨S16384x7x7, .f32⟩
  | 102 => ⟨S16384x7x7, .f32⟩
  | 103 => ⟨S16384x7x7, .f32⟩
  | 104 => ⟨S16384x7x7x1, .f32⟩
  | 105 => ⟨S16384x7x7, .f32⟩
  | 106 => ⟨S16384x7x7x1, .f32⟩
  | 107 => ⟨S16384x7x7, .f32⟩
  | 108 => ⟨S_, .f32⟩
  | 109 => ⟨S16384x7x7, .f32⟩
  | 110 => ⟨S16384x7x7, .f32⟩
  | 111 => ⟨S16384x7x7, .f32⟩
  | 112 => ⟨S16384x7x7x1, .f32⟩
  | 113 => ⟨S16384x7x7, .f32⟩
  | 114 => ⟨S16384x7x7x1, .f32⟩
  | 115 => ⟨S16384x7x7, .f32⟩
  | 116 => ⟨S_, .f32⟩
  | 117 => ⟨S16384x7x7, .f32⟩
  | 118 => ⟨S16384x7x7, .f32⟩
  | 119 => ⟨S16384x7x7, .f32⟩
  | 120 => ⟨S16384x7x7x1, .f32⟩
  | 121 => ⟨S16384x7x7, .f32⟩
  | 122 => ⟨S16384x7x7x1, .f32⟩
  | 123 => ⟨S16384x7x7, .f32⟩
  | 124 => ⟨S_, .f32⟩
  | 125 => ⟨S16384x7x7, .f32⟩
  | 126 => ⟨S16384x7x7, .f32⟩
  | 127 => ⟨S16384x7x7, .f32⟩
  | _ => ⟨S16384x7x7x30, .f32⟩

abbrev hbmTy0_1 (i : Nat) : BufTy := match i % 128 with
  | 0 => ⟨S16384x7x7x1, .f32⟩
  | 1 => ⟨S16384x7x7, .f32⟩
  | 2 => ⟨S16384x7x7x1, .f32⟩
  | 3 => ⟨S16384x7x7, .f32⟩
  | 4 => ⟨S_, .f32⟩
  | 5 => ⟨S16384x7x7, .f32⟩
  | 6 => ⟨S16384x7x7, .f32⟩
  | 7 => ⟨S16384x7x7, .f32⟩
  | 8 => ⟨S16384x7x7x1, .f32⟩
  | 9 => ⟨S16384x7x7, .f32⟩
  | 10 => ⟨S16384x7x7x1, .f32⟩
  | 11 => ⟨S16384x7x7, .f32⟩
  | 12 => ⟨S_, .f32⟩
  | 13 => ⟨S16384x7x7, .f32⟩
  | 14 => ⟨S16384x7x7, .f32⟩
  | 15 => ⟨S16384x7x7, .f32⟩
  | 16 => ⟨S16384x7x7x1, .f32⟩
  | 17 => ⟨S16384x7x7, .f32⟩
  | 18 => ⟨S16384x7x7x1, .f32⟩
  | 19 => ⟨S16384x7x7, .f32⟩
  | 20 => ⟨S_, .f32⟩
  | 21 => ⟨S16384x7x7, .f32⟩
  | 22 => ⟨S16384x7x7, .f32⟩
  | 23 => ⟨S16384x7x7, .f32⟩
  | 24 => ⟨S16384x7x7x1, .f32⟩
  | 25 => ⟨S16384x7x7, .f32⟩
  | 26 => ⟨S16384x7x7x1, .f32⟩
  | 27 => ⟨S16384x7x7, .f32⟩
  | 28 => ⟨S_, .f32⟩
  | 29 => ⟨S16384x7x7, .f32⟩
  | 30 => ⟨S16384x7x7, .f32⟩
  | 31 => ⟨S16384x7x7, .f32⟩
  | 32 => ⟨S16384x7x7x1, .f32⟩
  | 33 => ⟨S16384x7x7, .f32⟩
  | 34 => ⟨S16384x7x7x1, .f32⟩
  | 35 => ⟨S16384x7x7, .f32⟩
  | 36 => ⟨S_, .f32⟩
  | 37 => ⟨S16384x7x7, .f32⟩
  | 38 => ⟨S16384x7x7, .f32⟩
  | 39 => ⟨S16384x7x7, .f32⟩
  | 40 => ⟨S16384x7x7, .f32⟩
  | 41 => ⟨S16384x7x7, .f32⟩
  | 42 => ⟨S16384x7x7, .f32⟩
  | 43 => ⟨S_, .i32⟩
  | 44 => ⟨S_, .f32⟩
  | 45 => ⟨S16384x7x7, .f32⟩
  | 46 => ⟨S16384x7x7, .f32⟩
  | 47 => ⟨S16384x7x7, .f32⟩
  | 48 => ⟨S16384x7x7, .f32⟩
  | 49 => ⟨S16384x7x7, .f32⟩
  | 50 => ⟨S_, .i32⟩
  | 51 => ⟨S_, .f32⟩
  | 52 => ⟨S16384x7x7, .f32⟩
  | 53 => ⟨S16384x7x7, .f32⟩
  | 54 => ⟨S16384x7x7, .f32⟩
  | 55 => ⟨S16384x7x7, .f32⟩
  | 56 => ⟨S16384x7x7, .f32⟩
  | 57 => ⟨S16384x7x7, .f32⟩
  | 58 => ⟨S16384x7x7, .f32⟩
  | 59 => ⟨S16384x7x7, .f32⟩
  | 60 => ⟨S16384x7x7, .f32⟩
  | 61 => ⟨S16384x7x7, .f32⟩
  | 62 => ⟨S16384x7x7, .f32⟩
  | 63 => ⟨S16384x7x7, .f32⟩
  | 64 => ⟨S16384x7x7, .f32⟩
  | 65 => ⟨S_, .f32⟩
  | 66 => ⟨S16384x7x7, .f32⟩
  | 67 => ⟨S16384x7x7, .f32⟩
  | 68 => ⟨S16384x7x7, .f32⟩
  | 69 => ⟨S16384x7x7, .i1⟩
  | 70 => ⟨S16384x7x7x1, .i1⟩
  | 71 => ⟨S16384x7x7x4, .i1⟩
  | 72 => ⟨S16384x7x7x4, .f32⟩
  | 73 => ⟨S16384x7x7x1, .f32⟩
  | 74 => ⟨S16384x7x7, .f32⟩
  | 75 => ⟨S16384x7x7x1, .f32⟩
  | 76 => ⟨S16384x7x7, .f32⟩
  | 77 => ⟨S16384x7x7, .f32⟩
  | 78 => ⟨S16384x7x7x1, .f32⟩
  | 79 => ⟨S16384x7x7, .f32⟩
  | 80 => ⟨S16384x7x7x1, .f32⟩
  | 81 => ⟨S16384x7x7, .f32⟩
  | 82 => ⟨S16384x7x7, .f32⟩
  | 83 => ⟨S16384x7x7, .f32⟩
  | 84 => ⟨S16384x7x7, .f32⟩
  | 85 => ⟨S16384x7x7x1, .f32⟩
  | 86 => ⟨S16384x7x7, .f32⟩
  | 87 => ⟨S16384x7x7x1, .f32⟩
  | 88 => ⟨S16384x7x7, .f32⟩
  | 89 => ⟨S16384x7x7, .f32⟩
  | 90 => ⟨S16384x7x7, .f32⟩
  | 91 => ⟨S16384x7x7x1, .f32⟩
  | 92 => ⟨S16384x7x7, .f32⟩
  | 93 => ⟨S16384x7x7x1, .f32⟩
  | 94 => ⟨S16384x7x7, .f32⟩
  | 95 => ⟨S16384x7x7, .f32⟩
  | 96 => ⟨S16384x7x7, .f32⟩
  | 97 => ⟨S16384x7x7, .f32⟩
  | 98 => ⟨S16384x7x7, .f32⟩
  | 99 => ⟨S_, .f32⟩
  | 100 => ⟨S_, .f32⟩
  | 101 => ⟨S16384x7x7x1, .f32⟩
  | 102 => ⟨S16384x7x7, .f32⟩
  | 103 => ⟨S16384x7x7, .f32⟩
  | 104 => ⟨S16384x7x7x1, .f32⟩
  | 105 => ⟨S16384x7x7, .f32⟩
  | 106 => ⟨S16384x7x7, .f32⟩
  | 107 => ⟨S16384x7x7, .f32⟩
  | 108 => ⟨S16384x7x7, .f32⟩
  | 109 => ⟨S16384x7x7x1, .f32⟩
  | 110 => ⟨S16384x7x7, .f32⟩
  | 111 => ⟨S16384x7x7, .f32⟩
  | 112 => ⟨S16384x7x7x1, .f32⟩
  | 113 => ⟨S16384x7x7, .f32⟩
  | 114 => ⟨S16384x7x7, .f32⟩
  | 115 => ⟨S16384x7x7, .f32⟩
  | 116 => ⟨S16384x7x7, .f32⟩
  | 117 => ⟨S16384x7x7, .f32⟩
  | 118 => ⟨S16384x7x7, .f32⟩
  | 119 => ⟨S_, .f32⟩
  | 120 => ⟨S_, .f32⟩
  | 121 => ⟨S16384x7x7, .f32⟩
  | 122 => ⟨S16384x7x7, .f32⟩
  | 123 => ⟨S16384x7x7, .f32⟩
  | 124 => ⟨S_, .f32⟩
  | 125 => ⟨S_, .f32⟩
  | 126 => ⟨S_, .f32⟩
  | 127 => ⟨S16384x7x7, .f32⟩
  | _ => ⟨S16384x7x7x30, .f32⟩

abbrev hbmTy0_2 (i : Nat) : BufTy := match i % 128 with
  | 0 => ⟨S16384x7x7, .f32⟩
  | 1 => ⟨S16384x7x7x1, .f32⟩
  | 2 => ⟨S16384x7x7, .f32⟩
  | 3 => ⟨S16384x7x7, .f32⟩
  | 4 => ⟨S16384x7x7x1, .f32⟩
  | 5 => ⟨S16384x7x7, .f32⟩
  | 6 => ⟨S16384x7x7, .f32⟩
  | 7 => ⟨S16384x7x7, .f32⟩
  | 8 => ⟨S16384x7x7, .f32⟩
  | 9 => ⟨S_, .f32⟩
  | 10 => ⟨S_, .f32⟩
  | 11 => ⟨S_, .f32⟩
  | 12 => ⟨S16384x7x7, .f32⟩
  | 13 => ⟨S16384x7x7, .f32⟩
  | 14 => ⟨S16384x7x7, .f32⟩
  | 15 => ⟨S_, .f32⟩
  | 16 => ⟨S_, .f32⟩
  | 17 => ⟨S16384x7x7x20, .f32⟩
  | 18 => ⟨S16384x7x7x20, .f32⟩
  | 19 => ⟨S16384x7x7x20, .f32⟩
  | 20 => ⟨S16384x7x7x20, .f32⟩
  | 21 => ⟨S_, .f32⟩
  | 22 => ⟨S16384x7x7, .f32⟩
  | 23 => ⟨S16384x7x7, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | _ => ⟨S16384x7x7x30, .f32⟩

abbrev hbmTy (i : Nat) : BufTy := match i / 128 with
  | 0 => hbmTy0_0 i
  | 1 => hbmTy0_1 i
  | 2 => hbmTy0_2 i
  | _ => ⟨S16384x7x7x30, .f32⟩

abbrev bufTy : (tb : Table) → Fin (tcTables nBuf tb) → BufTy
  | .hbm, ⟨i, _⟩ => hbmTy i
  | _, _ => ⟨S16384x7x7x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_2 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_3 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_4 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_5 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_cst_6 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_7 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_c : Ref sig .tc := ⟨.hbm, 78, rfl⟩
abbrev main_call0_v0 : Ref sig .tc := ⟨.hbm, 79, rfl⟩
abbrev main_call0_v1 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_c_8 : Ref sig .tc := ⟨.hbm, 85, rfl⟩
abbrev main_call1_v0 : Ref sig .tc := ⟨.hbm, 86, rfl⟩
abbrev main_call1_v1 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_cst_9 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_10 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_cst_11 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_cst_12 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_cst_13 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_cst_14 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_cst_15 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_cst_16 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_cst_17 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_c_18 : Ref sig .tc := ⟨.hbm, 171, rfl⟩
abbrev main_call2_v0 : Ref sig .tc := ⟨.hbm, 172, rfl⟩
abbrev main_call2_v1 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_c_19 : Ref sig .tc := ⟨.hbm, 178, rfl⟩
abbrev main_call3_v0 : Ref sig .tc := ⟨.hbm, 179, rfl⟩
abbrev main_call3_v1 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_cst_20 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_call4_v0 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_cst_21 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_cst_22 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_cst_23 : Ref sig .tc := ⟨.hbm, 252, rfl⟩
abbrev main_v216 : Ref sig .tc := ⟨.hbm, 253, rfl⟩
abbrev main_cst_24 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_cst_25 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_cst_26 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_cst_27 : Ref sig .tc := ⟨.hbm, 277, rfl⟩
abbrev main_v237 : Ref sig .tc := ⟨.hbm, 278, rfl⟩
abbrev main_v238 : Ref sig .tc := ⟨.hbm, 279, rfl⟩
abbrev main_cst_28 : Ref sig .tc := ⟨.hbm, 280, rfl⟩
abbrev main_v239 : Ref sig .tc := ⟨.hbm, 281, rfl⟩
abbrev main_cst_29 : Ref sig .tc := ⟨.hbm, 282, rfl⟩
abbrev main_v240 : Ref sig .tc := ⟨.hbm, 283, rfl⟩
abbrev main_cst_30 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_cst_31 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_cst_32 : Ref sig .tc := ⟨.hbm, 292, rfl⟩
abbrev main_v247 : Ref sig .tc := ⟨.hbm, 293, rfl⟩

abbrev nD : Nat := 1
abbrev τ : Topo := Topo.v7x

variable {F : FTy → Type} [FloatOps F]

class Facts₀ : Prop where
  slices_S16384x7x7x30_S16384x7x7x1_0_0_0_4 : S16384x7x7x30.Slices ![0, 0, 0, 4] S16384x7x7x1
  shapeCasts_S16384x7x7x1_S16384x7x7 : S16384x7x7x1.ShapeCasts S16384x7x7
  bcast_S_S16384x7x7 : S_.BroadcastsInDim S16384x7x7 (![] : Fin 0 → Fin S16384x7x7.rank)
  slices_S16384x7x7x30_S16384x7x7x4_0_0_0_0 : S16384x7x7x30.Slices ![0, 0, 0, 0] S16384x7x7x4
  slices_S16384x7x7x30_S16384x7x7x4_0_0_0_5 : S16384x7x7x30.Slices ![0, 0, 0, 5] S16384x7x7x4
  slices_S16384x7x7x4_S16384x7x7x1_0_0_0_0 : S16384x7x7x4.Slices ![0, 0, 0, 0] S16384x7x7x1
  slices_S16384x7x7x4_S16384x7x7x1_0_0_0_2 : S16384x7x7x4.Slices ![0, 0, 0, 2] S16384x7x7x1
  slices_S16384x7x7x4_S16384x7x7x1_0_0_0_1 : S16384x7x7x4.Slices ![0, 0, 0, 1] S16384x7x7x1
  slices_S16384x7x7x4_S16384x7x7x1_0_0_0_3 : S16384x7x7x4.Slices ![0, 0, 0, 3] S16384x7x7x1
  bcast_S16384x7x7_S16384x7x7x1_0_1_2 : S16384x7x7.BroadcastsInDim S16384x7x7x1 (![0, 1, 2] : Fin 3 → Fin S16384x7x7x1.rank)
  bcast_S16384x7x7x1_S16384x7x7x4_0_1_2_3 : S16384x7x7x1.BroadcastsInDim S16384x7x7x4 (![0, 1, 2, 3] : Fin 4 → Fin S16384x7x7x4.rank)
  slices_S16384x7x7x30_S16384x7x7x1_0_0_0_9 : S16384x7x7x30.Slices ![0, 0, 0, 9] S16384x7x7x1
  reducesTo_S16384x7x7_S_d0_1_2 : S16384x7x7.ReducesTo [0, 1, 2] S_
  h_S_ : 0 < S_.numel
  slices_S16384x7x7x30_S16384x7x7x20_0_0_0_10 : S16384x7x7x30.Slices ![0, 0, 0, 10] S16384x7x7x20
  reducesTo_S16384x7x7x20_S16384x7x7_d3 : S16384x7x7x20.ReducesTo [3] S16384x7x7

variable [Facts₀]

class Facts : Prop extends Facts₀ where

variable [Facts]
-- ==== Proof.CellLoss.lean ====
/-
  The loss of one grid cell, and of the whole batch, as functions of the argument arrays.

  A cell has thirty predicted channels `p` and thirty true channels `t`: channels 0–3 and 5–8 of `p` are two predicted
  boxes (centre x, centre y, width, height), channels 4 and 9 their confidences, channels 10–29 the class scores; of `t`,
  channels 0–3 are the true box, channel 4 the object indicator, channels 10–29 the class targets. The responsible
  predicted box is the one with the larger intersection-over-union against the true box (the second on a tie). With
  `m` the indicator (`1` where `t 4 = 1`, else `0`) the cell's loss is

      (5·m·|centre − centreˆ|² + 5·m·|√size − √sizeˆ|² + (m·(IoU_max − confˆ)² + (1 − m)·(conf₁² + conf₂²)))
        + ½·m·(IoU_min − conf_other)² + m·Σ_c (t c − p c)²

  and the batch's loss is the sum of the cells' losses over all 16384·7·7 cells divided by 16384. Everything is written
  with the float operations of an arbitrary instance, in the association above, so that it can be read at the extended
  reals (where each operation is the exact one) as well as word by word.
-/
import Idealize.ShloMosaic.PureOps.Ideal
import Idealize.ShloMosaic.Lib.ValueIdx

noncomputable section

open scoped BigOperators

namespace Cert.CellLoss

open Idealize.ShloMosaic Idealize.ShloMosaic.ValueIdx

variable {F : FTy → Type} [FloatOps F]

/-- The float constants of the loss: ½, 0, 1, the denominator's 1e-6 (as an f32), 5, and the batch size 16384. -/
abbrev half : F .f32 := FloatOps.ofBits .f32 0x3F000000#32
abbrev zero : F .f32 := FloatOps.ofBits .f32 0x00000000#32
abbrev one : F .f32 := FloatOps.ofBits .f32 0x3F800000#32
abbrev eps : F .f32 := FloatOps.ofBits .f32 0x358637BD#32
abbrev five : F .f32 := FloatOps.ofBits .f32 0x40A00000#32
abbrev batch : F .f32 := FloatOps.ofBits .f32 0x46800000#32

/-- A square, as the product with itself. -/
def sq (x : F .f32) : F .f32 := FloatOps.mulf x x

/-- Intersection over union of the true box `(bx, bY, bw, bh)` and a predicted box `(px, pY, pw, ph)`, both given by
    centre and size: the corners are `centre ∓ size·½`, the intersection's sides are clipped at zero, and the union's
    area is the two areas' sum less the intersection, plus the small constant that keeps the quotient defined. -/
def iou (bx bY bw bh px pY pw ph : F .f32) : F .f32 :=
  let b1x1 := FloatOps.subf bx (FloatOps.mulf bw half)
  let b1y1 := FloatOps.subf bY (FloatOps.mulf bh half)
  let b1x2 := FloatOps.addf bx (FloatOps.mulf bw half)
  let b1y2 := FloatOps.addf bY (FloatOps.mulf bh half)
  let b2x1 := FloatOps.subf px (FloatOps.mulf pw half)
  let b2y1 := FloatOps.subf pY (FloatOps.mulf ph half)
  let b2x2 := FloatOps.addf px (FloatOps.mulf pw half)
  let b2y2 := FloatOps.addf pY (FloatOps.mulf ph half)
  let iw := FloatOps.maximumf (FloatOps.subf (FloatOps.minimumf b1x2 b2x2) (FloatOps.maximumf b1x1 b2x1)) zero
  let ih := FloatOps.maximumf (FloatOps.subf (FloatOps.minimumf b1y2 b2y2) (FloatOps.maximumf b1y1 b2y1)) zero
  let inter := FloatOps.mulf iw ih
  let a1 := FloatOps.absf (FloatOps.mulf (FloatOps.subf b1x2 b1x1) (FloatOps.subf b1y2 b1y1))
  let a2 := FloatOps.absf (FloatOps.mulf (FloatOps.subf b2x2 b2x1) (FloatOps.subf b2y2 b2y1))
  FloatOps.divf inter (FloatOps.addf (FloatOps.subf (FloatOps.addf a1 a2) inter) eps)

/-- The object indicator of a cell as a float: `1` where the true channel 4 equals `1`, else `0`. -/
def mask (t4 : F .f32) : F .f32 := FloatOps.sitofp .f32 ((FloatOps.cmpf .oeq t4 one).setWidth 32)

/-- One class channel's squared error. -/
def classTerm (p t : Fin 30 → F .f32) (c : Fin 30) : F .f32 := sq (FloatOps.subf (t c) (p c))

/-- The squared class error summed over the twenty class channels 10 … 29, from zero, first to last. -/
def classSum (p t : Fin 30 → F .f32) : F .f32 :=
  ([10, 11, 12, 13, 14, 15, 16, 17, 18, 19, 20, 21, 22, 23, 24, 25, 26, 27, 28, 29] : List (Fin 30)).foldl
    (fun acc c => FloatOps.addf acc (classTerm p t c)) zero

/-- The two predicted boxes' overlaps with the true box. -/
def iou1 (p t : Fin 30 → F .f32) : F .f32 := iou (t 0) (t 1) (t 2) (t 3) (p 0) (p 1) (p 2) (p 3)
def iou2 (p t : Fin 30 → F .f32) : F .f32 := iou (t 0) (t 1) (t 2) (t 3) (p 5) (p 6) (p 7) (p 8)
/-- Whether the first predicted box is the responsible one (strictly larger overlap). -/
def best (p t : Fin 30 → F .f32) : BitVec 1 := FloatOps.cmpf .ogt (iou1 p t) (iou2 p t)

/-- The centre term: indicator times the squared distance of the true centre from the responsible box's. -/
def xyTerm (p t : Fin 30 → F .f32) : F .f32 :=
  FloatOps.mulf (mask (t 4)) (FloatOps.addf (sq (FloatOps.subf (t 0) (Scalar.select (best p t) (p 0) (p 5))))
    (sq (FloatOps.subf (t 1) (Scalar.select (best p t) (p 1) (p 6)))))
/-- The size term: indicator times the squared distance of the square roots of the sizes. -/
def whTerm (p t : Fin 30 → F .f32) : F .f32 :=
  FloatOps.mulf (mask (t 4)) (FloatOps.addf
    (sq (FloatOps.subf (FloatOps.sqrt (t 2)) (FloatOps.sqrt (Scalar.select (best p t) (p 2) (p 7)))))
    (sq (FloatOps.subf (FloatOps.sqrt (t 3)) (FloatOps.sqrt (Scalar.select (best p t) (p 3) (p 8))))))
/-- The confidence term of a cell with an object: the larger overlap against the responsible box's confidence. -/
def objTerm (p t : Fin 30 → F .f32) : F .f32 :=
  FloatOps.mulf (mask (t 4)) (sq (FloatOps.subf (FloatOps.maximumf (iou1 p t) (iou2 p t)) (Scalar.select (best p t) (p 4) (p 9))))
/-- The confidence term of a cell without an object: both confidences pushed to zero. -/
def emptyTerm (p t : Fin 30 → F .f32) : F .f32 :=
  FloatOps.mulf (FloatOps.subf one (mask (t 4))) (FloatOps.addf (FloatOps.mulf (p 4) (p 4)) (FloatOps.mulf (p 9) (p 9)))
/-- The other box's confidence term: the smaller overlap against the other box's confidence. -/
def otherTerm (p t : Fin 30 → F .f32) : F .f32 :=
  FloatOps.mulf (mask (t 4)) (sq (FloatOps.subf (FloatOps.minimumf (iou1 p t) (iou2 p t)) (Scalar.select (best p t) (p 9) (p 4))))
/-- The class term: indicator times the summed squared class error. -/
def clsTerm (p t : Fin 30 → F .f32) : F .f32 := FloatOps.mulf (mask (t 4)) (classSum p t)

/-- THE LOSS OF ONE CELL, in the association `(((5·xy + 5·wh) + (obj + empty)) + ½·other) + cls`. -/
def cell (p t : Fin 30 → F .f32) : F .f32 :=
  FloatOps.addf (FloatOps.addf (FloatOps.addf (FloatOps.addf (FloatOps.mulf five (xyTerm p t)) (FloatOps.mulf five (whTerm p t)))
    (FloatOps.addf (objTerm p t) (emptyTerm p t))) (FloatOps.mulf half (otherTerm p t))) (clsTerm p t)

/-! ## The batch -/

/-- The argument arrays' shape: 16384 images of 7 × 7 cells of 30 channels. -/
abbrev Arr : Shape := ⟨4, ![16384, 7, 7, 30]⟩

/-- Cell `r` of the batch, cells counted row-major over (image, row, column), at channel `ch`, as an index of an argument
    array. -/
def cellIdx (r : Fin 802816) (ch : Fin 30) : Arr.Idx :=
  ix4 (⟨r.val / 49, by have := r.isLt; omega⟩ : Fin 16384) (⟨r.val / 7 % 7, Nat.mod_lt _ (by decide)⟩ : Fin 7)
    (⟨r.val % 7, Nat.mod_lt _ (by decide)⟩ : Fin 7) ch

/-- The thirty channels of cell `r` of an argument array. -/
def rowOf {α : Type} (x : Arr.Idx → α) (r : Fin 802816) : Fin 30 → α := fun ch => x (cellIdx r ch)

/-- The thirty channels of the cell at (image, row, column) `j` of an argument array. -/
def chan {α : Type} (x : Arr.Idx → α) (j : (⟨3, ![16384, 7, 7]⟩ : Shape).Idx) : Fin 30 → α := fun ch => x (ix4 (j 0) (j 1) (j 2) ch)

/-- The cell a tiled reduction meets at core `c`, grid step `s`, slab `k`, sublane `u`, lane `l`: the rows are dealt out
    in blocks of 8192 (49 blocks per core), each block in 8 slabs of 8 × 128. -/
def kRow (c : Fin 2) (s : Fin 49) (k : Fin 8) (u : Fin 8) (l : Fin 128) : Fin 802816 :=
  ⟨((c.val * 49 + s.val) * 8 + k.val) * 1024 + u.val * 128 + l.val, by
    have := c.isLt; have := s.isLt; have := k.isLt; have := u.isLt; have := l.isLt; omega⟩

/-- The sum of the cells' losses over the whole batch, at the extended reals. -/
def lossSum (x0 x1 : Arr.Idx → EReal) : EReal := ∑ r : Fin 802816, cell (F := Ideal) (rowOf x0 r) (rowOf x1 r)

/-- THE RESULT: the batch's summed loss divided by the batch size. -/
def total (x0 x1 : Arr.Idx → EReal) : EReal := FloatOps.hostDivf (F := Ideal) (lossSum x0 x1) (batch (F := Ideal))

end Cert.CellLoss

end
-- ==== Proof.KBody.lean ====
/-
  What one grid point's body leaves in the output block, as a function of the point's two input blocks and of what the
  block held before: the block's 8192 rows each give one cell's loss; the rows are laid out as 8 slabs of 8 × 128, the slabs
  are summed, and the [8, 128] tile of slab sums is added to the block. At the first step of a core the block is zeroed
  first. The loss of row `r` of a block is the specification's `cell` of the row's thirty predicted and thirty true channels.
-/
import proofs.«147053_j34737695490341_2_alg».proof.Proof.Gen.KernelIdeal.Frame
import proofs.«147053_j34737695490341_2_alg».proof.Proof.CellLoss
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KValue

open Cert.KernelIdeal Cert.KernelIdeal.Gen Cert.CellLoss

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## The arithmetic operations read at an index (every instance: they are pointwise by definition) -/

theorem addf_at {s : Shape} (x y : FVec F s .f32) (i : s.Idx) : addf x y i = FloatOps.addf (x i) (y i) := rfl
theorem subf_at {s : Shape} (x y : FVec F s .f32) (i : s.Idx) : subf x y i = FloatOps.subf (x i) (y i) := rfl
theorem mulf_at {s : Shape} (x y : FVec F s .f32) (i : s.Idx) : mulf x y i = FloatOps.mulf (x i) (y i) := rfl
theorem divf_at {s : Shape} (x y : FVec F s .f32) (i : s.Idx) : divf x y i = FloatOps.divf (x i) (y i) := rfl
theorem maximumf_at {s : Shape} (x y : FVec F s .f32) (i : s.Idx) : maximumf x y i = FloatOps.maximumf (x i) (y i) := rfl
theorem minimumf_at {s : Shape} (x y : FVec F s .f32) (i : s.Idx) : minimumf x y i = FloatOps.minimumf (x i) (y i) := rfl
theorem absf_at {s : Shape} (x : FVec F s .f32) (i : s.Idx) : absf x i = FloatOps.absf (x i) := rfl
theorem sqrt_at {s : Shape} (x : FVec F s .f32) (i : s.Idx) : sqrt x i = FloatOps.sqrt (x i) := rfl

/-! ## A channel of a block -/

/-- A one-column slice at column `c` fits the 30 channels only if `c < 30`. -/
theorem col_lt {c : Nat} (hs : S8192x30.Slices ![0, c] S8192x1) : c < 30 := by
  have h : c + 1 ≤ 30 := hs.2 1
  omega

/-- Column `c` of a block, flattened to a vector over the rows: at row `r` it is the block's entry `(r, c)`. -/
theorem col_at {c : Nat} (v : Vec F S8192x30 .f32) (hs : S8192x30.Slices ![0, c] S8192x1) (r : S8192.Idx) :
    shapeCast S8192 (extractStridedSlice S8192x1 ![0, c] v hs) shapeCasts_S8192x1_S8192 r
      = v (ix2 (r 0) (⟨c, col_lt hs⟩ : Fin 30)) := by
  rw [shapeCast_apply _ shapeCasts_S8192x1_S8192 r (ix2 (r 0) (0 : Fin 1))
    (by rw [Shape.rowMajor_val_two, Shape.rowMajor_val_one]; show (r 0).val * 1 + 0 = (r 0).val; omega)]
  exact extractStridedSlice_apply _ v hs _ _ (fun a => match a with
    | ⟨0, _⟩ => by show (r 0).val = 0 + (r 0).val; omega
    | ⟨1, _⟩ => by show c = c + 0; omega)

/-! ## The body's arithmetic, named -/

/-- The overlap of the true box with the first predicted box, over the block's rows. -/
abbrev ov1 (x0 x1 : Vec F S8192x30 .f32) : FVec F S8192 .f32 :=
  k0_pay22 (k0_pay6 x1) (k0_pay7 x1) (k0_pay8 x1) (k0_pay9 x1) (k0_pay10 x0) (k0_pay11 x0) (k0_pay12 x0)
    (k0_pay13 x0) (k0_pay20 x1) (k0_pay21 x1) (FloatOps.ofBits .f32 0x3F000000#32)

/-- The centre term, the size term, the two confidence terms and the other box's term, over the block's rows. -/
abbrev xyV (x0 x1 : Vec F S8192x30 .f32) : FVec F S8192 .f32 :=
  k0_pay36 (k0_pay5 x1) (k0_pay7 x1)
    (k0_pay28 (k0_pay6 x1) (k0_pay7 x1) (k0_pay8 x1) (k0_pay9 x1) (k0_pay11 x0) (k0_pay14 x0) (k0_pay15 x0)
      (k0_pay16 x0) (k0_pay17 x0) (ov1 x0 x1) (k0_pay23 (k0_pay6 x1) (k0_pay8 x1)) (k0_pay24 (k0_pay7 x1) (k0_pay9 x1)) k0_pay25)
    (k0_pay35 (k0_pay6 x1) (k0_pay7 x1) (k0_pay8 x1) (k0_pay9 x1) (k0_pay10 x0) (k0_pay14 x0) (k0_pay15 x0)
      (k0_pay16 x0) (k0_pay17 x0) (ov1 x0 x1) (k0_pay23 (k0_pay6 x1) (k0_pay8 x1)) (k0_pay24 (k0_pay7 x1) (k0_pay9 x1)) k0_pay25)
abbrev whV (x0 x1 : Vec F S8192x30 .f32) : FVec F S8192 .f32 :=
  k0_pay37 (k0_pay5 x1) (k0_pay8 x1) (k0_pay9 x1)
    (k0_pay29 (k0_pay6 x1) (k0_pay7 x1) (k0_pay8 x1) (k0_pay9 x1) (k0_pay12 x0) (k0_pay14 x0) (k0_pay15 x0)
      (k0_pay16 x0) (k0_pay17 x0) (ov1 x0 x1) (k0_pay23 (k0_pay6 x1) (k0_pay8 x1)) (k0_pay24 (k0_pay7 x1) (k0_pay9 x1)) k0_pay25)
    (k0_pay30 (k0_pay6 x1) (k0_pay7 x1) (k0_pay8 x1) (k0_pay9 x1) (k0_pay13 x0) (k0_pay14 x0) (k0_pay15 x0)
      (k0_pay16 x0) (k0_pay17 x0) (ov1 x0 x1) (k0_pay23 (k0_pay6 x1) (k0_pay8 x1)) (k0_pay24 (k0_pay7 x1) (k0_pay9 x1)) k0_pay25)
abbrev objV (x0 x1 : Vec F S8192x30 .f32) : FVec F S8192 .f32 :=
  k0_pay38 (k0_pay5 x1) (k0_pay18 x0) (k0_pay19 x0)
    (k0_pay31 (k0_pay6 x1) (k0_pay7 x1) (k0_pay8 x1) (k0_pay9 x1) (k0_pay14 x0) (k0_pay15 x0) (k0_pay16 x0)
      (k0_pay17 x0) (k0_pay18 x0) (k0_pay19 x0) (ov1 x0 x1) (k0_pay23 (k0_pay6 x1) (k0_pay8 x1)) (k0_pay24 (k0_pay7 x1) (k0_pay9 x1)) k0_pay25)
    (k0_pay33 (k0_pay6 x1) (k0_pay7 x1) (k0_pay8 x1) (k0_pay9 x1) (k0_pay14 x0) (k0_pay15 x0) (k0_pay16 x0)
      (k0_pay17 x0) (ov1 x0 x1) (k0_pay23 (k0_pay6 x1) (k0_pay8 x1)) (k0_pay24 (k0_pay7 x1) (k0_pay9 x1)) k0_pay25)
abbrev otherV (x0 x1 : Vec F S8192x30 .f32) : FVec F S8192 .f32 :=
  k0_pay39 (k0_pay5 x1)
    (k0_pay32 (k0_pay6 x1) (k0_pay7 x1) (k0_pay8 x1) (k0_pay9 x1) (k0_pay14 x0) (k0_pay15 x0) (k0_pay16 x0)
      (k0_pay17 x0) (k0_pay18 x0) (k0_pay19 x0) (ov1 x0 x1) (k0_pay23 (k0_pay6 x1) (k0_pay8 x1)) (k0_pay24 (k0_pay7 x1) (k0_pay9 x1)) k0_pay25)
    (k0_pay34 (k0_pay6 x1) (k0_pay7 x1) (k0_pay8 x1) (k0_pay9 x1) (k0_pay14 x0) (k0_pay15 x0) (k0_pay16 x0)
      (k0_pay17 x0) (ov1 x0 x1) (k0_pay23 (k0_pay6 x1) (k0_pay8 x1)) (k0_pay24 (k0_pay7 x1) (k0_pay9 x1)) k0_pay25)
/-- The class term over the block's rows. -/
abbrev clsV (x0 x1 : Vec F S8192x30 .f32) : FVec F S8192 .f32 :=
  k0_pay44 (k0_pay3 x0) (k0_pay4 x1) (k0_pay5 x1)
    (k0_pay42 (k0_pay3 x0) (k0_pay4 x1) (k0_pay40 (k0_pay3 x0) (k0_pay4 x1)) (k0_pay41 (k0_pay4 x1)))
    (k0_pay43 (k0_pay3 x0) (k0_pay4 x1))

/-- WHAT THE BODY STORES: the block `xo` plus the slab sums of the rows' losses. -/
def step (x0 x1 : Vec F S8192x30 .f32) (xo : Vec F S1x8x128 .f32) : Vec F S1x8x128 .f32 :=
  k0_pay1 (otherV x0 x1) (clsV x0 x1) (k0_pay45 (xyV x0 x1) (whV x0 x1) (objV x0 x1)) (FloatOps.ofBits .f32 0x3F000000#32) xo

/-- The rows' losses: `(((5·xy + 5·wh) + obj) + ½·other) + cls`, row by row. -/
def rowLoss (x0 x1 : Vec F S8192x30 .f32) : FVec F S8192 .f32 :=
  addf (addf (k0_pay45 (xyV x0 x1) (whV x0 x1) (objV x0 x1))
    (mulf (broadcast S8192 (FloatOps.ofBits .f32 0x3F000000#32)) (otherV x0 x1))) (clsV x0 x1)

/-- The stored block is the old block plus the rows' losses, re-laid as 8 slabs of 8 × 128 and summed over the slabs. -/
theorem step_eq (x0 x1 : Vec F S8192x30 .f32) (xo : Vec F S1x8x128 .f32) :
    step x0 x1 xo = addf (shapeCast S1x8x128 xo shapeCasts_S1x8x128_S1x8x128)
      (shapeCast S1x8x128 (multiReduction .add [0] S8x128 (shapeCast S8x8x128 (rowLoss x0 x1) shapeCasts_S8192_S8x8x128)
        0x00000000#32 reduces_S8x8x128_S8x128 (.inl rfl) rfl) shapeCasts_S8x128_S1x8x128) := rfl

/-! ## The two cases' found pieces -/

/-- A step that is not a core's first: the body's one covering store, over the block the point before left. -/
theorem out_B (c : Dev nD) (i : grid0.Coords) (a2 : Memref sig .tc .vmem S8192x30 .f32) (h2 : a2.IsWhole)
    (a3 : Memref sig .tc .vmem S8192x30 .f32) (h3 : a3.IsWhole) (a4 : Memref sig .tc .vmem S1x8x128 .f32) (h4 : a4.IsWhole)
    (hc : ¬cond0_0 i) (x0 x1 : Vec F S8192x30 .f32) (xo : Vec F S1x8x128 .f32) :
    out0_B_2 c i a2 h2 a3 h3 a4 h4 hc x0 x1 xo = step x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S8192x30) hz2,
    View.ld_unit_zero (S := S1x8x128) hz3]
  rfl

/-- A core's first step: the block is zeroed, read back, and the rows' slab sums added to it. -/
theorem out_A (c : Dev nD) (i : grid0.Coords) (a2 : Memref sig .tc .vmem S8192x30 .f32) (h2 : a2.IsWhole)
    (a3 : Memref sig .tc .vmem S8192x30 .f32) (h3 : a3.IsWhole) (a4 : Memref sig .tc .vmem S1x8x128 .f32) (h4 : a4.IsWhole)
    (hc : cond0_0 i) (x0 x1 : Vec F S8192x30 .f32) :
    out0_A_2 c i a2 h2 a3 h3 a4 h4 hc x0 x1 = step x0 x1 (k0_pay2 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x8x128) hz3, View.readCov_unit_zero (S := S1x8x128) _ hz3]
  simp only [View.readAt_eq_ld, h2.read_unread, h3.read_unread, h4.read_unread, View.ld_unit_zero (S := S8192x30) hz2,
    View.ld_unit_zero (S := S1x8x128) hz3]
  rfl

end Cert.KValue

end
-- ==== Proof.KFold.lean ====
/-
  The fold over the grid: the output block after each point is the block the point before left plus the point's slab sums,
  restarting from zero at each core's first step; each core's last step writes its [8, 128] tile of the [2, 8, 128] array of
  partial sums back; the host then sums the partial sums and divides by the batch size.
-/
import proofs.«147053_j34737695490341_2_alg».proof.Proof.KBody

set_option maxRecDepth 16384

noncomputable section

open Idealize.ShloMosaic Idealize.ShloMosaic.TcCoe Idealize.SL.Sem Idealize.ShloMosaic.ValueIdx
open Idealize.ShloMosaic.Pipeline (Dat)

namespace Cert.KValue

open Cert.KernelIdeal Cert.KernelIdeal.Gen Cert.CellLoss

variable {F : FTy → Type} [FloatOps F]

/-! ## The running block over a core's steps -/

variable (m : (ℓ : Loc nD τ sig) → Buf (Elt F) ℓ) (ρ : Dev nD → PrngReg)

/-- The output block after grid point `n`: at a core's first step (`n ≡ 0 mod 49`) the zeroed block plus the point's slab
    sums, at a later step the block the point before left plus the point's slab sums. -/
def acc (c : Dev nD) : (n : ℕ) → n < cfg0.N → Vec F S1x8x128 .f32
  | 0, h => step (iblk m c 0 ⟨0, h⟩) (iblk m c 1 ⟨0, h⟩) (k0_pay2 (F := F))
  | n + 1, h =>
    if (n + 1) % 49 = 0 then step (iblk m c 0 ⟨n + 1, h⟩) (iblk m c 1 ⟨n + 1, h⟩) (k0_pay2 (F := F))
    else step (iblk m c 0 ⟨n + 1, h⟩) (iblk m c 1 ⟨n + 1, h⟩) (acc c n (Nat.lt_of_succ_lt h))

theorem acc_first (c : Dev nD) (n : ℕ) (h : n < cfg0.N) (h0 : n % 49 = 0) :
    acc m c n h = step (iblk m c 0 ⟨n, h⟩) (iblk m c 1 ⟨n, h⟩) (k0_pay2 (F := F)) := by
  cases n with
  | zero => rfl
  | succ n => exact if_pos h0

theorem acc_later (c : Dev nD) (n : ℕ) (h : n + 1 < cfg0.N) (h0 : ¬(n + 1) % 49 = 0) :
    acc m c (n + 1) h = step (iblk m c 0 ⟨n + 1, h⟩) (iblk m c 1 ⟨n + 1, h⟩) (acc m c n (Nat.lt_of_succ_lt h)) :=
  if_neg h0

/-- What the output's staging buffer holds after point `n` is the running block: by induction on the point. -/
theorem outsAt_eq (c : Dev nD) : ∀ (n : ℕ) (h : n < cfg0.N), outsAt0 m c n h = acc m c n h
  | 0, h => (outsAt0_A m c ⟨0, h⟩ rfl).trans (out_A ..)
  | n + 1, h => by
    by_cases h0 : (n + 1) % 49 = 0
    · rw [outsAt0_A m c ⟨n + 1, h⟩ h0, out_A, acc_first m c (n + 1) h h0]
    · rw [outsAt0_B m c ⟨n + 1, h⟩ h0, out_B, acc_later m c n h h0]
      show step _ _ (outsAt0 m c n _) = step _ _ (acc m c n _)
      rw [outsAt_eq c n]

theorem acc_congr (c : Dev nD) {n n' : ℕ} (e : n = n') (h : n < cfg0.N) (h' : n' < cfg0.N) : acc m c n h = acc m c n' h' := by
  subst e; rfl

/-! ## The result array of the region -/

/-- The index maps of the three windows, decided over the grid: the two inputs' block row is the point's number, the
    output's block is the point's core. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 49 ∧ win0_2.index t (1 : Fin 3) = 0 ∧ win0_2.index t (2 : Fin 3) = 0 :=
  (by decide +kernel : ∀ t : Fin grid0.N, _)

/-- The [2, 8, 128] array of partial sums after the region: core `i₀`'s tile is the running block after that core's last
    step. -/
def partials (c : Dev nD) : Buf (Elt F) ((c : Thread nD τ).loc main_v2) := fun i =>
  acc m c ((i 0).val * 49 + 48) (by have h0 : (i 0).val < 2 := (i 0).isLt; rw [show cfg0.N = 98 from N_0]; omega)
    (ix3 (0 : Fin 1) (i 1) (i 2))

/-- A core's last step writes its tile back. -/
theorem flushed_eq (c : Dev nD) (t : Fin cfg0.N) (hf : (cfg0.win 2).flush t = true) :
    (dats m 0 c).flushed 2 t = ((cfg0.win 2).blk t).view.read (Elt F) (partials m c) := by
  have h48 : t.val % 49 = 48 := (flush0_2 t).mp hf
  obtain ⟨-, -, -, -, e0, e1, e2⟩ := idx_facts t
  show (cfg0.win 2).cut (grid0.coords t) ((dats m 0 c).after 2 t) = _
  rw [after0_2, outsAt_eq]
  funext j
  rw [View.read_apply]
  show acc m c t.val t.isLt j = partials m c (((cfg0.win 2).blk t).view.emb j)
  have hj0 : (j 0).val < 1 := (j 0).isLt
  have hn : t.val = (((cfg0.win 2).blk t).view.emb j 0).val * 49 + 48 := by
    show t.val = (win0_2.index t (0 : Fin 3) * 1 + 1 * (j 0).val) * 49 + 48
    omega
  refine (congrFun (acc_congr m c hn t.isLt _) j).trans (congrArg (acc m c _ _) (funext fun a => ?_))
  match a with
  | ⟨0, _⟩ => exact Fin.ext (by show (j 0).val = 0; omega)
  | ⟨1, _⟩ => exact Fin.ext (by show (j 1).val = win0_2.index t (1 : Fin 3) * 8 + 1 * (j 1).val; omega)
  | ⟨2, _⟩ => exact Fin.ext (by show (j 2).val = win0_2.index t (2 : Fin 3) * 128 + 1 * (j 2).val; omega)

/-- So the region's result array ends holding the partial sums: every tile is its core's last step's. -/
theorem partials_final (c : Dev nD) : (dats m 0 c).arrAt 2 cfg0.N = partials m c :=
  (dats m 0 c).arrAt_eq_of_cover 2 (partials m c) (flushed_eq m c) fun i => by
    have h0 : (i 0).val < 2 := (i 0).isLt
    have h1 : (i 1).val < 8 := (i 1).isLt
    have h2 : (i 2).val < 128 := (i 2).isLt
    have hN : cfg0.N = 98 := N_0
    have ht : (i 0).val * 49 + 48 < cfg0.N := by omega
    refine ⟨⟨(i 0).val * 49 + 48, ht⟩, (flush0_2 _).mpr (by show ((i 0).val * 49 + 48) % 49 = 48; omega), ?_⟩
    obtain ⟨-, -, -, -, e0, e1, e2⟩ := idx_facts ⟨(i 0).val * 49 + 48, ht⟩
    have e0' : win0_2.index ⟨(i 0).val * 49 + 48, ht⟩ (0 : Fin 3) = (i 0).val := by rw [e0]; show ((i 0).val * 49 + 48) / 49 = (i 0).val; omega
    show i ∈ ((View.whole main_v2).slice (win0_2.rect ⟨(i 0).val * 49 + 48, ht⟩)).set
    rw [View.set_slice_whole, Rect.mem_set_unit]
    intro a
    match a with
    | ⟨0, _⟩ =>
      show win0_2.index ⟨(i 0).val * 49 + 48, ht⟩ (0 : Fin 3) * 1 ≤ (i 0).val ∧ (i 0).val < win0_2.index ⟨(i 0).val * 49 + 48, ht⟩ (0 : Fin 3) * 1 + 1
      omega
    | ⟨1, _⟩ =>
      show win0_2.index ⟨(i 0).val * 49 + 48, ht⟩ (1 : Fin 3) * 8 ≤ (i 1).val ∧ (i 1).val < win0_2.index ⟨(i 0).val * 49 + 48, ht⟩ (1 : Fin 3) * 8 + 8
      omega
    | ⟨2, _⟩ =>
      show win0_2.index ⟨(i 0).val * 49 + 48, ht⟩ (2 : Fin 3) * 128 ≤ (i 2).val ∧ (i 2).val < win0_2.index ⟨(i 0).val * 49 + 48, ht⟩ (2 : Fin 3) * 128 + 128
      omega

/-! ## The host's lines after the region -/

/-- The program's result from the partial sums: their sum over all of [2, 8, 128], from zero, divided by the batch size. -/
def resultOf (p : (⟨S2x8x128, .f32⟩ : BufTy).Contents (Elt F)) : (⟨S_, .f32⟩ : BufTy).Contents (Elt F) :=
  Host.divf (Host.reduceAdd p (constant S_ .f32 0x00000000#32) reducesTo_S2x8x128_S_d0_1_2 h_S_) (constant S_ .f32 0x46800000#32)

theorem tail_eq (c : Dev nD) :
    Pipeline.afterTail₀ cfgs (dats m) 0 (V0 m) [hostOps1] c main_v4 = resultOf (partials m c) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.tc.devRef main_v2)
      = partials m c :=
    (Pipeline.withArrays_arr spec0 launch0.win.arr_inj c _ _ 2).trans (partials_final m c)
  rw [e]
  rfl

/-- THE KERNEL'S RUN, READ: every weakly fair execution terminates with the result at `resultOf` of the partial sums and
    the two argument arrays unchanged. -/
theorem run : θ_run defs (onTc (τ := τ) (main (F := F))) ⟨m, fun _ => 0, ρ⟩ fun r => ∀ c : Dev nD,
      r.2.mem ((c : Thread nD τ).loc main_v4) = resultOf (partials m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v4 (Pipeline.mem_restRefs_of main_v4 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KValue

end
-- ==== Proof.KRow.lean ====
/-
  The loss the body computes for one row of a block is the specification's cell loss of that row's channels.
-/
import proofs.«147053_j34737695490341_2_alg».proof.Proof.KBody

set_option maxRecDepth 16384

noncomputable section

open Idealize.ShloMosaic Idealize.ShloMosaic.TcCoe Idealize.SL.Sem Idealize.ShloMosaic.ValueIdx

namespace Cert.KValue

open Cert.KernelIdeal Cert.KernelIdeal.Gen Cert.CellLoss

variable {F : FTy → Type} [FloatOps F]

/-- Column `c` of a block of floats, flattened to a vector over the rows: at row `r` it is the block's entry `(r, c)`. -/
theorem fcol_at {c : Nat} (v : FVec F S8192x30 .f32) (hs : S8192x30.Slices ![0, c] S8192x1) (r : S8192.Idx) :
    shapeCast S8192 (extractStridedSlice S8192x1 ![0, c] v hs) shapeCasts_S8192x1_S8192 r
      = v (ix2 (r 0) (⟨c, col_lt hs⟩ : Fin 30)) := by
  rw [shapeCast_apply _ shapeCasts_S8192x1_S8192 r (ix2 (r 0) (0 : Fin 1))
    (by rw [Shape.rowMajor_val_two, Shape.rowMajor_val_one]; show (r 0).val * 1 + 0 = (r 0).val; omega)]
  exact extractStridedSlice_apply _ v hs _ _ (fun a => match a with
    | ⟨0, _⟩ => by show (r 0).val = 0 + (r 0).val; omega
    | ⟨1, _⟩ => by show c = c + 0; omega)

/-! ## A row's loss is the specification's cell loss of the row's channels -/

/-- The loss the body computes for row `r` of a block is the specification's `cell` of the thirty channels of row `r` of
    the predictions' block `x0` and of the targets' block `x1`: every operation of the body is pointwise over the rows,
    and column `c` of a block at row `r` is the block's entry `(r, c)`. -/
theorem rowLoss_at (x0 x1 : Vec F S8192x30 .f32) (r : S8192.Idx) :
    rowLoss x0 x1 r = cell (fun ch => x0 (ix2 (r 0) ch)) (fun ch => x1 (ix2 (r 0) ch)) := by
  simp only [rowLoss, xyV, whV, objV, otherV, clsV, ov1, k0_pay3, k0_pay4, k0_pay5, k0_pay6, k0_pay7, k0_pay8, k0_pay9,
    k0_pay10, k0_pay11, k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31, k0_pay32, k0_pay33,
    k0_pay34, k0_pay35, k0_pay36, k0_pay37, k0_pay38, k0_pay39, k0_pay40, k0_pay41, k0_pay42, k0_pay43, k0_pay44, k0_pay45,
    addf_at, subf_at, mulf_at, divf_at, maximumf_at, minimumf_at, absf_at, sqrt_at, cmpf_apply, extui_apply, sitofp_apply,
    select_apply, broadcast_apply, shapeCast_self, fcol_at]
  rfl

end Cert.KValue

end
-- ==== Proof.LibSums.lean ====
/-
  General facts about finite sums.

  A sum over the index set of a rank-3 array is the triple sum over its coordinates; a double sum over `a < A`, `b < B`
  of a function of the row-major number `a·B + b` is the single sum over the numbers below `A·B`; and a finite
  nonnegative real factor distributes over every finite sum of extended reals, whatever the summands are (the factor is
  finite and cannot change a sign, so multiplying by it is additive at the infinities too). Last, a running sum that is restarted from a fixed value at every multiple of a period is, inside
  each period, that value plus the terms met since the period began.
-/
import Idealize.ShloMosaic.Lib.ValueIdx

noncomputable section

open scoped BigOperators

namespace Cert.LibSums

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row-major numbering: the pairs `(a, b)` with `a < A`, `b < B` are numbered `a·B + b`, once each, by the numbers
    below `A·B`; so a double sum of a function of that number is the single sum over the numbers. -/
theorem sum_fin_mul {M : Type*} [AddCommMonoid M] (A B : ℕ) (f : ℕ → M) :
    ∑ a : Fin A, ∑ b : Fin B, f (a.val * B + b.val) = ∑ r : Fin (A * B), f r.val := by
  rw [← Equiv.sum_comp finProdFinEquiv (fun r : Fin (A * B) => f r.val), Fintype.sum_prod_type]
  refine Finset.sum_congr rfl fun a _ => Finset.sum_congr rfl fun b _ => ?_
  rw [finProdFinEquiv_apply_val, Nat.add_comm, Nat.mul_comm]

/-- A finite nonnegative real factor distributes over a finite sum of extended reals. No summand need be finite:
    multiplying by `0 ≤ a < ⊤` is additive on all of the extended reals. -/
theorem ereal_mul_sum {ι : Type*} (a : ℝ) (ha : 0 ≤ a) (s : Finset ι) (f : ι → EReal) :
    (a : EReal) * ∑ i ∈ s, f i = ∑ i ∈ s, (a : EReal) * f i := by
  classical
  refine Finset.induction_on s ?_ ?_
  · rw [Finset.sum_empty, Finset.sum_empty, mul_zero]
  · intro i s hi ih
    rw [Finset.sum_insert hi, Finset.sum_insert hi,
      EReal.left_distrib_of_nonneg_of_ne_top (EReal.coe_nonneg.2 ha) (EReal.coe_ne_top a), ih]

/-- A running sum that restarts with period `P`: if `S` is set to `z + G n` at every multiple `n` of `P` and grows by
    `G (n + 1)` at every other step, then inside the period that starts at `q·P` it is `z` plus the terms met so far. -/
theorem restart_sum {M : Type*} [AddCommMonoid M] (P : ℕ) (hP : 0 < P) (G S : ℕ → M) (z : M)
    (h0 : ∀ n, n % P = 0 → S n = z + G n)
    (hs : ∀ n, (n + 1) % P ≠ 0 → S (n + 1) = S n + G (n + 1)) :
    ∀ q s, s < P → S (q * P + s) = z + ∑ i ∈ Finset.range (s + 1), G (q * P + i) := by
  intro q s
  induction s with
  | zero =>
    intro _
    rw [Finset.sum_range_one]
    exact h0 _ (Nat.mul_mod_left q P)
  | succ s ih =>
    intro hs1
    have hne : (q * P + s + 1) % P ≠ 0 := by
      rw [Nat.add_assoc, Nat.mul_add_mod_self_right, Nat.mod_eq_of_lt hs1]
      exact Nat.succ_ne_zero s
    have step : S (q * P + s + 1) = S (q * P + s) + G (q * P + s + 1) := hs _ hne
    show S (q * P + s + 1) = z + ∑ i ∈ Finset.range (s + 1 + 1), G (q * P + i)
    rw [step, ih (Nat.lt_of_succ_lt hs1), Finset.sum_range_succ _ (s + 1), add_assoc]
    rfl

/-- At the last step of a period the running sum is `z` plus all `P` terms of the period. -/
theorem restart_sum_last {M : Type*} [AddCommMonoid M] (P : ℕ) (hP : 0 < P) (G S : ℕ → M) (z : M)
    (h0 : ∀ n, n % P = 0 → S n = z + G n)
    (hs : ∀ n, (n + 1) % P ≠ 0 → S (n + 1) = S n + G (n + 1)) (q : ℕ) :
    S (q * P + (P - 1)) = z + ∑ i : Fin P, G (q * P + i.val) := by
  rw [restart_sum P hP G S z h0 hs q (P - 1) (Nat.sub_lt hP Nat.one_pos), Nat.sub_add_cancel (Nat.succ_le_of_lt hP)]
  exact congrArg (fun t => z + t) (Fin.sum_univ_eq_sum_range (fun i => G (q * P + i)) P).symm

end Cert.LibSums

end
-- ==== Proof.Regroup.lean ====
/-
  The two arrangements of the batch's loss.

  One arrangement sums, over all cells, the cell's loss — the weighted combination of its six terms. The other sums
  each of the six terms over all cells first (each sum started from zero) and combines the six sums with the same
  weights 5, 5, 1, 1, ½, 1. They agree because a finite nonnegative real factor distributes over every finite sum of
  extended reals and addition of extended reals is commutative and associative; no summand has to be finite.

  The cells themselves are met in three numberings: by (image, row, column), by the row-major cell number, and by the
  digits (core, grid step, slab, sublane, lane) of that number in the mixed radix 2 · 49 · 8 · 8 · 128. Each is a
  bijection onto the 802816 cells, so the sums over them are the same sum.
-/
import proofs.«147053_j34737695490341_2_alg».proof.Proof.LibSums
import proofs.«147053_j34737695490341_2_alg».proof.Proof.CellLoss
import Idealize.ShloMosaic.PureOps.Ideal.Laws

noncomputable section

open scoped BigOperators

namespace Cert.Regroup

open Idealize.ShloMosaic Idealize.ShloMosaic.ValueIdx Cert.CellLoss Cert.LibSums

/-! ## The weights -/

/-- The pattern `0x40A00000` is the real number 5. -/
theorem five_val : Ideal.ofBits .f32 0x40A00000#32 = ((5 : ℝ) : EReal) := by
  simp [Ideal.ofBits, Ideal.ieee, -EReal.coe_mul]; norm_num

/-- The pattern `0x3F000000` is the real number ½. -/
theorem half_val : Ideal.ofBits .f32 0x3F000000#32 = ((1/2 : ℝ) : EReal) := by
  simp [Ideal.ofBits, Ideal.ieee, -EReal.coe_mul]; norm_num

local notation "w5" => (Ideal.ofBits FTy.f32 0x40A00000#32 : EReal)
local notation "wh" => (Ideal.ofBits FTy.f32 0x3F000000#32 : EReal)
local notation "w0" => (Ideal.ofBits FTy.f32 0x00000000#32 : EReal)

/-! ## Weights outside six sums against weights inside one sum -/

/-- Six sums over the same finite index set, each started from zero, combined with the weights 5, 5, 1, 1, ½, 1, are
    the one sum of the termwise combination: the zeros drop out, the two finite nonnegative weights go inside their
    sums, and sums of sums are sums. Nothing is assumed of the summands. -/
theorem regroup {ι : Type*} [Fintype ι] (f₁ f₂ f₃ f₄ f₅ f₆ : ι → EReal) :
    ((((w5 * (w0 + ∑ i, f₁ i)) + (w5 * (w0 + ∑ i, f₂ i))) + ((w0 + ∑ i, f₃ i) + (w0 + ∑ i, f₄ i)))
        + (wh * (w0 + ∑ i, f₅ i))) + (w0 + ∑ i, f₆ i)
      = ∑ i, (((((w5 * f₁ i) + (w5 * f₂ i)) + (f₃ i + f₄ i)) + (wh * f₅ i)) + f₆ i) := by
  rw [Ideal.ofBits_zero_f32, five_val, half_val]
  simp only [zero_add]
  rw [ereal_mul_sum 5 (by norm_num), ereal_mul_sum 5 (by norm_num), ereal_mul_sum (1/2) (by norm_num)]
  simp only [← Finset.sum_add_distrib]

/-- At the extended reals a cell's loss is the weighted combination of its six terms, by definition. -/
theorem cell_eq (p t : Fin 30 → EReal) :
    cell (F := Ideal) p t
      = ((((w5 * xyTerm (F := Ideal) p t) + (w5 * whTerm (F := Ideal) p t))
            + (objTerm (F := Ideal) p t + emptyTerm (F := Ideal) p t))
          + (wh * otherTerm (F := Ideal) p t)) + clsTerm (F := Ideal) p t := rfl

/-! ## Cells by coordinates, by number, and by tile -/

/-- A function of the cell number continued by zero beyond the last cell, so that it can be summed over numbers
    written as arithmetic expressions. -/
def ext (h : Fin 802816 → EReal) (r : ℕ) : EReal := if hr : r < 802816 then h ⟨r, hr⟩ else 0

theorem ext_of_lt (h : Fin 802816 → EReal) (r : ℕ) (hr : r < 802816) : ext h r = h ⟨r, hr⟩ := dif_pos hr

theorem ext_val (h : Fin 802816 → EReal) (r : Fin 802816) : ext h r.val = h r := dif_pos r.isLt

/-- Two rank-4 indices with the same first three coordinate values and the same last coordinate are equal. -/
theorem ix4_congr {n0 n1 n2 n3 : Nat} {a a' : Fin n0} {b b' : Fin n1} {c c' : Fin n2} (d : Fin n3)
    (ha : a.val = a'.val) (hb : b.val = b'.val) (hc : c.val = c'.val) : ix4 a b c d = ix4 a' b' c' d := by
  obtain rfl := Fin.ext ha; obtain rfl := Fin.ext hb; obtain rfl := Fin.ext hc; rfl

/-- The cell at image `a`, row `b`, column `c` is cell number `(a·7 + b)·7 + c`. -/
theorem chan_ix3 {α : Type} (x : Arr.Idx → α) (a : Fin 16384) (b c : Fin 7)
    (h : (a.val * 7 + b.val) * 7 + c.val < 802816) :
    chan x (ix3 a b c) = rowOf x ⟨(a.val * 7 + b.val) * 7 + c.val, h⟩ := by
  have ha := a.isLt; have hb := b.isLt; have hc := c.isLt
  funext ch
  show x (ix4 a b c ch) = x (cellIdx _ ch)
  unfold cellIdx
  exact congrArg x (ix4_congr ch
    (by show a.val = ((a.val * 7 + b.val) * 7 + c.val) / 49; omega)
    (by show b.val = ((a.val * 7 + b.val) * 7 + c.val) / 7 % 7; omega)
    (by show c.val = ((a.val * 7 + b.val) * 7 + c.val) % 7; omega))

/-- A sum over the cells by (image, row, column) is the sum over the cells by number. -/
theorem reindex_cells (g : (Fin 30 → EReal) → (Fin 30 → EReal) → EReal) (x0 x1 : Arr.Idx → EReal) :
    ∑ j : (⟨3, ![16384, 7, 7]⟩ : Shape).Idx, g (chan x0 j) (chan x1 j)
      = ∑ r : Fin 802816, g (rowOf x0 r) (rowOf x1 r) := by
  rw [sum_idx3]
  have hcell : ∀ (a : Fin 16384) (b c : Fin 7), g (chan x0 (ix3 a b c)) (chan x1 (ix3 a b c))
      = ext (fun r => g (rowOf x0 r) (rowOf x1 r)) ((a.val * 7 + b.val) * 7 + c.val) := by
    intro a b c
    have h : (a.val * 7 + b.val) * 7 + c.val < 802816 := by
      have := a.isLt; have := b.isLt; have := c.isLt; omega
    rw [ext_of_lt _ _ h, chan_ix3 x0 a b c h, chan_ix3 x1 a b c h]
  simp only [hcell]
  refine (sum_fin_mul 16384 7 (fun n => ∑ c : Fin 7,
    ext (fun r => g (rowOf x0 r) (rowOf x1 r)) (n * 7 + c.val))).trans ?_
  refine (sum_fin_mul (16384 * 7) 7 (ext (fun r => g (rowOf x0 r) (rowOf x1 r)))).trans ?_
  show ∑ r : Fin 802816, ext (fun r => g (rowOf x0 r) (rowOf x1 r)) r.val = _
  exact Finset.sum_congr rfl fun r _ => ext_val _ r

/-- The tiles deal out every cell number exactly once: summing over core, grid step, slab, sublane and lane (in
    that order, the order of the digits of the cell number) is summing over all cells. -/
theorem reindex_tiles_digits (h : Fin 802816 → EReal) :
    ∑ c : Fin 2, ∑ s : Fin 49, ∑ k : Fin 8, ∑ u : Fin 8, ∑ l : Fin 128, h (kRow c s k u l) = ∑ r : Fin 802816, h r := by
  have hrow : ∀ (c : Fin 2) (s : Fin 49) (k : Fin 8) (u : Fin 8) (l : Fin 128),
      h (kRow c s k u l) = ext h ((((c.val * 49 + s.val) * 8 + k.val) * 8 + u.val) * 128 + l.val) := by
    intro c s k u l
    have hc := c.isLt; have hs := s.isLt; have hk := k.isLt; have hu := u.isLt; have hl := l.isLt
    have hlt : (((c.val * 49 + s.val) * 8 + k.val) * 8 + u.val) * 128 + l.val < 802816 := by omega
    rw [ext_of_lt _ _ hlt]
    exact congrArg h (Fin.ext (by
      show ((c.val * 49 + s.val) * 8 + k.val) * 1024 + u.val * 128 + l.val
        = (((c.val * 49 + s.val) * 8 + k.val) * 8 + u.val) * 128 + l.val
      omega))
  simp only [hrow]
  refine (sum_fin_mul 2 49 (fun n => ∑ k : Fin 8, ∑ u : Fin 8, ∑ l : Fin 128,
    ext h (((n * 8 + k.val) * 8 + u.val) * 128 + l.val))).trans ?_
  refine (sum_fin_mul (2 * 49) 8 (fun n => ∑ u : Fin 8, ∑ l : Fin 128,
    ext h ((n * 8 + u.val) * 128 + l.val))).trans ?_
  refine (sum_fin_mul (2 * 49 * 8) 8 (fun n => ∑ l : Fin 128, ext h (n * 128 + l.val))).trans ?_
  refine (sum_fin_mul (2 * 49 * 8 * 8) 128 (ext h)).trans ?_
  show ∑ r : Fin 802816, ext h r.val = _
  exact Finset.sum_congr rfl fun r _ => ext_val h r

/-- The same with the sums nested as core, sublane, lane, grid step, slab: finite sums may be exchanged. -/
theorem reindex_tiles (h : Fin 802816 → EReal) :
    ∑ c : Fin 2, ∑ u : Fin 8, ∑ l : Fin 128, ∑ s : Fin 49, ∑ k : Fin 8, h (kRow c s k u l) = ∑ r : Fin 802816, h r := by
  rw [← reindex_tiles_digits h]
  refine Finset.sum_congr rfl fun c _ => ?_
  calc ∑ u : Fin 8, ∑ l : Fin 128, ∑ s : Fin 49, ∑ k : Fin 8, h (kRow c s k u l)
      = ∑ u : Fin 8, ∑ s : Fin 49, ∑ l : Fin 128, ∑ k : Fin 8, h (kRow c s k u l) :=
        Finset.sum_congr rfl fun u _ => Finset.sum_comm
    _ = ∑ u : Fin 8, ∑ s : Fin 49, ∑ k : Fin 8, ∑ l : Fin 128, h (kRow c s k u l) :=
        Finset.sum_congr rfl fun u _ => Finset.sum_congr rfl fun s _ => Finset.sum_comm
    _ = ∑ s : Fin 49, ∑ u : Fin 8, ∑ k : Fin 8, ∑ l : Fin 128, h (kRow c s k u l) := Finset.sum_comm
    _ = ∑ s : Fin 49, ∑ k : Fin 8, ∑ u : Fin 8, ∑ l : Fin 128, h (kRow c s k u l) :=
        Finset.sum_congr rfl fun s _ => Finset.sum_comm

/-! ## The reference's arrangement is the total -/

/-- Six sums over the cells by coordinates, weighted outside and divided by the batch size, are the batch's loss. -/
theorem total_eq (x0 x1 : Arr.Idx → EReal) :
    Ideal.div
      (((((w5 * (w0 + ∑ j : (⟨3, ![16384, 7, 7]⟩ : Shape).Idx, xyTerm (F := Ideal) (chan x0 j) (chan x1 j)))
            + (w5 * (w0 + ∑ j : (⟨3, ![16384, 7, 7]⟩ : Shape).Idx, whTerm (F := Ideal) (chan x0 j) (chan x1 j))))
          + ((w0 + ∑ j : (⟨3, ![16384, 7, 7]⟩ : Shape).Idx, objTerm (F := Ideal) (chan x0 j) (chan x1 j))
            + (w0 + ∑ j : (⟨3, ![16384, 7, 7]⟩ : Shape).Idx, emptyTerm (F := Ideal) (chan x0 j) (chan x1 j))))
        + (wh * (w0 + ∑ j : (⟨3, ![16384, 7, 7]⟩ : Shape).Idx, otherTerm (F := Ideal) (chan x0 j) (chan x1 j))))
        + (w0 + ∑ j : (⟨3, ![16384, 7, 7]⟩ : Shape).Idx, clsTerm (F := Ideal) (chan x0 j) (chan x1 j)))
      (batch (F := Ideal))
      = total x0 x1 := by
  unfold total lossSum
  rw [Ideal.hostDivf_def, regroup, ← reindex_cells (fun p t => cell (F := Ideal) p t)]
  exact congrArg (fun z => Ideal.div z (batch (F := Ideal))) (Finset.sum_congr rfl fun j _ => (cell_eq _ _).symm)

/-- The same statement with the constants written as the float constants of the loss at the extended reals. -/
theorem total_eq' (x0 x1 : Arr.Idx → EReal) :
    FloatOps.hostDivf (F := Ideal)
      (((((five (F := Ideal) * (zero (F := Ideal) + ∑ j : (⟨3, ![16384, 7, 7]⟩ : Shape).Idx, xyTerm (F := Ideal) (chan x0 j) (chan x1 j)))
            + (five (F := Ideal) * (zero (F := Ideal) + ∑ j : (⟨3, ![16384, 7, 7]⟩ : Shape).Idx, whTerm (F := Ideal) (chan x0 j) (chan x1 j))))
          + ((zero (F := Ideal) + ∑ j : (⟨3, ![16384, 7, 7]⟩ : Shape).Idx, objTerm (F := Ideal) (chan x0 j) (chan x1 j))
            + (zero (F := Ideal) + ∑ j : (⟨3, ![16384, 7, 7]⟩ : Shape).Idx, emptyTerm (F := Ideal) (chan x0 j) (chan x1 j))))
        + (half (F := Ideal) * (zero (F := Ideal) + ∑ j : (⟨3, ![16384, 7, 7]⟩ : Shape).Idx, otherTerm (F := Ideal) (chan x0 j) (chan x1 j))))
        + (zero (F := Ideal) + ∑ j : (⟨3, ![16384, 7, 7]⟩ : Shape).Idx, clsTerm (F := Ideal) (chan x0 j) (chan x1 j)))
      (batch (F := Ideal))
      = total x0 x1 := total_eq x0 x1

end Cert.Regroup

end
-- ==== Proof.KIdeal.lean ====
/-
  The kernel's result at the extended reals. A row of a point's input block is a cell of the argument array (the host's
  reshape keeps the row-major order, and point `t`'s block holds rows `8192·t … 8192·t + 8191`); the entry (u, l) of the
  output block gains, at each point, the eight losses of the point's rows `1024·k + 128·u + l`; over a core's 49 steps
  that is the sum over those 49 · 8 cells, and the host's sum over the [2, 8, 128] partial sums runs over every cell of the
  batch exactly once. So the result is the specification's total.
-/
import proofs.«147053_j34737695490341_2_alg».proof.Proof.KFold
import proofs.«147053_j34737695490341_2_alg».proof.Proof.KRow
import proofs.«147053_j34737695490341_2_alg».proof.Proof.Regroup
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KValue

open Cert.KernelIdeal Cert.KernelIdeal.Gen Cert.CellLoss Cert.LibSums Cert.Regroup

variable (m : (ℓ : Loc nD τ sig) → Buf (Elt Ideal) ℓ)

/-- The predictions and the targets as the program is launched with them. -/
abbrev preds (c : Dev nD) : Arr.Idx → EReal := m ((c : Thread nD τ).loc main_arg0)
abbrev targs (c : Dev nD) : Arr.Idx → EReal := m ((c : Thread nD τ).loc main_arg1)

/-! ## The host's reshape before the region -/

theorem V_v0 (c : Dev nD) :
    (V m c main_v0 : S802816x30.Idx → EReal) = shapeCast S802816x30 (preds m c) shapeCasts_S16384x7x7x30_S802816x30 := by
  show StableHlo.after hostOps0 (fun b => m (c, b)) (Proc.devRef .tc main_v0) = _
  after_results
  rfl

theorem V_v1 (c : Dev nD) :
    (V m c main_v1 : S802816x30.Idx → EReal) = shapeCast S802816x30 (targs m c) shapeCasts_S16384x7x7x30_S802816x30 := by
  show StableHlo.after hostOps0 (fun b => m (c, b)) (Proc.devRef .tc main_v1) = _
  after_results
  rfl

/-- The reshaped array at row `R`, channel `ch` is the argument at cell `R`, channel `ch`: the same row-major position. -/
theorem reshape_at (x : Arr.Idx → EReal) (R : Fin 802816) (ch : Fin 30) :
    shapeCast S802816x30 x shapeCasts_S16384x7x7x30_S802816x30 (ix2 R ch) = x (cellIdx R ch) :=
  shapeCast_apply x _ (ix2 R ch) (cellIdx R ch) (by
    rw [Shape.rowMajor_val_four, Shape.rowMajor_val_two]
    show ((R.val / 49 * 7 + R.val / 7 % 7) * 7 + R.val % 7) * 30 + ch.val = R.val * 30 + ch.val
    omega)

/-! ## A row of a point's block is a cell of the argument -/

theorem iblk0_at (c : Dev nD) (t : Fin cfg0.N) (y : Fin 8192) (ch : Fin 30) (h : t.val * 8192 + y.val < 802816) :
    (iblk m c 0 t : S8192x30.Idx → EReal) (ix2 y ch) = preds m c (cellIdx ⟨t.val * 8192 + y.val, h⟩ ch) := by
  obtain ⟨e0, e1, -⟩ := idx_facts t
  unfold iblk
  rw [View.read_apply]
  show V m c main_v0 (((cfg0.win 0).blk t).view.emb (ix2 y ch)) = _
  refine (congrFun (V_v0 m c) _).trans ?_
  have e : ((cfg0.win 0).blk t).view.emb (ix2 y ch) = ix2 (⟨t.val * 8192 + y.val, h⟩ : Fin 802816) ch :=
    funext fun a => match a with
      | ⟨0, _⟩ => Fin.ext (by show win0_0.index t (0 : Fin 2) * 8192 + 1 * y.val = t.val * 8192 + y.val; omega)
      | ⟨1, _⟩ => Fin.ext (by show win0_0.index t (1 : Fin 2) * 30 + 1 * ch.val = ch.val; omega)
  rw [e, reshape_at]

theorem iblk1_at (c : Dev nD) (t : Fin cfg0.N) (y : Fin 8192) (ch : Fin 30) (h : t.val * 8192 + y.val < 802816) :
    (iblk m c 1 t : S8192x30.Idx → EReal) (ix2 y ch) = targs m c (cellIdx ⟨t.val * 8192 + y.val, h⟩ ch) := by
  obtain ⟨-, -, e0, e1, -⟩ := idx_facts t
  unfold iblk
  rw [View.read_apply]
  show V m c main_v1 (((cfg0.win 1).blk t).view.emb (ix2 y ch)) = _
  refine (congrFun (V_v1 m c) _).trans ?_
  have e : ((cfg0.win 1).blk t).view.emb (ix2 y ch) = ix2 (⟨t.val * 8192 + y.val, h⟩ : Fin 802816) ch :=
    funext fun a => match a with
      | ⟨0, _⟩ => Fin.ext (by show win0_1.index t (0 : Fin 2) * 8192 + 1 * y.val = t.val * 8192 + y.val; omega)
      | ⟨1, _⟩ => Fin.ext (by show win0_1.index t (1 : Fin 2) * 30 + 1 * ch.val = ch.val; omega)
  rw [e, reshape_at]

/-! ## The stored block at an entry -/

/-- Entry (u, l) of the stored block is the old entry plus the eight losses of the rows `1024·k + 128·u + l`. -/
theorem step_at (x0 x1 : Vec Ideal S8192x30 .f32) (xo : Vec Ideal S1x8x128 .f32) (u : Fin 8) (l : Fin 128) :
    (step x0 x1 xo (ix3 (0 : Fin 1) u l) : EReal)
      = xo (ix3 (0 : Fin 1) u l)
        + ∑ k : Fin 8, rowLoss x0 x1 (ix1 (⟨k.val * 1024 + u.val * 128 + l.val, by have := k.isLt; have := u.isLt; have := l.isLt; omega⟩ : Fin 8192)) := by
  rw [step_eq, shapeCast_self]
  show (xo (ix3 (0 : Fin 1) u l) : EReal) + (shapeCast S1x8x128 (multiReduction (F := Ideal) .add [0] S8x128
      (shapeCast S8x8x128 (rowLoss x0 x1) shapeCasts_S8192_S8x8x128) 0x00000000#32
      reduces_S8x8x128_S8x128 (.inl rfl) rfl) shapeCasts_S8x128_S1x8x128 (ix3 (0 : Fin 1) u l) : EReal) = _
  congr 1
  refine (shapeCast_apply _ shapeCasts_S8x128_S1x8x128 (ix3 (0 : Fin 1) u l) (ix2 u l) (by
    rw [Shape.rowMajor_val_two, Shape.rowMajor_val_three]
    show u.val * 128 + l.val = (0 * 8 + u.val) * 128 + l.val
    omega)).trans ?_
  refine (Ideal.multiReduction_add_single _ 0x00000000#32 reduces_S8x8x128_S8x128 (.inl rfl) rfl (ix2 u l)).trans ?_
  refine Finset.sum_congr rfl fun k _ => ?_
  exact shapeCast_apply _ shapeCasts_S8192_S8x8x128 _ _ (by
    rw [Shape.rowMajor_val_one, Shape.rowMajor_val_three]
    show k.val * 1024 + u.val * 128 + l.val = (k.val * 8 + u.val) * 128 + l.val
    omega)

/-! ## A core's 49 steps -/

/-- The eight rows of a slab column: row `1024·k + 128·u + l` of a block. -/
abbrev slabRow (k : Fin 8) (u : Fin 8) (l : Fin 128) : Fin 8192 :=
  ⟨k.val * 1024 + u.val * 128 + l.val, by have := k.isLt; have := u.isLt; have := l.isLt; omega⟩

/-- What point `n` adds to entry (u, l): the eight losses of its rows `1024·k + 128·u + l` (zero past the grid). -/
def slab (c : Dev nD) (u : Fin 8) (l : Fin 128) (n : ℕ) : EReal :=
  if h : n < cfg0.N then ∑ k : Fin 8, rowLoss (iblk m c 0 ⟨n, h⟩) (iblk m c 1 ⟨n, h⟩) (ix1 (slabRow k u l)) else 0

/-- Entry (u, l) of the output block after point `n` (zero past the grid). -/
def accAt (c : Dev nD) (u : Fin 8) (l : Fin 128) (n : ℕ) : EReal :=
  if h : n < cfg0.N then acc m c n h (ix3 (0 : Fin 1) u l) else 0

theorem accAt_first (c : Dev nD) (u : Fin 8) (l : Fin 128) (n : ℕ) (h0 : n % 49 = 0) :
    accAt m c u l n = 0 + slab m c u l n := by
  unfold accAt slab
  by_cases h : n < cfg0.N
  · rw [dif_pos h, dif_pos h, acc_first m c n h h0, step_at]
    congr 1
    show Ideal.ofBits .f32 0x00000000#32 = 0
    exact Ideal.ofBits_zero_f32
  · rw [dif_neg h, dif_neg h, add_zero]

theorem accAt_later (c : Dev nD) (u : Fin 8) (l : Fin 128) (n : ℕ) (h0 : (n + 1) % 49 ≠ 0) :
    accAt m c u l (n + 1) = accAt m c u l n + slab m c u l (n + 1) := by
  unfold accAt slab
  have hN : cfg0.N = 98 := N_0
  by_cases h : n + 1 < cfg0.N
  · rw [dif_pos h, dif_pos h, dif_pos (Nat.lt_of_succ_lt h), acc_later m c n h h0, step_at]
  · have hn : ¬ n < cfg0.N := by omega
    rw [dif_neg h, dif_neg h, dif_neg hn, add_zero]

/-- After a core's last step, entry (u, l) holds the sum over the core's 49 steps of what each adds. -/
theorem accAt_last (c : Dev nD) (u : Fin 8) (l : Fin 128) (q : ℕ) :
    accAt m c u l (q * 49 + 48) = 0 + ∑ s : Fin 49, slab m c u l (q * 49 + s.val) :=
  restart_sum_last 49 (by decide) (slab m c u l) (accAt m c u l) 0 (accAt_first m c u l) (accAt_later m c u l) q

/-- What a point adds, in cells of the argument arrays: the eight cells the tiling sends to entry (u, l) at that point. -/
theorem slab_eq (c : Dev nD) (q : Fin 2) (s : Fin 49) (u : Fin 8) (l : Fin 128) :
    slab m c u l (q.val * 49 + s.val)
      = ∑ k : Fin 8, cell (F := Ideal) (rowOf (preds m c) (kRow q s k u l)) (rowOf (targs m c) (kRow q s k u l)) := by
  have hN : cfg0.N = 98 := N_0
  have hq := q.isLt
  have hs := s.isLt
  have ht : q.val * 49 + s.val < cfg0.N := by omega
  unfold slab
  rw [dif_pos ht]
  refine Finset.sum_congr rfl fun k _ => ?_
  rw [rowLoss_at]
  have hk := k.isLt
  have hu := u.isLt
  have hl := l.isLt
  have hr : (q.val * 49 + s.val) * 8192 + (slabRow k u l).val < 802816 := by show (q.val * 49 + s.val) * 8192 + (k.val * 1024 + u.val * 128 + l.val) < 802816; omega
  have hrow : kRow q s k u l = ⟨(q.val * 49 + s.val) * 8192 + (slabRow k u l).val, hr⟩ :=
    Fin.ext (by show ((q.val * 49 + s.val) * 8 + k.val) * 1024 + u.val * 128 + l.val = (q.val * 49 + s.val) * 8192 + (k.val * 1024 + u.val * 128 + l.val); omega)
  rw [hrow]
  congr 1
  · exact funext fun ch => iblk0_at m c ⟨q.val * 49 + s.val, ht⟩ (slabRow k u l) ch hr
  · exact funext fun ch => iblk1_at m c ⟨q.val * 49 + s.val, ht⟩ (slabRow k u l) ch hr

/-! ## The result -/

/-- The host's sum of a [2, 8, 128] array from zero, at the extended reals: the triple sum over its coordinates. -/
theorem sum_tiles (y : (⟨S2x8x128, .f32⟩ : BufTy).Contents (Elt Ideal)) (i : S_.Idx) :
    Host.reduceAdd (F := Ideal) y (constant S_ .f32 0x00000000#32) reducesTo_S2x8x128_S_d0_1_2 h_S_ i
      = ∑ q : Fin 2, ∑ u : Fin 8, ∑ l : Fin 128, y (ix3 q u l) := by
  simp only [Host.reduceAdd, Ideal.hostReduceAdd_def]
  refine (Ideal.hostReduceAdd_total reducesTo_S2x8x128_S_d0_1_2 (fun b => b.elim0) y _ i).trans ?_
  show Ideal.ofBits .f32 0x00000000#32 + ∑ j : (⟨3, ![2, 8, 128]⟩ : Shape).Idx, y j = _
  rw [Ideal.ofBits_zero_f32, zero_add, sum_idx3]

/-- THE KERNEL'S RESULT IS THE SPECIFICATION'S TOTAL: the host's sum of the partial sums runs over every cell once. -/
theorem result_eq (c : Dev nD) (i : S_.Idx) :
    resultOf (partials m c) i = total (preds m c) (targs m c) := by
  have hN : cfg0.N = 98 := N_0
  show FloatOps.hostDivf (F := Ideal) (Host.reduceAdd (F := Ideal) (partials m c) (constant S_ .f32 0x00000000#32)
      reducesTo_S2x8x128_S_d0_1_2 h_S_ i) (batch (F := Ideal))
    = FloatOps.hostDivf (F := Ideal) (lossSum (preds m c) (targs m c)) (batch (F := Ideal))
  refine congrArg (fun z : EReal => FloatOps.hostDivf (F := Ideal) z (batch (F := Ideal))) ?_
  refine (sum_tiles (partials m c) i).trans ?_
  unfold lossSum
  rw [← reindex_tiles]
  refine Finset.sum_congr rfl fun q _ => Finset.sum_congr rfl fun u _ => Finset.sum_congr rfl fun l _ => ?_
  have hq := q.isLt
  have hp : partials m c (ix3 q u l) = accAt m c u l (q.val * 49 + 48) := by
    unfold accAt
    rw [dif_pos (by omega)]
    rfl
  rw [hp, accAt_last, zero_add]
  exact Finset.sum_congr rfl fun s _ => slab_eq m c q s u l

end Cert.KValue

end
-- ==== Proof.RefIou.lean ====
/-
  The reference's object indicator and its two intersection-over-union stages, read at a cell: each is the
  specification's function of the cell's thirty predicted and thirty true channels, on the extended reals.

  The reference computes each overlap on whole arrays: it cuts a block of four channels (centre x, centre y, width,
  height) out of the true array and out of the predicted array, takes single channels of the blocks, and combines them
  cell by cell. The same expression of two blocks gives both overlaps (the predicted block starts at channel 0 for the
  first box and at channel 5 for the second), so it is read at a cell once, for arbitrary blocks. Against the
  specification it differs in four places, each an identity on every extended real: it halves a size by dividing by 2
  where the specification multiplies by ½; it clips at zero with the constant as the first operand of the maximum, and
  writes that constant as the integer 0 converted; its absolute value and its quotient are the whole-array
  operations, which on the extended reals are the same functions as the specification's; and it converts the
  indicator's comparison bit as an unsigned integer where the specification widens the bit and converts it as a
  signed one.
-/
import proofs.«147053_j34737695490341_2_alg».proof.Proof.ReadP
import proofs.«147053_j34737695490341_2_alg».proof.Proof.CellLoss
import Idealize.ShloMosaic.Lib.Pipeline.Value
import Idealize.ShloMosaic.Lib.ValueIdx
import Idealize.ShloMosaic.PureOps.Ideal.Laws

noncomputable section

namespace Cert.RefValue.Overlap

open Idealize.ShloMosaic Idealize.ShloMosaic.ValueIdx Cert.ReferenceIdeal Cert.ReferenceIdeal.Gen Cert.CellLoss

variable {F : FTy → Type} [FloatOps F]

/-- An argument array, four consecutive channels of every cell, and one value per cell. -/
abbrev Arr30 (F : FTy → Type) [FloatOps F] : Type := (⟨S16384x7x7x30, .f32⟩ : BufTy).Contents (Elt F)
abbrev Blk (F : FTy → Type) [FloatOps F] : Type := (⟨S16384x7x7x4, .f32⟩ : BufTy).Contents (Elt F)
abbrev Cells (F : FTy → Type) [FloatOps F] : Type := (⟨S16384x7x7, .f32⟩ : BufTy).Contents (Elt F)

/-! ## Reading channels -/

/-- Channel 0, 1, 2, 3 of a four-channel block: the unit slice along the last axis, with that axis dropped. -/
def ch0 (y : Blk F) : Cells F :=
  shapeCast _ (extractStridedSlice S16384x7x7x1 ![0, 0, 0, 0] y slices_S16384x7x7x4_S16384x7x7x1_0_0_0_0) shapeCasts_S16384x7x7x1_S16384x7x7
def ch1 (y : Blk F) : Cells F :=
  shapeCast _ (extractStridedSlice S16384x7x7x1 ![0, 0, 0, 1] y slices_S16384x7x7x4_S16384x7x7x1_0_0_0_1) shapeCasts_S16384x7x7x1_S16384x7x7
def ch2 (y : Blk F) : Cells F :=
  shapeCast _ (extractStridedSlice S16384x7x7x1 ![0, 0, 0, 2] y slices_S16384x7x7x4_S16384x7x7x1_0_0_0_2) shapeCasts_S16384x7x7x1_S16384x7x7
def ch3 (y : Blk F) : Cells F :=
  shapeCast _ (extractStridedSlice S16384x7x7x1 ![0, 0, 0, 3] y slices_S16384x7x7x4_S16384x7x7x1_0_0_0_3) shapeCasts_S16384x7x7x1_S16384x7x7

/-- At a cell, channel `k` of a block is the block's entry at that cell and channel: dropping the unit axis keeps the
    row-major position, and the unit slice starts at channel `k`. -/
theorem ch0_apply (y : Blk F) (j : S16384x7x7.Idx) : ch0 y j = y (ix4 (j 0) (j 1) (j 2) 0) := by
  unfold ch0
  refine (shapeCast_apply _ shapeCasts_S16384x7x7x1_S16384x7x7 j (ix4 (j 0) (j 1) (j 2) (0 : Fin 1)) ?_).trans ?_
  · rw [Shape.rowMajor_val_four, Shape.rowMajor_val_three]
    show (((j 0).val * 7 + (j 1).val) * 7 + (j 2).val) * 1 + 0 = ((j 0).val * 7 + (j 1).val) * 7 + (j 2).val
    omega
  · exact extractStridedSlice_apply _ y _ _ _ (fun a => match a with
      | ⟨0, _⟩ => by show (j 0).val = 0 + (j 0).val; omega
      | ⟨1, _⟩ => by show (j 1).val = 0 + (j 1).val; omega
      | ⟨2, _⟩ => by show (j 2).val = 0 + (j 2).val; omega
      | ⟨3, _⟩ => by show 0 = 0 + 0; omega)
theorem ch1_apply (y : Blk F) (j : S16384x7x7.Idx) : ch1 y j = y (ix4 (j 0) (j 1) (j 2) 1) := by
  unfold ch1
  refine (shapeCast_apply _ shapeCasts_S16384x7x7x1_S16384x7x7 j (ix4 (j 0) (j 1) (j 2) (0 : Fin 1)) ?_).trans ?_
  · rw [Shape.rowMajor_val_four, Shape.rowMajor_val_three]
    show (((j 0).val * 7 + (j 1).val) * 7 + (j 2).val) * 1 + 0 = ((j 0).val * 7 + (j 1).val) * 7 + (j 2).val
    omega
  · exact extractStridedSlice_apply _ y _ _ _ (fun a => match a with
      | ⟨0, _⟩ => by show (j 0).val = 0 + (j 0).val; omega
      | ⟨1, _⟩ => by show (j 1).val = 0 + (j 1).val; omega
      | ⟨2, _⟩ => by show (j 2).val = 0 + (j 2).val; omega
      | ⟨3, _⟩ => by show 1 = 1 + 0; omega)
theorem ch2_apply (y : Blk F) (j : S16384x7x7.Idx) : ch2 y j = y (ix4 (j 0) (j 1) (j 2) 2) := by
  unfold ch2
  refine (shapeCast_apply _ shapeCasts_S16384x7x7x1_S16384x7x7 j (ix4 (j 0) (j 1) (j 2) (0 : Fin 1)) ?_).trans ?_
  · rw [Shape.rowMajor_val_four, Shape.rowMajor_val_three]
    show (((j 0).val * 7 + (j 1).val) * 7 + (j 2).val) * 1 + 0 = ((j 0).val * 7 + (j 1).val) * 7 + (j 2).val
    omega
  · exact extractStridedSlice_apply _ y _ _ _ (fun a => match a with
      | ⟨0, _⟩ => by show (j 0).val = 0 + (j 0).val; omega
      | ⟨1, _⟩ => by show (j 1).val = 0 + (j 1).val; omega
      | ⟨2, _⟩ => by show (j 2).val = 0 + (j 2).val; omega
      | ⟨3, _⟩ => by show 2 = 2 + 0; omega)
theorem ch3_apply (y : Blk F) (j : S16384x7x7.Idx) : ch3 y j = y (ix4 (j 0) (j 1) (j 2) 3) := by
  unfold ch3
  refine (shapeCast_apply _ shapeCasts_S16384x7x7x1_S16384x7x7 j (ix4 (j 0) (j 1) (j 2) (0 : Fin 1)) ?_).trans ?_
  · rw [Shape.rowMajor_val_four, Shape.rowMajor_val_three]
    show (((j 0).val * 7 + (j 1).val) * 7 + (j 2).val) * 1 + 0 = ((j 0).val * 7 + (j 1).val) * 7 + (j 2).val
    omega
  · exact extractStridedSlice_apply _ y _ _ _ (fun a => match a with
      | ⟨0, _⟩ => by show (j 0).val = 0 + (j 0).val; omega
      | ⟨1, _⟩ => by show (j 1).val = 0 + (j 1).val; omega
      | ⟨2, _⟩ => by show (j 2).val = 0 + (j 2).val; omega
      | ⟨3, _⟩ => by show 3 = 3 + 0; omega)

/-- The four-channel blocks of an argument array that start at channel 0 and at channel 5. -/
def blk0 (x : Arr30 F) : Blk F := extractStridedSlice S16384x7x7x4 ![0, 0, 0, 0] x slices_S16384x7x7x30_S16384x7x7x4_0_0_0_0
def blk5 (x : Arr30 F) : Blk F := extractStridedSlice S16384x7x7x4 ![0, 0, 0, 5] x slices_S16384x7x7x30_S16384x7x7x4_0_0_0_5

theorem blk0_apply (x : Arr30 F) (j : S16384x7x7.Idx) (k : Fin 4) :
    blk0 x (ix4 (j 0) (j 1) (j 2) k) = x (ix4 (j 0) (j 1) (j 2) (⟨k.val, by have := k.isLt; omega⟩ : Fin 30)) := by
  unfold blk0
  exact extractStridedSlice_apply _ x _ _ _ (fun d => match d with
    | ⟨0, _⟩ => by show (j 0).val = 0 + (j 0).val; omega
    | ⟨1, _⟩ => by show (j 1).val = 0 + (j 1).val; omega
    | ⟨2, _⟩ => by show (j 2).val = 0 + (j 2).val; omega
    | ⟨3, _⟩ => by show k.val = 0 + k.val; omega)

theorem blk5_apply (x : Arr30 F) (j : S16384x7x7.Idx) (k : Fin 4) :
    blk5 x (ix4 (j 0) (j 1) (j 2) k) = x (ix4 (j 0) (j 1) (j 2) (⟨5 + k.val, by have := k.isLt; omega⟩ : Fin 30)) := by
  unfold blk5
  exact extractStridedSlice_apply _ x _ _ _ (fun d => match d with
    | ⟨0, _⟩ => by show (j 0).val = 0 + (j 0).val; omega
    | ⟨1, _⟩ => by show (j 1).val = 0 + (j 1).val; omega
    | ⟨2, _⟩ => by show (j 2).val = 0 + (j 2).val; omega
    | ⟨3, _⟩ => by show 5 + k.val = 5 + k.val; omega)

/-- A constant spread over the cells is that constant at every cell. -/
theorem splat_apply {α : Type} (y : S_.Idx → α) (j : S16384x7x7.Idx) :
    broadcastInDim S16384x7x7 ![] bcast_S_S16384x7x7 y j = y ix0 :=
  broadcastInDim_apply _ bcast_S_S16384x7x7 y j ix0 (fun a => a.elim0)

/-! ## Constants and conversions on the extended reals -/

/-- The patterns of 2 and of ½ denote the reals 2 and 1/2. -/
theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num

/-- Dividing by the constant 2 is multiplying by the constant ½, on every extended real. -/
theorem div_two_eq (x : EReal) :
    Ideal.div x (Ideal.ofBits .f32 0x40000000#32) = x * Ideal.ofBits .f32 0x3F000000#32 := by
  rw [ofBits_two, ofBits_half, Ideal.div_coe (by norm_num)]

/-- A comparison bit read as an unsigned integer, or widened to 32 bits and read as a signed one, is the same 0 or 1. -/
theorem indicator_eq (b : BitVec 1) :
    FloatOps.uitofp (F := Ideal) .f32 b = FloatOps.sitofp (F := Ideal) .f32 (b.setWidth 32) := by
  show ((b.toNat : ℝ) : EReal) = (((b.setWidth 32).toInt : ℝ) : EReal)
  by_cases h : b = 1#1
  · subst h
    have e1 : (1#1 : BitVec 1).toNat = 1 := by decide
    have e2 : ((1#1 : BitVec 1).setWidth 32).toInt = 1 := by decide
    rw [e1, e2]; norm_num
  · rw [eq_zero_of_ne_one h]
    have e1 : (0#1 : BitVec 1).toNat = 0 := by decide
    have e2 : ((0#1 : BitVec 1).setWidth 32).toInt = 0 := by decide
    rw [e1, e2]; norm_num

/-- The zero word read as a signed integer is the extended real 0, which is also what the zero pattern denotes. -/
theorem sitofp_zero : FloatOps.sitofp (F := Ideal) .f32 (0#32 : BitVec 32) = Ideal.ofBits .f32 0x00000000#32 := by
  show (((0#32 : BitVec 32).toInt : ℝ) : EReal) = _
  have e : (0#32 : BitVec 32).toInt = 0 := by decide
  rw [Ideal.ofBits_zero_f32, e]; norm_num

/-! ## The reference's overlap of two boxes, as arrays over the cells -/

/-- The constants 2, 0 (the integer zero converted) and 1e-6 at every cell. -/
def twos : Cells F := broadcastInDim S16384x7x7 ![] bcast_S_S16384x7x7 (constant S_ .f32 0x40000000#32)
def zeros : Cells F := broadcastInDim S16384x7x7 ![] bcast_S_S16384x7x7 (sitofp .f32 (constantI S_ 32 0#32))
def epss : Cells F := broadcastInDim S16384x7x7 ![] bcast_S_S16384x7x7 (constant S_ .f32 0x358637BD#32)

/-- Half of a size (the quotient by 2), and the clip at zero from below (the maximum with 0, the constant first). -/
def halfOf (w : Cells F) : Cells F := Host.divf w twos
def clip0 (x : Cells F) : Cells F := maximumf zeros x

/-- The reference's intersection over union of the boxes held by two four-channel blocks (centre x, centre y, width,
    height): corners at centre ∓ size / 2, the intersection's sides clipped at zero, the union's area the two areas' sum
    less the intersection plus 1e-6. -/
def refIou (tb pb : Blk F) : Cells F :=
  let b1x1 := subf (ch0 tb) (halfOf (ch2 tb))
  let b1y1 := subf (ch1 tb) (halfOf (ch3 tb))
  let b1x2 := addf (ch0 tb) (halfOf (ch2 tb))
  let b1y2 := addf (ch1 tb) (halfOf (ch3 tb))
  let b2x1 := subf (ch0 pb) (halfOf (ch2 pb))
  let b2y1 := subf (ch1 pb) (halfOf (ch3 pb))
  let b2x2 := addf (ch0 pb) (halfOf (ch2 pb))
  let b2y2 := addf (ch1 pb) (halfOf (ch3 pb))
  let iw := clip0 (subf (minimumf b1x2 b2x2) (maximumf b1x1 b2x1))
  let ih := clip0 (subf (minimumf b1y2 b2y2) (maximumf b1y1 b2y1))
  let inter := mulf iw ih
  let a1 := Host.absf (mulf (subf b1x2 b1x1) (subf b1y2 b1y1))
  let a2 := Host.absf (mulf (subf b2x2 b2x1) (subf b2y2 b2y1))
  Host.divf inter (addf (subf (addf a1 a2) inter) epss)

/-- At the extended reals, half of a size at a cell is the size there times ½. -/
theorem halfOf_apply (w : Cells Ideal) (j : S16384x7x7.Idx) :
    halfOf w j = w j * Ideal.ofBits .f32 0x3F000000#32 := by
  show Ideal.div (w j) (twos (F := Ideal) j) = _
  rw [twos, splat_apply]
  exact div_two_eq _

/-- At the extended reals, the clip at a cell is the maximum with the zero pattern's value, the constant second. -/
theorem clip0_apply (x : Cells Ideal) (j : S16384x7x7.Idx) :
    clip0 x j = max (x j) (Ideal.ofBits .f32 0x00000000#32) := by
  show max (zeros (F := Ideal) j) (x j) = _
  rw [zeros, splat_apply, max_comm]
  exact congrArg (max (x j)) sitofp_zero

theorem epss_apply (j : S16384x7x7.Idx) : epss (F := Ideal) j = Ideal.ofBits .f32 0x358637BD#32 := by
  rw [epss, splat_apply]; rfl

/-- THE OVERLAP AT A CELL: the reference's array expression, read at a cell of two blocks, is the specification's
    overlap of the eight channel values there. -/
theorem refIou_apply (tb pb : Blk Ideal) (j : S16384x7x7.Idx) :
    refIou tb pb j = iou (F := Ideal)
      (tb (ix4 (j 0) (j 1) (j 2) 0)) (tb (ix4 (j 0) (j 1) (j 2) 1)) (tb (ix4 (j 0) (j 1) (j 2) 2)) (tb (ix4 (j 0) (j 1) (j 2) 3))
      (pb (ix4 (j 0) (j 1) (j 2) 0)) (pb (ix4 (j 0) (j 1) (j 2) 1)) (pb (ix4 (j 0) (j 1) (j 2) 2)) (pb (ix4 (j 0) (j 1) (j 2) 3)) := by
  simp only [refIou, iou, half, zero, eps, Host.divf, Host.absf, addf, subf, mulf, maximumf, minimumf,
    clip0_apply, halfOf_apply, epss_apply, ch0_apply, ch1_apply, ch2_apply, ch3_apply,
    Ideal.hostDivf_def, Ideal.hostAbsf_def, Ideal.divf_def, Ideal.addf_def, Ideal.subf_def, Ideal.mulf_def,
    Ideal.maximumf_def, Ideal.minimumf_def, Ideal.ofBits_def]

/-! ## The object indicator -/

/-- Channel 4 of an argument array, as an array over the cells, and the constant 1 at every cell. -/
def ch4of (x : Arr30 F) : Cells F :=
  shapeCast _ (extractStridedSlice S16384x7x7x1 ![0, 0, 0, 4] x slices_S16384x7x7x30_S16384x7x7x1_0_0_0_4) shapeCasts_S16384x7x7x1_S16384x7x7
def ones : Cells F := broadcastInDim S16384x7x7 ![] bcast_S_S16384x7x7 (constant S_ .f32 0x3F800000#32)

theorem ch4of_apply (x : Arr30 F) (j : S16384x7x7.Idx) : ch4of x j = x (ix4 (j 0) (j 1) (j 2) 4) := by
  unfold ch4of
  refine (shapeCast_apply _ shapeCasts_S16384x7x7x1_S16384x7x7 j (ix4 (j 0) (j 1) (j 2) (0 : Fin 1)) ?_).trans ?_
  · rw [Shape.rowMajor_val_four, Shape.rowMajor_val_three]
    show (((j 0).val * 7 + (j 1).val) * 7 + (j 2).val) * 1 + 0 = ((j 0).val * 7 + (j 1).val) * 7 + (j 2).val
    omega
  · exact extractStridedSlice_apply _ x _ _ _ (fun a => match a with
      | ⟨0, _⟩ => by show (j 0).val = 0 + (j 0).val; omega
      | ⟨1, _⟩ => by show (j 1).val = 0 + (j 1).val; omega
      | ⟨2, _⟩ => by show (j 2).val = 0 + (j 2).val; omega
      | ⟨3, _⟩ => by show 4 = 4 + 0; omega)

/-- The reference's indicator: the comparison of channel 4 with 1, its bit converted as an unsigned integer. -/
def refMask (x : Arr30 F) : Cells F := uitofp .f32 (cmpf .oeq (ch4of x) ones)

/-- At a cell it is the specification's indicator of the cell's channel 4. -/
theorem refMask_apply (x : Arr30 Ideal) (j : S16384x7x7.Idx) :
    refMask x j = mask (F := Ideal) (x (ix4 (j 0) (j 1) (j 2) 4)) := by
  show FloatOps.uitofp .f32 (FloatOps.cmpf .oeq (ch4of x j) (ones (F := Ideal) j)) = _
  rw [indicator_eq, ch4of_apply, ones, splat_apply]
  rfl

end Cert.RefValue.Overlap

namespace Cert.RefValue

open Idealize.ShloMosaic Idealize.ShloMosaic.ValueIdx Cert.ReferenceIdeal Cert.ReferenceIdeal.ReadP Cert.CellLoss Cert.RefValue.Overlap

variable (x0 x1 : (⟨S16384x7x7x30, .f32⟩ : BufTy).Contents (Elt Ideal)) (j : S16384x7x7.Idx)

/-- The reference's indicator stage at a cell is the specification's mask of the cell's true channel 4. -/
theorem mask_at : val_main_v4 (F := Ideal) x1 j = mask (F := Ideal) (chan x1 j 4) :=
  refMask_apply x1 j

/-- The reference's first overlap stage at a cell is the specification's overlap of the true box with the first predicted box. -/
theorem iou1_at : val_main_v85 (F := Ideal) x0 x1 j = iou1 (F := Ideal) (chan x0 j) (chan x1 j) := by
  show refIou (blk0 x1) (blk0 x0) j = _
  rw [refIou_apply]
  simp only [blk0_apply]
  rfl

/-- The reference's second overlap stage at a cell is the specification's overlap of the true box with the second predicted box. -/
theorem iou2_at : val_main_v163 (F := Ideal) x0 x1 j = iou2 (F := Ideal) (chan x0 j) (chan x1 j) := by
  show refIou (blk0 x1) (blk5 x0) j = _
  rw [refIou_apply]
  simp only [blk0_apply, blk5_apply]
  rfl

end Cert.RefValue

end
-- ==== Proof.ClassFold.lean ====
/-
  The specification's class sum — the squared class errors of channels 10 … 29 added to zero one after the other — is
  zero plus the sum, over `k` among the twenty classes, of the squared error of channel `10 + k`: the form in which a
  sum along the class axis presents it. Addition of extended reals is associative, so the two groupings agree.
-/
import proofs.«147053_j34737695490341_2_alg».proof.Proof.CellLoss

noncomputable section

open scoped BigOperators

namespace Cert.RefValue

open Idealize.ShloMosaic Cert.CellLoss

/-- Channel `10 + k` of a cell, for `k` among the twenty classes. -/
def classChan (k : Fin 20) : Fin 30 := ⟨10 + k.val, by have := k.isLt; omega⟩

/-- Adding the twenty values `g 10, …, g 29` to `z` one after the other gives `z` plus their sum. -/
theorem foldl_classes (g : Fin 30 → EReal) (z : EReal) :
    ([10, 11, 12, 13, 14, 15, 16, 17, 18, 19, 20, 21, 22, 23, 24, 25, 26, 27, 28, 29] : List (Fin 30)).foldl (fun acc c => acc + g c) z
      = z + ∑ k : Fin 20, g (classChan k) := by
  simp only [Fin.sum_univ_castSucc, Fin.sum_univ_zero, List.foldl, zero_add, ← add_assoc]
  rfl

/-- The class sum of a cell is zero plus the sum of the twenty squared class errors. -/
theorem classSum_eq (p t : Fin 30 → EReal) :
    classSum (F := Ideal) p t
      = (zero (F := Ideal) : EReal) + ∑ k : Fin 20, classTerm (F := Ideal) p t (classChan k) :=
  foldl_classes (classTerm (F := Ideal) p t) _

end Cert.RefValue

end
-- ==== Proof.RefTerms.lean ====
/-
  The reference's six per-cell stages, read at a cell: each is the specification's term of the cell's thirty predicted
  and thirty true channels, on the extended reals.

  Every stage below the six is a slice of one channel (or of a four-channel group) followed by a reshape that drops the
  trailing unit axis, or an elementwise operation. Read at the cell `j = (image, row, column)` the reshape's row-major
  index arithmetic returns `j` itself with a trailing zero, and a slice adds its channel offset: so each such stage is
  a channel of the cell. The responsible box is chosen by one comparison bit per cell, broadcast over the four
  coordinates of a box; at the cell that bit is the specification's `best`.
-/
import proofs.«147053_j34737695490341_2_alg».proof.Proof.RefIou
import proofs.«147053_j34737695490341_2_alg».proof.Proof.ClassFold

noncomputable section

open scoped BigOperators

namespace Cert.RefValue

open Idealize.ShloMosaic Idealize.ShloMosaic.ValueIdx Cert.ReferenceIdeal Cert.ReferenceIdeal.ReadP Cert.CellLoss

variable (x0 x1 : (⟨S16384x7x7x30, .f32⟩ : BufTy).Contents (Elt Ideal)) (j : S16384x7x7.Idx)

/-! ## Indices -/

/-- Two rank-4 indices agree when they agree, by computation, on each of the four axes. -/
local macro "axes4" : tactic =>
  `(tactic| (funext a; refine Fin.ext ?_; match a with | ⟨0, _⟩ => rfl | ⟨1, _⟩ => rfl | ⟨2, _⟩ => rfl | ⟨3, _⟩ => rfl))

/-- The reshape that drops a trailing unit axis reads cell `j` at `j` with a trailing zero: the row-major number of
    `(a, b, c)` among `16384 × 7 × 7` is `(a·7 + b)·7 + c`, and dividing it back by 49, by 7 and by 1 returns `a`, `b`, `c`. -/
theorem unit_idx : idx_main_v1 j = ix4 (j 0) (j 1) (j 2) (0 : Fin 1) := by
  have h0 : (j 0).val < 16384 := (j 0).isLt
  have h1 : (j 1).val < 7 := (j 1).isLt
  have h2 : (j 2).val < 7 := (j 2).isLt
  funext a
  refine Fin.ext ?_
  match a with
  | ⟨0, _⟩ => show (((j 0).val * 7 + (j 1).val) * 7 + (j 2).val) / 49 = (j 0).val; omega
  | ⟨1, _⟩ => show (((j 0).val * 7 + (j 1).val) * 7 + (j 2).val) / 7 % 7 = (j 1).val; omega
  | ⟨2, _⟩ => show (((j 0).val * 7 + (j 1).val) * 7 + (j 2).val) / 1 % 7 = (j 2).val; omega
  | ⟨3, _⟩ => rfl

/-! ## Single channels of the predicted cell -/

/-- The three stages that read the first confidence (channel 4 of the predictions). -/
theorem p4_at : val_main_v168 (F := Ideal) x0 j = chan x0 j 4 := by
  rw [val_main_v168_apply, val_main_v167_apply, show idx_main_v168 j = _ from unit_idx j]
  show x0 _ = x0 (ix4 (j 0) (j 1) (j 2) (4 : Fin 30))
  exact congrArg x0 (by axes4)
theorem p4_at' : val_main_v175 (F := Ideal) x0 j = chan x0 j 4 := by
  rw [val_main_v175_apply, val_main_v174_apply, show idx_main_v175 j = _ from unit_idx j]
  show x0 _ = x0 (ix4 (j 0) (j 1) (j 2) (4 : Fin 30))
  exact congrArg x0 (by axes4)
theorem p4_at'' : val_main_v220 (F := Ideal) x0 j = chan x0 j 4 := by
  rw [val_main_v220_apply, val_main_v219_apply, show idx_main_v220 j = _ from unit_idx j]
  show x0 _ = x0 (ix4 (j 0) (j 1) (j 2) (4 : Fin 30))
  exact congrArg x0 (by axes4)

/-- The three stages that read the second confidence (channel 9 of the predictions). -/
theorem p9_at : val_main_v170 (F := Ideal) x0 j = chan x0 j 9 := by
  rw [val_main_v170_apply, val_main_v169_apply, show idx_main_v170 j = _ from unit_idx j]
  show x0 _ = x0 (ix4 (j 0) (j 1) (j 2) (9 : Fin 30))
  exact congrArg x0 (by axes4)
theorem p9_at' : val_main_v173 (F := Ideal) x0 j = chan x0 j 9 := by
  rw [val_main_v173_apply, val_main_v172_apply, show idx_main_v173 j = _ from unit_idx j]
  show x0 _ = x0 (ix4 (j 0) (j 1) (j 2) (9 : Fin 30))
  exact congrArg x0 (by axes4)
theorem p9_at'' : val_main_v223 (F := Ideal) x0 j = chan x0 j 9 := by
  rw [val_main_v223_apply, val_main_v222_apply, show idx_main_v223 j = _ from unit_idx j]
  show x0 _ = x0 (ix4 (j 0) (j 1) (j 2) (9 : Fin 30))
  exact congrArg x0 (by axes4)

/-! ## The true box's four coordinates (channels 0 … 3 of the targets, through the four-channel slice) -/

theorem t0_at : val_main_v180 (F := Ideal) x1 j = chan x1 j 0 := by
  rw [val_main_v180_apply, val_main_v179_apply, val_main_v5_apply, show idx_main_v180 j = _ from unit_idx j]
  show x1 _ = x1 (ix4 (j 0) (j 1) (j 2) (0 : Fin 30))
  exact congrArg x1 (by axes4)
theorem t1_at : val_main_v186 (F := Ideal) x1 j = chan x1 j 1 := by
  rw [val_main_v186_apply, val_main_v185_apply, val_main_v5_apply, show idx_main_v186 j = _ from unit_idx j]
  show x1 _ = x1 (ix4 (j 0) (j 1) (j 2) (1 : Fin 30))
  exact congrArg x1 (by axes4)
theorem t2_at : val_main_v195 (F := Ideal) x1 j = chan x1 j 2 := by
  rw [val_main_v195_apply, val_main_v194_apply, val_main_v5_apply, show idx_main_v195 j = _ from unit_idx j]
  show x1 _ = x1 (ix4 (j 0) (j 1) (j 2) (2 : Fin 30))
  exact congrArg x1 (by axes4)
theorem t3_at : val_main_v203 (F := Ideal) x1 j = chan x1 j 3 := by
  rw [val_main_v203_apply, val_main_v202_apply, val_main_v5_apply, show idx_main_v203 j = _ from unit_idx j]
  show x1 _ = x1 (ix4 (j 0) (j 1) (j 2) (3 : Fin 30))
  exact congrArg x1 (by axes4)

/-! ## The responsible box -/

/-- The comparison bit of a cell: whether the first predicted box overlaps the true box strictly more. -/
theorem best_at : val_main_v164 (F := Ideal) x0 x1 j = best (F := Ideal) (chan x0 j) (chan x1 j) := by
  rw [val_main_v164_apply, iou1_at, iou2_at]
  rfl

/-- Coordinate `c` of the chosen box: the bit is broadcast along the four coordinates, so at coordinate `c` of cell `j`
    the choice is between channel `c` (first box) and channel `5 + c` (second box) of the predictions. -/
theorem sel_at (c : Fin 4) (u v : Fin 30) (hu : u.val = c.val) (hv : v.val = 5 + c.val) :
    val_main_v166 (F := Ideal) x0 x1 (ix4 (j 0) (j 1) (j 2) c)
      = Scalar.select (best (F := Ideal) (chan x0 j) (chan x1 j)) (chan x0 j u) (chan x0 j v) := by
  have ej : idx_main_v165 (idx_main_call4_v0 (ix4 (j 0) (j 1) (j 2) c)) = j := by
    funext a; refine Fin.ext ?_
    match a with
    | ⟨0, _⟩ => rfl
    | ⟨1, _⟩ => rfl
    | ⟨2, _⟩ => rfl
  have eu : idx_main_v6 (ix4 (j 0) (j 1) (j 2) c) = ix4 (j 0) (j 1) (j 2) u := by
    funext a; refine Fin.ext ?_
    match a with
    | ⟨0, _⟩ => rfl
    | ⟨1, _⟩ => rfl
    | ⟨2, _⟩ => rfl
    | ⟨3, _⟩ => exact hu.symm
  have ev : idx_main_v7 (ix4 (j 0) (j 1) (j 2) c) = ix4 (j 0) (j 1) (j 2) v := by
    funext a; refine Fin.ext ?_
    match a with
    | ⟨0, _⟩ => rfl
    | ⟨1, _⟩ => rfl
    | ⟨2, _⟩ => rfl
    | ⟨3, _⟩ => exact hv.symm
  rw [val_main_v166_apply, val_main_call4_v0_apply, val_main_v165_apply, val_main_v6_apply, val_main_v7_apply,
    ej, eu, ev, best_at]
  rfl

/-- The chosen box's centre x, centre y, width and height. -/
theorem r0_at : val_main_v182 (F := Ideal) x0 x1 j = Scalar.select (best (F := Ideal) (chan x0 j) (chan x1 j)) (chan x0 j 0) (chan x0 j 5) := by
  rw [val_main_v182_apply, val_main_v181_apply, show idx_main_v182 j = _ from unit_idx j,
    show idx_main_v181 (ix4 (j 0) (j 1) (j 2) (0 : Fin 1)) = ix4 (j 0) (j 1) (j 2) (0 : Fin 4) from by axes4]
  exact sel_at x0 x1 j 0 0 5 rfl rfl
theorem r1_at : val_main_v188 (F := Ideal) x0 x1 j = Scalar.select (best (F := Ideal) (chan x0 j) (chan x1 j)) (chan x0 j 1) (chan x0 j 6) := by
  rw [val_main_v188_apply, val_main_v187_apply, show idx_main_v188 j = _ from unit_idx j,
    show idx_main_v187 (ix4 (j 0) (j 1) (j 2) (0 : Fin 1)) = ix4 (j 0) (j 1) (j 2) (1 : Fin 4) from by axes4]
  exact sel_at x0 x1 j 1 1 6 rfl rfl
theorem r2_at : val_main_v198 (F := Ideal) x0 x1 j = Scalar.select (best (F := Ideal) (chan x0 j) (chan x1 j)) (chan x0 j 2) (chan x0 j 7) := by
  rw [val_main_v198_apply, val_main_v197_apply, show idx_main_v198 j = _ from unit_idx j,
    show idx_main_v197 (ix4 (j 0) (j 1) (j 2) (0 : Fin 1)) = ix4 (j 0) (j 1) (j 2) (2 : Fin 4) from by axes4]
  exact sel_at x0 x1 j 2 2 7 rfl rfl
theorem r3_at : val_main_v206 (F := Ideal) x0 x1 j = Scalar.select (best (F := Ideal) (chan x0 j) (chan x1 j)) (chan x0 j 3) (chan x0 j 8) := by
  rw [val_main_v206_apply, val_main_v205_apply, show idx_main_v206 j = _ from unit_idx j,
    show idx_main_v205 (ix4 (j 0) (j 1) (j 2) (0 : Fin 1)) = ix4 (j 0) (j 1) (j 2) (3 : Fin 4) from by axes4]
  exact sel_at x0 x1 j 3 3 8 rfl rfl

/-! ## The six terms -/

/-- The centre term. -/
theorem xy_at : val_main_v192 (F := Ideal) x0 x1 j = xyTerm (F := Ideal) (chan x0 j) (chan x1 j) := by
  rw [val_main_v192_apply, val_main_v191_apply, val_main_v184_apply, val_main_v190_apply, val_main_v183_apply,
    val_main_v189_apply, mask_at, t0_at, t1_at, r0_at, r1_at]
  rfl

/-- The size term: the host's square root and the specification's are one function on the extended reals. -/
theorem wh_at : val_main_v211 (F := Ideal) x0 x1 j = whTerm (F := Ideal) (chan x0 j) (chan x1 j) := by
  rw [val_main_v211_apply, val_main_v210_apply, val_main_v201_apply, val_main_v209_apply, val_main_v200_apply,
    val_main_v208_apply, val_main_v196_apply, val_main_v199_apply, val_main_v204_apply, val_main_v207_apply,
    mask_at, t2_at, t3_at, r2_at, r3_at]
  rfl

/-- The confidence term of a cell with an object. -/
theorem obj_at : val_main_v215 (F := Ideal) x0 x1 j = objTerm (F := Ideal) (chan x0 j) (chan x1 j) := by
  rw [val_main_v215_apply, val_main_v214_apply, val_main_v213_apply, val_main_v177_apply, val_main_v171_apply,
    mask_at, iou1_at, iou2_at, best_at, p4_at, p9_at]
  rfl

/-- The confidence term of a cell without an object. -/
theorem empty_at : val_main_v226 (F := Ideal) x0 x1 j = emptyTerm (F := Ideal) (chan x0 j) (chan x1 j) := by
  rw [val_main_v226_apply, val_main_v218_apply, val_main_v225_apply, val_main_v221_apply, val_main_v224_apply,
    val_main_v217_apply, mask_at, p4_at'', p9_at'']
  rfl

/-- The other box's confidence term. -/
theorem other_at : val_main_v231 (F := Ideal) x0 x1 j = otherTerm (F := Ideal) (chan x0 j) (chan x1 j) := by
  rw [val_main_v231_apply, val_main_v230_apply, val_main_v229_apply, val_main_v178_apply, val_main_v176_apply,
    mask_at, iou1_at, iou2_at, best_at, p9_at', p4_at']
  rfl

/-- One class channel's squared error, at class `k` of cell `j`. -/
theorem cls_elt (k : Fin 20) :
    val_main_v236 (F := Ideal) x0 x1 (idx_main_v237 j k) = classTerm (F := Ideal) (chan x0 j) (chan x1 j) (classChan k) := by
  have e : idx_main_v233 (idx_main_v237 j k) = ix4 (j 0) (j 1) (j 2) (classChan k) := by axes4
  have e' : idx_main_v234 (idx_main_v237 j k) = ix4 (j 0) (j 1) (j 2) (classChan k) := by axes4
  rw [val_main_v236_apply, val_main_v235_apply, val_main_v233_apply, val_main_v234_apply, e, e']
  rfl

/-- The class term: the sum along the class axis is the specification's class sum. -/
theorem cls_at : val_main_v238 (F := Ideal) x0 x1 j = clsTerm (F := Ideal) (chan x0 j) (chan x1 j) := by
  rw [val_main_v238_apply, val_main_v237_apply, mask_at, Finset.sum_congr rfl (fun k _ => cls_elt x0 x1 j k)]
  exact congrArg (fun s => FloatOps.mulf (F := Ideal) (φ := .f32) (mask (F := Ideal) (chan x1 j 4)) s)
    (classSum_eq (chan x0 j) (chan x1 j)).symm

end Cert.RefValue

end
-- ==== Proof.RefCombo.lean ====
/-
  The reference's result before its final division, as a function of the argument arrays. The reference sums each of
  the six per-cell terms of the loss over all 16384·7·7 cells on its own — each sum starting from the float zero — and
  then combines the six sums with the weights 5 and ½ in the order

      (((5·Σ centre + 5·Σ size) + (Σ object + Σ empty)) + ½·Σ other) + Σ class .
-/
import proofs.«147053_j34737695490341_2_alg».proof.Proof.CellLoss

noncomputable section

open scoped BigOperators

namespace Cert.RefValue

open Idealize.ShloMosaic Idealize.ShloMosaic.ValueIdx Cert.CellLoss

/-- One per-cell term summed over every cell of the batch, starting from the float zero. -/
def cellSum (f : (Fin 30 → EReal) → (Fin 30 → EReal) → EReal) (x0 x1 : Arr.Idx → EReal) : EReal :=
  (zero (F := Ideal) : EReal) + ∑ j : (⟨3, ![16384, 7, 7]⟩ : Shape).Idx, f (chan x0 j) (chan x1 j)

/-- The six summed terms combined as the reference combines them. -/
def refCombo (x0 x1 : Arr.Idx → EReal) : EReal :=
  (((((five (F := Ideal) : EReal) * cellSum (xyTerm (F := Ideal)) x0 x1)
        + ((five (F := Ideal) : EReal) * cellSum (whTerm (F := Ideal)) x0 x1))
      + (cellSum (objTerm (F := Ideal)) x0 x1 + cellSum (emptyTerm (F := Ideal)) x0 x1))
    + ((half (F := Ideal) : EReal) * cellSum (otherTerm (F := Ideal)) x0 x1))
  + cellSum (clsTerm (F := Ideal)) x0 x1

end Cert.RefValue

end
-- ==== Proof.RefResult.lean ====
/-
  The reference's result, as a function of the argument arrays: its six sums over all cells are the six summed terms
  of the specification, and its last operations combine them and divide by the batch size.
-/
import proofs.«147053_j34737695490341_2_alg».proof.Proof.RefTerms
import proofs.«147053_j34737695490341_2_alg».proof.Proof.RefCombo

noncomputable section

open scoped BigOperators

namespace Cert.RefValue

open Idealize.ShloMosaic Idealize.ShloMosaic.ValueIdx Cert.ReferenceIdeal Cert.ReferenceIdeal.ReadP Cert.CellLoss

variable (x0 x1 : (⟨S16384x7x7x30, .f32⟩ : BufTy).Contents (Elt Ideal)) (i : S_.Idx)

/-! ## The six sums over all cells: the initial value (the float zero) plus the sum of the per-cell term -/

/-- The summed centre term. -/
theorem sum_xy : val_main_v193 (F := Ideal) x0 x1 i = cellSum (xyTerm (F := Ideal)) x0 x1 := by
  rw [val_main_v193_apply, Finset.sum_congr rfl (fun j _ => xy_at x0 x1 j)]
  rfl

/-- The summed size term. -/
theorem sum_wh : val_main_v212 (F := Ideal) x0 x1 i = cellSum (whTerm (F := Ideal)) x0 x1 := by
  rw [val_main_v212_apply, Finset.sum_congr rfl (fun j _ => wh_at x0 x1 j)]
  rfl

/-- The summed object term. -/
theorem sum_obj : val_main_v216 (F := Ideal) x0 x1 i = cellSum (objTerm (F := Ideal)) x0 x1 := by
  rw [val_main_v216_apply, Finset.sum_congr rfl (fun j _ => obj_at x0 x1 j)]
  rfl

/-- The summed empty term. -/
theorem sum_empty : val_main_v227 (F := Ideal) x0 x1 i = cellSum (emptyTerm (F := Ideal)) x0 x1 := by
  rw [val_main_v227_apply, Finset.sum_congr rfl (fun j _ => empty_at x0 x1 j)]
  rfl

/-- The summed other term. -/
theorem sum_other : val_main_v232 (F := Ideal) x0 x1 i = cellSum (otherTerm (F := Ideal)) x0 x1 := by
  rw [val_main_v232_apply, Finset.sum_congr rfl (fun j _ => other_at x0 x1 j)]
  rfl

/-- The summed class term. -/
theorem sum_cls : val_main_v239 (F := Ideal) x0 x1 i = cellSum (clsTerm (F := Ideal)) x0 x1 := by
  rw [val_main_v239_apply, Finset.sum_congr rfl (fun j _ => cls_at x0 x1 j)]
  rfl

/-! ## The result -/

/-- THE REFERENCE'S RESULT: the combined sums divided by the batch size. -/
theorem ref_value :
    val_main_v247 (F := Ideal) x0 x1 i = FloatOps.hostDivf (F := Ideal) (refCombo x0 x1) (batch (F := Ideal)) := by
  rw [val_main_v247_apply, val_main_v246_apply, val_main_v245_apply, val_main_v244_apply, val_main_v243_apply,
    val_main_v242_apply, val_main_v241_apply, val_main_v240_apply, val_main_v228_apply,
    sum_xy, sum_wh, sum_obj, sum_empty, sum_other, sum_cls]
  rfl

end Cert.RefValue

end
-- ==== Proof.RefOps.lean ====
/-
  The reference computation as one straight line of array operations.

  The reference's main function is five stretches of array operations (slices, reshapes, broadcasts of constants,
  elementwise arithmetic, comparisons, selections and sums over axes) run in order: 292 operations in all. Each stretch is
  written here as the list of its operations, in program order, and the main function is shown to be the five lists
  joined and run as one line. Recorded with it are the facts the run of such a line asks for: the program scopes no
  buffer and no semaphore, every operation touches buffers of the core only, and what the buffers hold after two
  stretches in a row is what they hold after the second, started from what they hold after the first — so the
  contents after the whole line can be followed one stretch at a time.
-/
import proofs.«147053_j34737695490341_2_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [
    unary main_arg1 main_v0 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v0 main_v1 rfl shapeCasts_S16384x7x7x1_S16384x7x7,
    nullary main_cst (constant S_ .f32 0x3F800000#32),
    unary main_cst main_v2 (broadcastInDim S16384x7x7 ![] bcast_S_S16384x7x7 : (⟨S_, .f32⟩ : BufTy).Contents (Elt F) → (⟨S16384x7x7, .f32⟩ : BufTy).Contents (Elt F)),
    binary main_v1 main_v2 main_v3 (cmpf .oeq : (⟨S16384x7x7, .f32⟩ : BufTy).Contents (Elt F) → (⟨S16384x7x7, .f32⟩ : BufTy).Contents (Elt F) → (⟨S16384x7x7, .i1⟩ : BufTy).Contents (Elt F)),
    unary main_v3 main_v4 (uitofp .f32 : (⟨S16384x7x7, .i1⟩ : BufTy).Contents (Elt F) → (⟨S16384x7x7, .f32⟩ : BufTy).Contents (Elt F)),
    unary main_arg1 main_v5 ((extractStridedSlice S16384x7x7x4 ![0, 0, 0, 0] · slices_S16384x7x7x30_S16384x7x7x4_0_0_0_0) : (⟨S16384x7x7x30, .f32⟩ : BufTy).Contents (Elt F) → (⟨S16384x7x7x4, .f32⟩ : BufTy).Contents (Elt F)),
    unary main_arg0 main_v6 ((extractStridedSlice S16384x7x7x4 ![0, 0, 0, 0] · slices_S16384x7x7x30_S16384x7x7x4_0_0_0_0) : (⟨S16384x7x7x30, .f32⟩ : BufTy).Contents (Elt F) → (⟨S16384x7x7x4, .f32⟩ : BufTy).Contents (Elt F)),
    unary main_arg0 main_v7 ((extractStridedSlice S16384x7x7x4 ![0, 0, 0, 5] · slices_S16384x7x7x30_S16384x7x7x4_0_0_0_5) : (⟨S16384x7x7x30, .f32⟩ : BufTy).Contents (Elt F) → (⟨S16384x7x7x4, .f32⟩ : BufTy).Contents (Elt F)),
    unary main_v5 main_v8 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v8 main_v9 rfl shapeCasts_S16384x7x7x1_S16384x7x7,
    unary main_v5 main_v10 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v10 main_v11 rfl shapeCasts_S16384x7x7x1_S16384x7x7,
    nullary main_cst_0 (constant S_ .f32 0x40000000#32),
    unary main_cst_0 main_v12 (broadcastInDim S16384x7x7 ![] bcast_S_S16384x7x7 : (⟨S_, .f32⟩ : BufTy).Contents (Elt F) → (⟨S16384x7x7, .f32⟩ : BufTy).Contents (Elt F)),
    binary main_v11 main_v12 main_v13 (Host.divf : (⟨S16384x7x7, .f32⟩ : BufTy).Contents (Elt F) → (⟨S16384x7x7, .f32⟩ : BufTy).Contents (Elt F) → (⟨S16384x7x7, .f32⟩ : BufTy).Contents (Elt F)),
    binary main_v9 main_v13 main_v14 (subf : (⟨S16384x7x7, .f32⟩ : BufTy).Contents (Elt F) → (⟨S16384x7x7, .f32⟩ : BufTy).Contents (Elt F) → (⟨S16384x7x7, .f32⟩ : BufTy).Contents (Elt F)),
    unary main_v5 main_v15 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v15 main_v16 rfl shapeCasts_S16384x7x7x1_S16384x7x7,
    unary main_v5 main_v17 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v17 main_v18 rfl shapeCasts_S16384x7x7x1_S16384x7x7,
    nullary main_cst_1 (constant S_ .f32 0x40000000#32),
    unary main_cst_1 main_v19 (broadcastInDim S16384x7x7 ![] bcast_S_S16384x7x7 : (⟨S_, .f32⟩ : BufTy).Contents (Elt F) → (⟨S16384x7x7, .f32⟩ : BufTy).Contents (Elt F)),
    binary main_v18 main_v19 main_v20 (Host.divf : (⟨S16384x7x7, .f32⟩ : BufTy).Contents (Elt F) → (⟨S16384x7x7, .f32⟩ : BufTy).Contents (Elt F) → (⟨S16384x7x7, .f32⟩ : BufTy).Contents (Elt F)),
    binary main_v16 main_v20 main_v21 (subf : (⟨S16384x7x7, .f32⟩ : BufTy).Contents (Elt F) → (⟨S16384x7x7, .f32⟩ : BufTy).Contents (Elt F) → (⟨S16384x7x7, .f32⟩ : BufTy).Contents (Elt F)),
    unary main_v5 main_v22 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v22 main_v23 rfl shapeCasts_S16384x7x7x1_S16384x7x7,
    unary main_v5 main_v24 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v24 main_v25 rfl shapeCasts_S16384x7x7x1_S16384x7x7,
    nullary main_cst_2 (constant S_ .f32 0x40000000#32),
    unary main_cst_2 main_v26 (broadcastInDim S16384x7x7 ![] bcast_S_S16384x7x7 : (⟨S_, .f32⟩ : BufTy).Contents (Elt F) → (⟨S16384x7x7, .f32⟩ : BufTy).Contents (Elt F)),
    binary main_v25 main_v26 main_v27 (Host.divf : (⟨S16384x7x7, .f32⟩ : BufTy).Contents (Elt F) → (⟨S16384x7x7, .f32⟩ : BufTy).Contents (Elt F) → (⟨S16384x7x7, .f32⟩ : BufTy).Contents (Elt F)),
    binary main_v23 main_v27 main_v28 (addf : (⟨S16384x7x7, .f32⟩ : BufTy).Contents (Elt F) → (⟨S16384x7x7, .f32⟩ : BufTy).Contents (Elt F) → (⟨S16384x7x7, .f32⟩ : BufTy).Contents (Elt F)),
    unary main_v5 main_v29 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v29 main_v30 rfl shapeCasts_S16384x7x7x1_S16384x7x7,
    unary main_v5 main_v31 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v31 main_v32 rfl shapeCasts_S16384x7x7x1_S16384x7x7,
    nullary main_cst_3 (constant S_ .f32 0x40000000#32),
    unary main_cst_3 main_v33 (broadcastInDim S16384x7x7 ![] bcast_S_S16384x7x7 : (⟨S_, .f32⟩ : BufTy).Contents (Elt F) → (⟨S16384x7x7, .f32⟩ : BufTy).Contents (Elt F)),
    binary main_v32 main_v33 main_v34 (Host.divf : (⟨S16384x7x7, .f32⟩ : BufTy).Contents (Elt F) → (⟨S16384x7x7, .f32⟩ : BufTy).Contents (Elt F) → (⟨S16384x7x7, .f32⟩ : BufTy).Contents (Elt F)),
    binary main_v30 main_v34 main_v35 (addf : (⟨S16384x7x7, .f32⟩ : BufTy).Contents (Elt F) → (⟨S16384x7x7, .f32⟩ : BufTy).Contents (Elt F) → (⟨S16384x7x7, .f32⟩ : BufTy).Contents (Elt F)),
    unary main_v6 main_v36 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v36 main_v37 rfl shapeCasts_S16384x7x7x1_S16384x7x7,
    unary main_v6 main_v38 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v38 main_v39 rfl shapeCasts_S16384x7x7x1_S16384x7x7,
    nullary main_cst_4 (constant S_ .f32 0x40000000#32),
    unary main_cst_4 main_v40 (broadcastInDim S16384x7x7 ![] bcast_S_S16384x7x7 : (⟨S_, .f32⟩ : BufTy).Contents (Elt F) → (⟨S16384x7x7, .f32⟩ : BufTy).Contents (Elt F)),
    binary main_v39 main_v40 main_v41 (Host.divf : (⟨S16384x7x7, .f32⟩ : BufTy).Contents (Elt F) → (⟨S16384x7x7, .f32⟩ : BufTy).Contents (Elt F) → (⟨S16384x7x7, .f32⟩ : BufTy).Contents (Elt F)),
    binary main_v37 main_v41 main_v42 (subf : (⟨S16384x7x7, .f32⟩ : BufTy).Contents (Elt F) → (⟨S16384x7x7, .f32⟩ : BufTy).Contents (Elt F) → (⟨S16384x7x7, .f32⟩ : BufTy).Contents (Elt F)),
    unary main_v6 main_v43 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v43 main_v44 rfl shapeCasts_S16384x7x7x1_S16384x7x7,
    unary main_v6 main_v45 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v45 main_v46 rfl shapeCasts_S16384x7x7x1_S16384x7x7,
    nullary main_cst_5 (constant S_ .f32 0x40000000#32),
    unary main_cst_5 main_v47 (broadcastInDim S16384x7x7 ![] bcast_S_S16384x7x7 : (⟨S_, .f32⟩ : BufTy).Contents (Elt F) → (⟨S16384x7x7, .f32⟩ : BufTy).Contents (Elt F)),
    binary main_v46 main_v47 main_v48 (Host.divf : (⟨S16384x7x7, .f32⟩ : BufTy).Contents (Elt F) → (⟨S16384x7x7, .f32⟩ : BufTy).Contents (Elt F) → (⟨S16384x7x7, .f32⟩ : BufTy).Contents (Elt F)),
    binary main_v44 main_v48 main_v49 (subf : (⟨S16384x7x7, .f32⟩ : BufTy).Contents (Elt F) → (⟨S16384x7x7, .f32⟩ : BufTy).Contents (Elt F) → (⟨S16384x7x7, .f32⟩ : BufTy).Contents (Elt F)),
    unary main_v6 main_v50 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v50 main_v51 rfl shapeCasts_S16384x7x7x1_S16384x7x7,
    unary main_v6 main_v52 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F))
  ]

abbrev ops1 : List (HloOp τ sig (Elt F)) :=
  [
    reshape main_v52 main_v53 rfl shapeCasts_S16384x7x7x1_S16384x7x7,
    nullary main_cst_6 (constant S_ .f32 0x40000000#32),
    unary main_cst_6 main_v54 (broadcastInDim S16384x7x7 ![] bcast_S_S16384x7x7 : (⟨S_, .f32⟩ : BufTy).Contents (Elt F) → (⟨S16384x7x7, .f32⟩ : BufTy).Contents (Elt F)),
    binary main_v53 main_v54 main_v55 (Host.divf : (⟨S16384x7x7, .f32⟩ : BufTy).Contents (Elt F) → (⟨S16384x7x7, .f32⟩ : BufTy).Contents (Elt F) → (⟨S16384x7x7, .f32⟩ : BufTy).Contents (Elt F)),
    binary main_v51 main_v55 main_v56 (addf : (⟨S16384x7x7, .f32⟩ : BufTy).Contents (Elt F) → (⟨S16384x7x7, .f32⟩ : BufTy).Contents (Elt F) → (⟨S16384x7x7, .f32⟩ : BufTy).Contents (Elt F)),
    unary main_v6 main_v57 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v57 main_v58 rfl shapeCasts_S16384x7x7x1_S16384x7x7,
    unary main_v6 main_v59 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v59 main_v60 rfl shapeCasts_S16384x7x7x1_S16384x7x7,
    nullary main_cst_7 (constant S_ .f32 0x40000000#32),
    unary main_cst_7 main_v61 (broadcastInDim S16384x7x7 ![] bcast_S_S16384x7x7 : (⟨S_, .f32⟩ : BufTy).Contents (Elt F) → (⟨S16384x7x7, .f32⟩ : BufTy).Contents (Elt F)),
    binary main_v60 main_v61 main_v62 (Host.divf : (⟨S16384x7x7, .f32⟩ : BufTy).Contents (Elt F) → (⟨S16384x7x7, .f32⟩ : BufTy).Contents (Elt F) → (⟨S16384x7x7, .f32⟩ : BufTy).Contents (Elt F)),
    binary main_v58 main_v62 main_v63 (addf : (⟨S16384x7x7, .f32⟩ : BufTy).Contents (Elt F) → (⟨S16384x7x7, .f32⟩ : BufTy).Contents (Elt F) → (⟨S16384x7x7, .f32⟩ : BufTy).Contents (Elt F)),
    binary main_v28 main_v56 main_v64 (minimumf : (⟨S16384x7x7, .f32⟩ : BufTy).Contents (Elt F) → (⟨S16384x7x7, .f32⟩ : BufTy).Contents (Elt F) → (⟨S16384x7x7, .f32⟩ : BufTy).Contents (Elt F)),
    binary main_v14 main_v42 main_v65 (maximumf : (⟨S16384x7x7, .f32⟩ : BufTy).Contents (Elt F) → (⟨S16384x7x7, .f32⟩ : BufTy).Contents (Elt F) → (⟨S16384x7x7, .f32⟩ : BufTy).Contents (Elt F)),
    binary main_v64 main_v65 main_v66 (subf : (⟨S16384x7x7, .f32⟩ : BufTy).Contents (Elt F) → (⟨S16384x7x7, .f32⟩ : BufTy).Contents (Elt F) → (⟨S16384x7x7, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.unary (TRef.of (T := ⟨S_, .f32⟩) main_call0_v0) (TRef.of (T := ⟨S16384x7x7, .f32⟩) main_call0_v1) (broadcastInDim S16384x7x7 ![] bcast_S_S16384x7x7),
    TRef.binary (TRef.of (T := ⟨S16384x7x7, .f32⟩) main_call0_v1) (TRef.of (T := ⟨S16384x7x7, .f32⟩) main_v66) (TRef.of (T := ⟨S16384x7x7, .f32⟩) main_v67) maximumf,
    binary main_v35 main_v63 main_v68 (minimumf : (⟨S16384x7x7, .f32⟩ : BufTy).Contents (Elt F) → (⟨S16384x7x7, .f32⟩ : BufTy).Contents (Elt F) → (⟨S16384x7x7, .f32⟩ : BufTy).Contents (Elt F)),
    binary main_v21 main_v49 main_v69 (maximumf : (⟨S16384x7x7, .f32⟩ : BufTy).Contents (Elt F) → (⟨S16384x7x7, .f32⟩ : BufTy).Contents (Elt F) → (⟨S16384x7x7, .f32⟩ : BufTy).Contents (Elt F)),
    binary main_v68 main_v69 main_v70 (subf : (⟨S16384x7x7, .f32⟩ : BufTy).Contents (Elt F) → (⟨S16384x7x7, .f32⟩ : BufTy).Contents (Elt F) → (⟨S16384x7x7, .f32⟩ : BufTy).Contents (Elt F)),
    nullary main_c_8 (constantI S_ 32 0#32),
    TRef.unary (TRef.of (T := ⟨S_, .i32⟩) main_c_8) (TRef.of (T := ⟨S_, .f32⟩) main_call1_v0) (sitofp .f32),
    TRef.unary (TRef.of (T := ⟨S_, .f32⟩) main_call1_v0) (TRef.of (T := ⟨S16384x7x7, .f32⟩) main_call1_v1) (broadcastInDim S16384x7x7 ![] bcast_S_S16384x7x7),
    TRef.binary (TRef.of (T := ⟨S16384x7x7, .f32⟩) main_call1_v1) (TRef.of (T := ⟨S16384x7x7, .f32⟩) main_v70) (TRef.of (T := ⟨S16384x7x7, .f32⟩) main_v71) maximumf,
    binary main_v67 main_v71 main_v72 (mulf : (⟨S16384x7x7, .f32⟩ : BufTy).Contents (Elt F) → (⟨S16384x7x7, .f32⟩ : BufTy).Contents (Elt F) → (⟨S16384x7x7, .f32⟩ : BufTy).Contents (Elt F)),
    binary main_v28 main_v14 main_v73 (subf : (⟨S16384x7x7, .f32⟩ : BufTy).Contents (Elt F) → (⟨S16384x7x7, .f32⟩ : BufTy).Contents (Elt F) → (⟨S16384x7x7, .f32⟩ : BufTy).Contents (Elt F)),
    binary main_v35 main_v21 main_v74 (subf : (⟨S16384x7x7, .f32⟩ : BufTy).Contents (Elt F) → (⟨S16384x7x7, .f32⟩ : BufTy).Contents (Elt F) → (⟨S16384x7x7, .f32⟩ : BufTy).Contents (Elt F)),
    binary main_v73 main_v74 main_v75 (mulf : (⟨S16384x7x7, .f32⟩ : BufTy).Contents (Elt F) → (⟨S16384x7x7, .f32⟩ : BufTy).Contents (Elt F) → (⟨S16384x7x7, .f32⟩ : BufTy).Contents (Elt F)),
    unary main_v75 main_v76 (Host.absf : (⟨S16384x7x7, .f32⟩ : BufTy).Contents (Elt F) → (⟨S16384x7x7, .f32⟩ : BufTy).Contents (Elt F)),
    binary main_v56 main_v42 main_v77 (subf : (⟨S16384x7x7, .f32⟩ : BufTy).Contents (Elt F) → (⟨S16384x7x7, .f32⟩ : BufTy).Contents (Elt F) → (⟨S16384x7x7, .f32⟩ : BufTy).Contents (Elt F)),
    binary main_v63 main_v49 main_v78 (subf : (⟨S16384x7x7, .f32⟩ : BufTy).Contents (Elt F) → (⟨S16384x7x7, .f32⟩ : BufTy).Contents (Elt F) → (⟨S16384x7x7, .f32⟩ : BufTy).Contents (Elt F)),
    binary main_v77 main_v78 main_v79 (mulf : (⟨S16384x7x7, .f32⟩ : BufTy).Contents (Elt F) → (⟨S16384x7x7, .f32⟩ : BufTy).Contents (Elt F) → (⟨S16384x7x7, .f32⟩ : BufTy).Contents (Elt F)),
    unary main_v79 main_v80 (Host.absf : (⟨S16384x7x7, .f32⟩ : BufTy).Contents (Elt F) → (⟨S16384x7x7, .f32⟩ : BufTy).Contents (Elt F)),
    binary main_v76 main_v80 main_v81 (addf : (⟨S16384x7x7, .f32⟩ : BufTy).Contents (Elt F) → (⟨S16384x7x7, .f32⟩ : BufTy).Contents (Elt F) → (⟨S16384x7x7, .f32⟩ : BufTy).Contents (Elt F)),
    binary main_v81 main_v72 main_v82 (subf : (⟨S16384x7x7, .f32⟩ : BufTy).Contents (Elt F) → (⟨S16384x7x7, .f32⟩ : BufTy).Contents (Elt F) → (⟨S16384x7x7, .f32⟩ : BufTy).Contents (Elt F)),
    nullary main_cst_9 (constant S_ .f32 0x358637BD#32),
    unary main_cst_9 main_v83 (broadcastInDim S16384x7x7 ![] bcast_S_S16384x7x7 : (⟨S_, .f32⟩ : BufTy).Contents (Elt F) → (⟨S16384x7x7, .f32⟩ : BufTy).Contents (Elt F)),
    binary main_v82 main_v83 main_v84 (addf : (⟨S16384x7x7, .f32⟩ : BufTy).Contents (Elt F) → (⟨S16384x7x7, .f32⟩ : BufTy).Contents (Elt F) → (⟨S16384x7x7, .f32⟩ : BufTy).Contents (Elt F)),
    binary main_v72 main_v84 main_v85 (Host.divf : (⟨S16384x7x7, .f32⟩ : BufTy).Contents (Elt F) → (⟨S16384x7x7, .f32⟩ : BufTy).Contents (Elt F) → (⟨S16384x7x7, .f32⟩ : BufTy).Contents (Elt F)),
    unary main_v5 main_v86 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v86 main_v87 rfl shapeCasts_S16384x7x7x1_S16384x7x7,
    unary main_v5 main_v88 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v88 main_v89 rfl shapeCasts_S16384x7x7x1_S16384x7x7,
    nullary main_cst_10 (constant S_ .f32 0x40000000#32),
    unary main_cst_10 main_v90 (broadcastInDim S16384x7x7 ![] bcast_S_S16384x7x7 : (⟨S_, .f32⟩ : BufTy).Contents (Elt F) → (⟨S16384x7x7, .f32⟩ : BufTy).Contents (Elt F)),
    binary main_v89 main_v90 main_v91 (Host.divf : (⟨S16384x7x7, .f32⟩ : BufTy).Contents (Elt F) → (⟨S16384x7x7, .f32⟩ : BufTy).Contents (Elt F) → (⟨S16384x7x7, .f32⟩ : BufTy).Contents (Elt F)),
    binary main_v87 main_v91 main_v92 (subf : (⟨S16384x7x7, .f32⟩ : BufTy).Contents (Elt F) → (⟨S16384x7x7, .f32⟩ : BufTy).Contents (Elt F) → (⟨S16384x7x7, .f32⟩ : BufTy).Contents (Elt F)),
    unary main_v5 main_v93 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v93 main_v94 rfl shapeCasts_S16384x7x7x1_S16384x7x7,
    unary main_v5 main_v95 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v95 main_v96 rfl shapeCasts_S16384x7x7x1_S16384x7x7,
    nullary main_cst_11 (constant S_ .f32 0x40000000#32),
    unary main_cst_11 main_v97 (broadcastInDim S16384x7x7 ![] bcast_S_S16384x7x7 : (⟨S_, .f32⟩ : BufTy).Contents (Elt F) → (⟨S16384x7x7, .f32⟩ : BufTy).Contents (Elt F)),
    binary main_v96 main_v97 main_v98 (Host.divf : (⟨S16384x7x7, .f32⟩ : BufTy).Contents (Elt F) → (⟨S16384x7x7, .f32⟩ : BufTy).Contents (Elt F) → (⟨S16384x7x7, .f32⟩ : BufTy).Contents (Elt F)),
    binary main_v94 main_v98 main_v99 (subf : (⟨S16384x7x7, .f32⟩ : BufTy).Contents (Elt F) → (⟨S16384x7x7, .f32⟩ : BufTy).Contents (Elt F) → (⟨S16384x7x7, .f32⟩ : BufTy).Contents (Elt F)),
    unary main_v5 main_v100 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v100 main_v101 rfl shapeCasts_S16384x7x7x1_S16384x7x7,
    unary main_v5 main_v102 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v102 main_v103 rfl shapeCasts_S16384x7x7x1_S16384x7x7,
    nullary main_cst_12 (constant S_ .f32 0x40000000#32),
    unary main_cst_12 main_v104 (broadcastInDim S16384x7x7 ![] bcast_S_S16384x7x7 : (⟨S_, .f32⟩ : BufTy).Contents (Elt F) → (⟨S16384x7x7, .f32⟩ : BufTy).Contents (Elt F))
  ]

abbrev ops2 : List (HloOp τ sig (Elt F)) :=
  [
    binary main_v103 main_v104 main_v105 (Host.divf : (⟨S16384x7x7, .f32⟩ : BufTy).Contents (Elt F) → (⟨S16384x7x7, .f32⟩ : BufTy).Contents (Elt F) → (⟨S16384x7x7, .f32⟩ : BufTy).Contents (Elt F)),
    binary main_v101 main_v105 main_v106 (addf : (⟨S16384x7x7, .f32⟩ : BufTy).Contents (Elt F) → (⟨S16384x7x7, .f32⟩ : BufTy).Contents (Elt F) → (⟨S16384x7x7, .f32⟩ : BufTy).Contents (Elt F)),
    unary main_v5 main_v107 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v107 main_v108 rfl shapeCasts_S16384x7x7x1_S16384x7x7,
    unary main_v5 main_v109 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v109 main_v110 rfl shapeCasts_S16384x7x7x1_S16384x7x7,
    nullary main_cst_13 (constant S_ .f32 0x40000000#32),
    unary main_cst_13 main_v111 (broadcastInDim S16384x7x7 ![] bcast_S_S16384x7x7 : (⟨S_, .f32⟩ : BufTy).Contents (Elt F) → (⟨S16384x7x7, .f32⟩ : BufTy).Contents (Elt F)),
    binary main_v110 main_v111 main_v112 (Host.divf : (⟨S16384x7x7, .f32⟩ : BufTy).Contents (Elt F) → (⟨S16384x7x7, .f32⟩ : BufTy).Contents (Elt F) → (⟨S16384x7x7, .f32⟩ : BufTy).Contents (Elt F)),
    binary main_v108 main_v112 main_v113 (addf : (⟨S16384x7x7, .f32⟩ : BufTy).Contents (Elt F) → (⟨S16384x7x7, .f32⟩ : BufTy).Contents (Elt F) → (⟨S16384x7x7, .f32⟩ : BufTy).Contents (Elt F)),
    unary main_v7 main_v114 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v114 main_v115 rfl shapeCasts_S16384x7x7x1_S16384x7x7,
    unary main_v7 main_v116 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v116 main_v117 rfl shapeCasts_S16384x7x7x1_S16384x7x7,
    nullary main_cst_14 (constant S_ .f32 0x40000000#32),
    unary main_cst_14 main_v118 (broadcastInDim S16384x7x7 ![] bcast_S_S16384x7x7 : (⟨S_, .f32⟩ : BufTy).Contents (Elt F) → (⟨S16384x7x7, .f32⟩ : BufTy).Contents (Elt F)),
    binary main_v117 main_v118 main_v119 (Host.divf : (⟨S16384x7x7, .f32⟩ : BufTy).Contents (Elt F) → (⟨S16384x7x7, .f32⟩ : BufTy).Contents (Elt F) → (⟨S16384x7x7, .f32⟩ : BufTy).Contents (Elt F)),
    binary main_v115 main_v119 main_v120 (subf : (⟨S16384x7x7, .f32⟩ : BufTy).Contents (Elt F) → (⟨S16384x7x7, .f32⟩ : BufTy).Contents (Elt F) → (⟨S16384x7x7, .f32⟩ : BufTy).Contents (Elt F)),
    unary main_v7 main_v121 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v121 main_v122 rfl shapeCasts_S16384x7x7x1_S16384x7x7,
    unary main_v7 main_v123 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v123 main_v124 rfl shapeCasts_S16384x7x7x1_S16384x7x7,
    nullary main_cst_15 (constant S_ .f32 0x40000000#32),
    unary main_cst_15 main_v125 (broadcastInDim S16384x7x7 ![] bcast_S_S16384x7x7 : (⟨S_, .f32⟩ : BufTy).Contents (Elt F) → (⟨S16384x7x7, .f32⟩ : BufTy).Contents (Elt F)),
    binary main_v124 main_v125 main_v126 (Host.divf : (⟨S16384x7x7, .f32⟩ : BufTy).Contents (Elt F) → (⟨S16384x7x7, .f32⟩ : BufTy).Contents (Elt F) → (⟨S16384x7x7, .f32⟩ : BufTy).Contents (Elt F)),
    binary main_v122 main_v126 main_v127 (subf : (⟨S16384x7x7, .f32⟩ : BufTy).Contents (Elt F) → (⟨S16384x7x7, .f32⟩ : BufTy).Contents (Elt F) → (⟨S16384x7x7, .f32⟩ : BufTy).Contents (Elt F)),
    unary main_v7 main_v128 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v128 main_v129 rfl shapeCasts_S16384x7x7x1_S16384x7x7,
    unary main_v7 main_v130 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v130 main_v131 rfl shapeCasts_S16384x7x7x1_S16384x7x7,
    nullary main_cst_16 (constant S_ .f32 0x40000000#32),
    unary main_cst_16 main_v132 (broadcastInDim S16384x7x7 ![] bcast_S_S16384x7x7 : (⟨S_, .f32⟩ : BufTy).Contents (Elt F) → (⟨S16384x7x7, .f32⟩ : BufTy).Contents (Elt F)),
    binary main_v131 main_v132 main_v133 (Host.divf : (⟨S16384x7x7, .f32⟩ : BufTy).Contents (Elt F) → (⟨S16384x7x7, .f32⟩ : BufTy).Contents (Elt F) → (⟨S16384x7x7, .f32⟩ : BufTy).Contents (Elt F)),
    binary main_v129 main_v133 main_v134 (addf : (⟨S16384x7x7, .f32⟩ : BufTy).Contents (Elt F) → (⟨S16384x7x7, .f32⟩ : BufTy).Contents (Elt F) → (⟨S16384x7x7, .f32⟩ : BufTy).Contents (Elt F)),
    unary main_v7 main_v135 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v135 main_v136 rfl shapeCasts_S16384x7x7x1_S16384x7x7,
    unary main_v7 main_v137 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v137 main_v138 rfl shapeCasts_S16384x7x7x1_S16384x7x7,
    nullary main_cst_17 (constant S_ .f32 0x40000000#32),
    unary main_cst_17 main_v139 (broadcastInDim S16384x7x7 ![] bcast_S_S16384x7x7 : (⟨S_, .f32⟩ : BufTy).Contents (Elt F) → (⟨S16384x7x7, .f32⟩ : BufTy).Contents (Elt F)),
    binary main_v138 main_v139 main_v140 (Host.divf : (⟨S16384x7x7, .f32⟩ : BufTy).Contents (Elt F) → (⟨S16384x7x7, .f32⟩ : BufTy).Contents (Elt F) → (⟨S16384x7x7, .f32⟩ : BufTy).Contents (Elt F)),
    binary main_v136 main_v140 main_v141 (addf : (⟨S16384x7x7, .f32⟩ : BufTy).Contents (Elt F) → (⟨S16384x7x7, .f32⟩ : BufTy).Contents (Elt F) → (⟨S16384x7x7, .f32⟩ : BufTy).Contents (Elt F)),
    binary main_v106 main_v134 main_v142 (minimumf : (⟨S16384x7x7, .f32⟩ : BufTy).Contents (Elt F) → (⟨S16384x7x7, .f32⟩ : BufTy).Contents (Elt F) → (⟨S16384x7x7, .f32⟩ : BufTy).Contents (Elt F)),
    binary main_v92 main_v120 main_v143 (maximumf : (⟨S16384x7x7, .f32⟩ : BufTy).Contents (Elt F) → (⟨S16384x7x7, .f32⟩ : BufTy).Contents (Elt F) → (⟨S16384x7x7, .f32⟩ : BufTy).Contents (Elt F)),
    binary main_v142 main_v143 main_v144 (subf : (⟨S16384x7x7, .f32⟩ : BufTy).Contents (Elt F) → (⟨S16384x7x7, .f32⟩ : BufTy).Contents (Elt F) → (⟨S16384x7x7, .f32⟩ : BufTy).Contents (Elt F)),
    nullary main_c_18 (constantI S_ 32 0#32),
    TRef.unary (TRef.of (T := ⟨S_, .i32⟩) main_c_18) (TRef.of (T := ⟨S_, .f32⟩) main_call2_v0) (sitofp .f32),
    TRef.unary (TRef.of (T := ⟨S_, .f32⟩) main_call2_v0) (TRef.of (T := ⟨S16384x7x7, .f32⟩) main_call2_v1) (broadcastInDim S16384x7x7 ![] bcast_S_S16384x7x7),
    TRef.binary (TRef.of (T := ⟨S16384x7x7, .f32⟩) main_call2_v1) (TRef.of (T := ⟨S16384x7x7, .f32⟩) main_v144) (TRef.of (T := ⟨S16384x7x7, .f32⟩) main_v145) maximumf,
    binary main_v113 main_v141 main_v146 (minimumf : (⟨S16384x7x7, .f32⟩ : BufTy).Contents (Elt F) → (⟨S16384x7x7, .f32⟩ : BufTy).Contents (Elt F) → (⟨S16384x7x7, .f32⟩ : BufTy).Contents (Elt F)),
    binary main_v99 main_v127 main_v147 (maximumf : (⟨S16384x7x7, .f32⟩ : BufTy).Contents (Elt F) → (⟨S16384x7x7, .f32⟩ : BufTy).Contents (Elt F) → (⟨S16384x7x7, .f32⟩ : BufTy).Contents (Elt F)),
    binary main_v146 main_v147 main_v148 (subf : (⟨S16384x7x7, .f32⟩ : BufTy).Contents (Elt F) → (⟨S16384x7x7, .f32⟩ : BufTy).Contents (Elt F) → (⟨S16384x7x7, .f32⟩ : BufTy).Contents (Elt F)),
    nullary main_c_19 (constantI S_ 32 0#32),
    TRef.unary (TRef.of (T := ⟨S_, .i32⟩) main_c_19) (TRef.of (T := ⟨S_, .f32⟩) main_call3_v0) (sitofp .f32),
    TRef.unary (TRef.of (T := ⟨S_, .f32⟩) main_call3_v0) (TRef.of (T := ⟨S16384x7x7, .f32⟩) main_call3_v1) (broadcastInDim S16384x7x7 ![] bcast_S_S16384x7x7),
    TRef.binary (TRef.of (T := ⟨S16384x7x7, .f32⟩) main_call3_v1) (TRef.of (T := ⟨S16384x7x7, .f32⟩) main_v148) (TRef.of (T := ⟨S16384x7x7, .f32⟩) main_v149) maximumf,
    binary main_v145 main_v149 main_v150 (mulf : (⟨S16384x7x7, .f32⟩ : BufTy).Contents (Elt F) → (⟨S16384x7x7, .f32⟩ : BufTy).Contents (Elt F) → (⟨S16384x7x7, .f32⟩ : BufTy).Contents (Elt F)),
    binary main_v106 main_v92 main_v151 (subf : (⟨S16384x7x7, .f32⟩ : BufTy).Contents (Elt F) → (⟨S16384x7x7, .f32⟩ : BufTy).Contents (Elt F) → (⟨S16384x7x7, .f32⟩ : BufTy).Contents (Elt F)),
    binary main_v113 main_v99 main_v152 (subf : (⟨S16384x7x7, .f32⟩ : BufTy).Contents (Elt F) → (⟨S16384x7x7, .f32⟩ : BufTy).Contents (Elt F) → (⟨S16384x7x7, .f32⟩ : BufTy).Contents (Elt F)),
    binary main_v151 main_v152 main_v153 (mulf : (⟨S16384x7x7, .f32⟩ : BufTy).Contents (Elt F) → (⟨S16384x7x7, .f32⟩ : BufTy).Contents (Elt F) → (⟨S16384x7x7, .f32⟩ : BufTy).Contents (Elt F)),
    unary main_v153 main_v154 (Host.absf : (⟨S16384x7x7, .f32⟩ : BufTy).Contents (Elt F) → (⟨S16384x7x7, .f32⟩ : BufTy).Contents (Elt F)),
    binary main_v134 main_v120 main_v155 (subf : (⟨S16384x7x7, .f32⟩ : BufTy).Contents (Elt F) → (⟨S16384x7x7, .f32⟩ : BufTy).Contents (Elt F) → (⟨S16384x7x7, .f32⟩ : BufTy).Contents (Elt F)),
    binary main_v141 main_v127 main_v156 (subf : (⟨S16384x7x7, .f32⟩ : BufTy).Contents (Elt F) → (⟨S16384x7x7, .f32⟩ : BufTy).Contents (Elt F) → (⟨S16384x7x7, .f32⟩ : BufTy).Contents (Elt F)),
    binary main_v155 main_v156 main_v157 (mulf : (⟨S16384x7x7, .f32⟩ : BufTy).Contents (Elt F) → (⟨S16384x7x7, .f32⟩ : BufTy).Contents (Elt F) → (⟨S16384x7x7, .f32⟩ : BufTy).Contents (Elt F))
  ]

abbrev ops3 : List (HloOp τ sig (Elt F)) :=
  [
    unary main_v157 main_v158 (Host.absf : (⟨S16384x7x7, .f32⟩ : BufTy).Contents (Elt F) → (⟨S16384x7x7, .f32⟩ : BufTy).Contents (Elt F)),
    binary main_v154 main_v158 main_v159 (addf : (⟨S16384x7x7, .f32⟩ : BufTy).Contents (Elt F) → (⟨S16384x7x7, .f32⟩ : BufTy).Contents (Elt F) → (⟨S16384x7x7, .f32⟩ : BufTy).Contents (Elt F)),
    binary main_v159 main_v150 main_v160 (subf : (⟨S16384x7x7, .f32⟩ : BufTy).Contents (Elt F) → (⟨S16384x7x7, .f32⟩ : BufTy).Contents (Elt F) → (⟨S16384x7x7, .f32⟩ : BufTy).Contents (Elt F)),
    nullary main_cst_20 (constant S_ .f32 0x358637BD#32),
    unary main_cst_20 main_v161 (broadcastInDim S16384x7x7 ![] bcast_S_S16384x7x7 : (⟨S_, .f32⟩ : BufTy).Contents (Elt F) → (⟨S16384x7x7, .f32⟩ : BufTy).Contents (Elt F)),
    binary main_v160 main_v161 main_v162 (addf : (⟨S16384x7x7, .f32⟩ : BufTy).Contents (Elt F) → (⟨S16384x7x7, .f32⟩ : BufTy).Contents (Elt F) → (⟨S16384x7x7, .f32⟩ : BufTy).Contents (Elt F)),
    binary main_v150 main_v162 main_v163 (Host.divf : (⟨S16384x7x7, .f32⟩ : BufTy).Contents (Elt F) → (⟨S16384x7x7, .f32⟩ : BufTy).Contents (Elt F) → (⟨S16384x7x7, .f32⟩ : BufTy).Contents (Elt F)),
    binary main_v85 main_v163 main_v164 (cmpf .ogt : (⟨S16384x7x7, .f32⟩ : BufTy).Contents (Elt F) → (⟨S16384x7x7, .f32⟩ : BufTy).Contents (Elt F) → (⟨S16384x7x7, .i1⟩ : BufTy).Contents (Elt F)),
    unary main_v164 main_v165 (broadcastInDim S16384x7x7x1 ![0, 1, 2] bcast_S16384x7x7_S16384x7x7x1_0_1_2 : (⟨S16384x7x7, .i1⟩ : BufTy).Contents (Elt F) → (⟨S16384x7x7x1, .i1⟩ : BufTy).Contents (Elt F)),
    TRef.unary (TRef.of (T := ⟨S16384x7x7x1, .i1⟩) main_v165) (TRef.of (T := ⟨S16384x7x7x4, .i1⟩) main_call4_v0) (broadcastInDim S16384x7x7x4 ![0, 1, 2, 3] bcast_S16384x7x7x1_S16384x7x7x4_0_1_2_3),
    TRef.ternary (TRef.of (T := ⟨S16384x7x7x4, .i1⟩) main_call4_v0) (TRef.of (T := ⟨S16384x7x7x4, .f32⟩) main_v6) (TRef.of (T := ⟨S16384x7x7x4, .f32⟩) main_v7) (TRef.of (T := ⟨S16384x7x7x4, .f32⟩) main_v166) select,
    unary main_arg0 main_v167 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v167 main_v168 rfl shapeCasts_S16384x7x7x1_S16384x7x7,
    unary main_arg0 main_v169 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v169 main_v170 rfl shapeCasts_S16384x7x7x1_S16384x7x7,
    TRef.ternary (TRef.of (T := ⟨S16384x7x7, .i1⟩) main_v164) (TRef.of (T := ⟨S16384x7x7, .f32⟩) main_v168) (TRef.of (T := ⟨S16384x7x7, .f32⟩) main_v170) (TRef.of (T := ⟨S16384x7x7, .f32⟩) main_v171) select,
    unary main_arg0 main_v172 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v172 main_v173 rfl shapeCasts_S16384x7x7x1_S16384x7x7,
    unary main_arg0 main_v174 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v174 main_v175 rfl shapeCasts_S16384x7x7x1_S16384x7x7,
    TRef.ternary (TRef.of (T := ⟨S16384x7x7, .i1⟩) main_v164) (TRef.of (T := ⟨S16384x7x7, .f32⟩) main_v173) (TRef.of (T := ⟨S16384x7x7, .f32⟩) main_v175) (TRef.of (T := ⟨S16384x7x7, .f32⟩) main_v176) select,
    binary main_v85 main_v163 main_v177 (maximumf : (⟨S16384x7x7, .f32⟩ : BufTy).Contents (Elt F) → (⟨S16384x7x7, .f32⟩ : BufTy).Contents (Elt F) → (⟨S16384x7x7, .f32⟩ : BufTy).Contents (Elt F)),
    binary main_v85 main_v163 main_v178 (minimumf : (⟨S16384x7x7, .f32⟩ : BufTy).Contents (Elt F) → (⟨S16384x7x7, .f32⟩ : BufTy).Contents (Elt F) → (⟨S16384x7x7, .f32⟩ : BufTy).Contents (Elt F)),
    unary main_v5 main_v179 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v179 main_v180 rfl shapeCasts_S16384x7x7x1_S16384x7x7,
    unary main_v166 main_v181 ((extractStridedSlice S16384x7x7x1 ![0, 0, 0, 0] · slices_S16384x7x7x4_S16384x7x7x1_0_0_0_0) : (⟨S16384x7x7x4, .f32⟩ : BufTy).Contents (Elt F) → (⟨S16384x7x7x1, .f32⟩ : BufTy).Contents (Elt F)),
    reshape main_v181 main_v182 rfl shapeCasts_S16384x7x7x1_S16384x7x7,
    binary main_v180 main_v182 main_v183 (subf : (⟨S16384x7x7, .f32⟩ : BufTy).Contents (Elt F) → (⟨S16384x7x7, .f32⟩ : BufTy).Contents (Elt F) → (⟨S16384x7x7, .f32⟩ : BufTy).Contents (Elt F)),
    binary main_v183 main_v183 main_v184 (mulf : (⟨S16384x7x7, .f32⟩ : BufTy).Contents (Elt F) → (⟨S16384x7x7, .f32⟩ : BufTy).Contents (Elt F) → (⟨S16384x7x7, .f32⟩ : BufTy).Contents (Elt F)),
    unary main_v5 main_v185 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v185 main_v186 rfl shapeCasts_S16384x7x7x1_S16384x7x7,
    unary main_v166 main_v187 ((extractStridedSlice S16384x7x7x1 ![0, 0, 0, 1] · slices_S16384x7x7x4_S16384x7x7x1_0_0_0_1) : (⟨S16384x7x7x4, .f32⟩ : BufTy).Contents (Elt F) → (⟨S16384x7x7x1, .f32⟩ : BufTy).Contents (Elt F)),
    reshape main_v187 main_v188 rfl shapeCasts_S16384x7x7x1_S16384x7x7,
    binary main_v186 main_v188 main_v189 (subf : (⟨S16384x7x7, .f32⟩ : BufTy).Contents (Elt F) → (⟨S16384x7x7, .f32⟩ : BufTy).Contents (Elt F) → (⟨S16384x7x7, .f32⟩ : BufTy).Contents (Elt F)),
    binary main_v189 main_v189 main_v190 (mulf : (⟨S16384x7x7, .f32⟩ : BufTy).Contents (Elt F) → (⟨S16384x7x7, .f32⟩ : BufTy).Contents (Elt F) → (⟨S16384x7x7, .f32⟩ : BufTy).Contents (Elt F)),
    binary main_v184 main_v190 main_v191 (addf : (⟨S16384x7x7, .f32⟩ : BufTy).Contents (Elt F) → (⟨S16384x7x7, .f32⟩ : BufTy).Contents (Elt F) → (⟨S16384x7x7, .f32⟩ : BufTy).Contents (Elt F)),
    binary main_v4 main_v191 main_v192 (mulf : (⟨S16384x7x7, .f32⟩ : BufTy).Contents (Elt F) → (⟨S16384x7x7, .f32⟩ : BufTy).Contents (Elt F) → (⟨S16384x7x7, .f32⟩ : BufTy).Contents (Elt F)),
    nullary main_cst_21 (constant S_ .f32 0x00000000#32),
    binary main_v192 main_cst_21 main_v193 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    unary main_v5 main_v194 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v194 main_v195 rfl shapeCasts_S16384x7x7x1_S16384x7x7,
    unary main_v195 main_v196 (Host.sqrt : (⟨S16384x7x7, .f32⟩ : BufTy).Contents (Elt F) → (⟨S16384x7x7, .f32⟩ : BufTy).Contents (Elt F)),
    unary main_v166 main_v197 ((extractStridedSlice S16384x7x7x1 ![0, 0, 0, 2] · slices_S16384x7x7x4_S16384x7x7x1_0_0_0_2) : (⟨S16384x7x7x4, .f32⟩ : BufTy).Contents (Elt F) → (⟨S16384x7x7x1, .f32⟩ : BufTy).Contents (Elt F)),
    reshape main_v197 main_v198 rfl shapeCasts_S16384x7x7x1_S16384x7x7,
    unary main_v198 main_v199 (Host.sqrt : (⟨S16384x7x7, .f32⟩ : BufTy).Contents (Elt F) → (⟨S16384x7x7, .f32⟩ : BufTy).Contents (Elt F)),
    binary main_v196 main_v199 main_v200 (subf : (⟨S16384x7x7, .f32⟩ : BufTy).Contents (Elt F) → (⟨S16384x7x7, .f32⟩ : BufTy).Contents (Elt F) → (⟨S16384x7x7, .f32⟩ : BufTy).Contents (Elt F)),
    binary main_v200 main_v200 main_v201 (mulf : (⟨S16384x7x7, .f32⟩ : BufTy).Contents (Elt F) → (⟨S16384x7x7, .f32⟩ : BufTy).Contents (Elt F) → (⟨S16384x7x7, .f32⟩ : BufTy).Contents (Elt F)),
    unary main_v5 main_v202 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v202 main_v203 rfl shapeCasts_S16384x7x7x1_S16384x7x7,
    unary main_v203 main_v204 (Host.sqrt : (⟨S16384x7x7, .f32⟩ : BufTy).Contents (Elt F) → (⟨S16384x7x7, .f32⟩ : BufTy).Contents (Elt F)),
    unary main_v166 main_v205 ((extractStridedSlice S16384x7x7x1 ![0, 0, 0, 3] · slices_S16384x7x7x4_S16384x7x7x1_0_0_0_3) : (⟨S16384x7x7x4, .f32⟩ : BufTy).Contents (Elt F) → (⟨S16384x7x7x1, .f32⟩ : BufTy).Contents (Elt F)),
    reshape main_v205 main_v206 rfl shapeCasts_S16384x7x7x1_S16384x7x7,
    unary main_v206 main_v207 (Host.sqrt : (⟨S16384x7x7, .f32⟩ : BufTy).Contents (Elt F) → (⟨S16384x7x7, .f32⟩ : BufTy).Contents (Elt F)),
    binary main_v204 main_v207 main_v208 (subf : (⟨S16384x7x7, .f32⟩ : BufTy).Contents (Elt F) → (⟨S16384x7x7, .f32⟩ : BufTy).Contents (Elt F) → (⟨S16384x7x7, .f32⟩ : BufTy).Contents (Elt F)),
    binary main_v208 main_v208 main_v209 (mulf : (⟨S16384x7x7, .f32⟩ : BufTy).Contents (Elt F) → (⟨S16384x7x7, .f32⟩ : BufTy).Contents (Elt F) → (⟨S16384x7x7, .f32⟩ : BufTy).Contents (Elt F)),
    binary main_v201 main_v209 main_v210 (addf : (⟨S16384x7x7, .f32⟩ : BufTy).Contents (Elt F) → (⟨S16384x7x7, .f32⟩ : BufTy).Contents (Elt F) → (⟨S16384x7x7, .f32⟩ : BufTy).Contents (Elt F)),
    binary main_v4 main_v210 main_v211 (mulf : (⟨S16384x7x7, .f32⟩ : BufTy).Contents (Elt F) → (⟨S16384x7x7, .f32⟩ : BufTy).Contents (Elt F) → (⟨S16384x7x7, .f32⟩ : BufTy).Contents (Elt F)),
    nullary main_cst_22 (constant S_ .f32 0x00000000#32),
    binary main_v211 main_cst_22 main_v212 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    binary main_v177 main_v171 main_v213 (subf : (⟨S16384x7x7, .f32⟩ : BufTy).Contents (Elt F) → (⟨S16384x7x7, .f32⟩ : BufTy).Contents (Elt F) → (⟨S16384x7x7, .f32⟩ : BufTy).Contents (Elt F)),
    binary main_v213 main_v213 main_v214 (mulf : (⟨S16384x7x7, .f32⟩ : BufTy).Contents (Elt F) → (⟨S16384x7x7, .f32⟩ : BufTy).Contents (Elt F) → (⟨S16384x7x7, .f32⟩ : BufTy).Contents (Elt F))
  ]

abbrev ops4 : List (HloOp τ sig (Elt F)) :=
  [
    binary main_v4 main_v214 main_v215 (mulf : (⟨S16384x7x7, .f32⟩ : BufTy).Contents (Elt F) → (⟨S16384x7x7, .f32⟩ : BufTy).Contents (Elt F) → (⟨S16384x7x7, .f32⟩ : BufTy).Contents (Elt F)),
    nullary main_cst_23 (constant S_ .f32 0x00000000#32),
    binary main_v215 main_cst_23 main_v216 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    nullary main_cst_24 (constant S_ .f32 0x3F800000#32),
    unary main_cst_24 main_v217 (broadcastInDim S16384x7x7 ![] bcast_S_S16384x7x7 : (⟨S_, .f32⟩ : BufTy).Contents (Elt F) → (⟨S16384x7x7, .f32⟩ : BufTy).Contents (Elt F)),
    binary main_v217 main_v4 main_v218 (subf : (⟨S16384x7x7, .f32⟩ : BufTy).Contents (Elt F) → (⟨S16384x7x7, .f32⟩ : BufTy).Contents (Elt F) → (⟨S16384x7x7, .f32⟩ : BufTy).Contents (Elt F)),
    unary main_arg0 main_v219 ((extractStridedSlice S16384x7x7x1 ![0, 0, 0, 4] · slices_S16384x7x7x30_S16384x7x7x1_0_0_0_4) : (⟨S16384x7x7x30, .f32⟩ : BufTy).Contents (Elt F) → (⟨S16384x7x7x1, .f32⟩ : BufTy).Contents (Elt F)),
    reshape main_v219 main_v220 rfl shapeCasts_S16384x7x7x1_S16384x7x7,
    binary main_v220 main_v220 main_v221 (mulf : (⟨S16384x7x7, .f32⟩ : BufTy).Contents (Elt F) → (⟨S16384x7x7, .f32⟩ : BufTy).Contents (Elt F) → (⟨S16384x7x7, .f32⟩ : BufTy).Contents (Elt F)),
    unary main_arg0 main_v222 ((extractStridedSlice S16384x7x7x1 ![0, 0, 0, 9] · slices_S16384x7x7x30_S16384x7x7x1_0_0_0_9) : (⟨S16384x7x7x30, .f32⟩ : BufTy).Contents (Elt F) → (⟨S16384x7x7x1, .f32⟩ : BufTy).Contents (Elt F)),
    reshape main_v222 main_v223 rfl shapeCasts_S16384x7x7x1_S16384x7x7,
    binary main_v223 main_v223 main_v224 (mulf : (⟨S16384x7x7, .f32⟩ : BufTy).Contents (Elt F) → (⟨S16384x7x7, .f32⟩ : BufTy).Contents (Elt F) → (⟨S16384x7x7, .f32⟩ : BufTy).Contents (Elt F)),
    binary main_v221 main_v224 main_v225 (addf : (⟨S16384x7x7, .f32⟩ : BufTy).Contents (Elt F) → (⟨S16384x7x7, .f32⟩ : BufTy).Contents (Elt F) → (⟨S16384x7x7, .f32⟩ : BufTy).Contents (Elt F)),
    binary main_v218 main_v225 main_v226 (mulf : (⟨S16384x7x7, .f32⟩ : BufTy).Contents (Elt F) → (⟨S16384x7x7, .f32⟩ : BufTy).Contents (Elt F) → (⟨S16384x7x7, .f32⟩ : BufTy).Contents (Elt F)),
    nullary main_cst_25 (constant S_ .f32 0x00000000#32),
    binary main_v226 main_cst_25 main_v227 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    binary main_v216 main_v227 main_v228 (addf : (⟨S_, .f32⟩ : BufTy).Contents (Elt F) → (⟨S_, .f32⟩ : BufTy).Contents (Elt F) → (⟨S_, .f32⟩ : BufTy).Contents (Elt F)),
    binary main_v178 main_v176 main_v229 (subf : (⟨S16384x7x7, .f32⟩ : BufTy).Contents (Elt F) → (⟨S16384x7x7, .f32⟩ : BufTy).Contents (Elt F) → (⟨S16384x7x7, .f32⟩ : BufTy).Contents (Elt F)),
    binary main_v229 main_v229 main_v230 (mulf : (⟨S16384x7x7, .f32⟩ : BufTy).Contents (Elt F) → (⟨S16384x7x7, .f32⟩ : BufTy).Contents (Elt F) → (⟨S16384x7x7, .f32⟩ : BufTy).Contents (Elt F)),
    binary main_v4 main_v230 main_v231 (mulf : (⟨S16384x7x7, .f32⟩ : BufTy).Contents (Elt F) → (⟨S16384x7x7, .f32⟩ : BufTy).Contents (Elt F) → (⟨S16384x7x7, .f32⟩ : BufTy).Contents (Elt F)),
    nullary main_cst_26 (constant S_ .f32 0x00000000#32),
    binary main_v231 main_cst_26 main_v232 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    unary main_arg1 main_v233 ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)),
    unary main_arg0 main_v234 ((extractStridedSlice S16384x7x7x20 ![0, 0, 0, 10] · slices_S16384x7x7x30_S16384x7x7x20_0_0_0_10) : (⟨S16384x7x7x30, .f32⟩ : BufTy).Contents (Elt F) → (⟨S16384x7x7x20, .f32⟩ : BufTy).Contents (Elt F)),
    binary main_v233 main_v234 main_v235 (subf : (⟨S16384x7x7x20, .f32⟩ : BufTy).Contents (Elt F) → (⟨S16384x7x7x20, .f32⟩ : BufTy).Contents (Elt F) → (⟨S16384x7x7x20, .f32⟩ : BufTy).Contents (Elt F)),
    binary main_v235 main_v235 main_v236 (mulf : (⟨S16384x7x7x20, .f32⟩ : BufTy).Contents (Elt F) → (⟨S16384x7x7x20, .f32⟩ : BufTy).Contents (Elt F) → (⟨S16384x7x7x20, .f32⟩ : BufTy).Contents (Elt F)),
    nullary main_cst_27 (constant S_ .f32 0x00000000#32),
    binary main_v236 main_cst_27 main_v237 ((fun x v => Host.reduceAdd x v reducesTo_S16384x7x7x20_S16384x7x7_d3 h_S_) : (⟨S16384x7x7x20, .f32⟩ : BufTy).Contents (Elt F) → (⟨S_, .f32⟩ : BufTy).Contents (Elt F) → (⟨S16384x7x7, .f32⟩ : BufTy).Contents (Elt F)),
    binary main_v4 main_v237 main_v238 (mulf : (⟨S16384x7x7, .f32⟩ : BufTy).Contents (Elt F) → (⟨S16384x7x7, .f32⟩ : BufTy).Contents (Elt F) → (⟨S16384x7x7, .f32⟩ : BufTy).Contents (Elt F)),
    nullary main_cst_28 (constant S_ .f32 0x00000000#32),
    binary main_v238 main_cst_28 main_v239 ((fun x v => Host.reduceAdd x v reducesTo_S16384x7x7_S_d0_1_2 h_S_) : (⟨S16384x7x7, .f32⟩ : BufTy).Contents (Elt F) → (⟨S_, .f32⟩ : BufTy).Contents (Elt F) → (⟨S_, .f32⟩ : BufTy).Contents (Elt F)),
    nullary main_cst_29 (constant S_ .f32 0x40A00000#32),
    binary main_cst_29 main_v193 main_v240 (mulf : (⟨S_, .f32⟩ : BufTy).Contents (Elt F) → (⟨S_, .f32⟩ : BufTy).Contents (Elt F) → (⟨S_, .f32⟩ : BufTy).Contents (Elt F)),
    nullary main_cst_30 (constant S_ .f32 0x40A00000#32),
    binary main_cst_30 main_v212 main_v241 (mulf : (⟨S_, .f32⟩ : BufTy).Contents (Elt F) → (⟨S_, .f32⟩ : BufTy).Contents (Elt F) → (⟨S_, .f32⟩ : BufTy).Contents (Elt F)),
    binary main_v240 main_v241 main_v242 (addf : (⟨S_, .f32⟩ : BufTy).Contents (Elt F) → (⟨S_, .f32⟩ : BufTy).Contents (Elt F) → (⟨S_, .f32⟩ : BufTy).Contents (Elt F)),
    binary main_v242 main_v228 main_v243 (addf : (⟨S_, .f32⟩ : BufTy).Contents (Elt F) → (⟨S_, .f32⟩ : BufTy).Contents (Elt F) → (⟨S_, .f32⟩ : BufTy).Contents (Elt F)),
    nullary main_cst_31 (constant S_ .f32 0x3F000000#32),
    binary main_cst_31 main_v232 main_v244 (mulf : (⟨S_, .f32⟩ : BufTy).Contents (Elt F) → (⟨S_, .f32⟩ : BufTy).Contents (Elt F) → (⟨S_, .f32⟩ : BufTy).Contents (Elt F)),
    binary main_v243 main_v244 main_v245 (addf : (⟨S_, .f32⟩ : BufTy).Contents (Elt F) → (⟨S_, .f32⟩ : BufTy).Contents (Elt F) → (⟨S_, .f32⟩ : BufTy).Contents (Elt F)),
    binary main_v245 main_v239 main_v246 (addf : (⟨S_, .f32⟩ : BufTy).Contents (Elt F) → (⟨S_, .f32⟩ : BufTy).Contents (Elt F) → (⟨S_, .f32⟩ : BufTy).Contents (Elt F)),
    nullary main_cst_32 (constant S_ .f32 0x46800000#32),
    binary main_v246 main_cst_32 main_v247 (Host.divf : (⟨S_, .f32⟩ : BufTy).Contents (Elt F) → (⟨S_, .f32⟩ : BufTy).Contents (Elt F) → (⟨S_, .f32⟩ : BufTy).Contents (Elt F))
  ]

/-- @main's 292 operations, in order: the five windows' lists joined. -/
abbrev ops : List (HloOp τ sig (Elt F)) := ops0 ++ (ops1 ++ (ops2 ++ (ops3 ++ ops4)))

set_option maxRecDepth 8192 in
theorem ops0_sub : (ops0 : List (HloOp τ sig (Elt F))).Forall fun op => op.bufs ⊆ tcRefs τ sig :=
  ⟨unary_bufs_sub .., reshape_bufs_sub .., nullary_bufs_sub .., unary_bufs_sub .., binary_bufs_sub .., unary_bufs_sub .., unary_bufs_sub .., unary_bufs_sub .., unary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub ..⟩

set_option maxRecDepth 8192 in
theorem ops1_sub : (ops1 : List (HloOp τ sig (Elt F))).Forall fun op => op.bufs ⊆ tcRefs τ sig :=
  ⟨reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., binary_bufs_sub .., binary_bufs_sub .., binary_bufs_sub .., nullary_bufs_sub .., unary_bufs_sub .., unary_bufs_sub .., binary_bufs_sub .., binary_bufs_sub .., binary_bufs_sub .., binary_bufs_sub .., nullary_bufs_sub .., unary_bufs_sub .., unary_bufs_sub .., binary_bufs_sub .., binary_bufs_sub .., binary_bufs_sub .., binary_bufs_sub .., binary_bufs_sub .., unary_bufs_sub .., binary_bufs_sub .., binary_bufs_sub .., binary_bufs_sub .., unary_bufs_sub .., binary_bufs_sub .., binary_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub ..⟩

set_option maxRecDepth 8192 in
theorem ops2_sub : (ops2 : List (HloOp τ sig (Elt F))).Forall fun op => op.bufs ⊆ tcRefs τ sig :=
  ⟨binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., unary_bufs_sub .., reshape_bufs_sub .., unary_bufs_sub .., reshape_bufs_sub .., nullary_bufs_sub .., unary_bufs_sub .., binary_bufs_sub .., binary_bufs_sub .., binary_bufs_sub .., binary_bufs_sub .., binary_bufs_sub .., nullary_bufs_sub .., unary_bufs_sub .., unary_bufs_sub .., binary_bufs_sub .., binary_bufs_sub .., binary_bufs_sub .., binary_bufs_sub .., nullary_bufs_sub .., unary_bufs_sub .., unary_bufs_sub .., binary_bufs_sub .., binary_bufs_sub .., binary_bufs_sub .., binary_bufs_sub .., binary_bufs_sub .., unary_bufs_sub .., binary_bufs_sub .., binary_bufs_sub .., binary_bufs_sub ..⟩

set_option maxRecDepth 8192 in
theorem ops3_sub : (ops3 : List (HloOp τ sig (Elt F))).Forall fun op => op.bufs ⊆ tcRefs τ sig :=
  ⟨unary_bufs_sub .., binary_bufs_sub .., binary_bufs_sub .., nullary_bufs_sub .., unary_bufs_sub .., binary_bufs_sub .., binary_bufs_sub .., binary_bufs_sub .., unary_bufs_sub .., unary_bufs_sub .., ternary_bufs_sub .., unary_bufs_sub .., reshape_bufs_sub .., unary_bufs_sub .., reshape_bufs_sub .., ternary_bufs_sub .., unary_bufs_sub .., reshape_bufs_sub .., unary_bufs_sub .., reshape_bufs_sub .., ternary_bufs_sub .., binary_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., binary_bufs_sub .., binary_bufs_sub .., binary_bufs_sub .., nullary_bufs_sub .., binary_bufs_sub .., unary_bufs_sub .., reshape_bufs_sub .., unary_bufs_sub .., unary_bufs_sub .., reshape_bufs_sub .., unary_bufs_sub .., binary_bufs_sub .., binary_bufs_sub .., unary_bufs_sub .., reshape_bufs_sub .., unary_bufs_sub .., unary_bufs_sub .., reshape_bufs_sub .., unary_bufs_sub .., binary_bufs_sub .., binary_bufs_sub .., binary_bufs_sub .., binary_bufs_sub .., nullary_bufs_sub .., binary_bufs_sub .., binary_bufs_sub .., binary_bufs_sub ..⟩

set_option maxRecDepth 8192 in
theorem ops4_sub : (ops4 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., reshape_bufs_sub .., binary_bufs_sub .., unary_bufs_sub .., reshape_bufs_sub .., binary_bufs_sub .., binary_bufs_sub .., binary_bufs_sub .., nullary_bufs_sub .., binary_bufs_sub .., binary_bufs_sub .., binary_bufs_sub .., binary_bufs_sub .., binary_bufs_sub .., nullary_bufs_sub .., binary_bufs_sub .., unary_bufs_sub .., unary_bufs_sub .., binary_bufs_sub .., binary_bufs_sub .., nullary_bufs_sub .., binary_bufs_sub .., binary_bufs_sub .., nullary_bufs_sub .., binary_bufs_sub .., nullary_bufs_sub .., binary_bufs_sub .., nullary_bufs_sub .., binary_bufs_sub .., binary_bufs_sub .., binary_bufs_sub .., nullary_bufs_sub .., binary_bufs_sub .., binary_bufs_sub .., binary_bufs_sub .., nullary_bufs_sub .., binary_bufs_sub ..⟩

/-! ## The program is the list of its operations -/

theorem main_part0_eq (d : Dev nD) : main_part0 (F := F) d = seq ops0 := rfl
theorem main_part1_eq (d : Dev nD) : main_part1 (F := F) d = seq ops1 := rfl
theorem main_part2_eq (d : Dev nD) : main_part2 (F := F) d = seq ops2 := rfl
theorem main_part3_eq (d : Dev nD) : main_part3 (F := F) d = seq ops3 := rfl
theorem main_part4_eq (d : Dev nD) : main_part4 (F := F) d = seq ops4 := rfl

/-- The five stretches run one after the other are the whole list run as one line. -/
theorem main_eq (c : Dev nD) : main (F := F) c = seq ops := by
  unfold main
  rw [main_part0_eq, main_part1_eq, main_part2_eq, main_part3_eq, main_part4_eq]
  show _ = seq (ops0 ++ (ops1 ++ (ops2 ++ (ops3 ++ ops4))))
  rw [seq_append, seq_append, seq_append, seq_append]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  List.forall_append.2 ⟨ops0_sub, List.forall_append.2 ⟨ops1_sub, List.forall_append.2 ⟨ops2_sub,
    List.forall_append.2 ⟨ops3_sub, ops4_sub⟩⟩⟩⟩

/-- What the buffers hold after two stretches in a row is what they hold after the second, started from what they
    hold after the first. -/
theorem after_cut : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_cut l₁ l₂]

/-- The whole list, cut at the four joints. -/
theorem after_ops (V : Valuation τ sig (Elt F)) :
    after ops V = after ops4 (after ops3 (after ops2 (after ops1 (after ops0 V)))) := by
  show after (ops0 ++ (ops1 ++ (ops2 ++ (ops3 ++ ops4)))) V = _
  rw [after_cut, after_cut, after_cut, after_cut]

end Cert.ReferenceIdeal.ValueP

end
-- ==== Proof.RefRun.lean ====
/-
  The reference's run, followed one stretch at a time.

  The reference is a straight line of 292 array operations in five stretches. Each operation's result has a staged
  value: the operation applied to the staged values of its operands, down to the two argument arrays. Running the line
  from any memory leaves in each buffer the fold of the operations over the initial contents; this file shows that the
  fold, read at the result buffer, is the staged value of the result. It does so stretch by stretch: after each
  stretch, every buffer that a later stretch reads holds its staged value and the two arguments are unchanged. A
  stretch is followed from an arbitrary valuation that satisfies the previous stretch's statement, so that no term
  ever spans more than one stretch.
-/
import proofs.«147053_j34737695490341_2_alg».proof.Proof.ReadP
import proofs.«147053_j34737695490341_2_alg».proof.Proof.RefOps

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

-- Following one stretch of sixty-odd operations down to its deepest buffers takes more rewriting steps than the
-- default budget allows.
set_option maxHeartbeats 40000000

variable (W : Valuation τ sig (Elt F)) (x0 x1 : (⟨S16384x7x7x30, .f32⟩ : BufTy).Contents (Elt F))

/-- What the buffers that later stretches read hold after stretch 0: the two arguments, unchanged, and each
    intermediate array at its staged value. -/
structure Inv0 : Prop where
  arg0 : W (Proc.devRef .tc main_arg0) = x0
  arg1 : W (Proc.devRef .tc main_arg1) = x1
  v52 : W (Proc.devRef .tc main_v52) = ReadP.val_main_v52 x0
  v51 : W (Proc.devRef .tc main_v51) = ReadP.val_main_v51 x0
  v6 : W (Proc.devRef .tc main_v6) = ReadP.val_main_v6 x0
  v28 : W (Proc.devRef .tc main_v28) = ReadP.val_main_v28 x1
  v14 : W (Proc.devRef .tc main_v14) = ReadP.val_main_v14 x1
  v42 : W (Proc.devRef .tc main_v42) = ReadP.val_main_v42 x0
  v35 : W (Proc.devRef .tc main_v35) = ReadP.val_main_v35 x1
  v21 : W (Proc.devRef .tc main_v21) = ReadP.val_main_v21 x1
  v49 : W (Proc.devRef .tc main_v49) = ReadP.val_main_v49 x0
  v5 : W (Proc.devRef .tc main_v5) = ReadP.val_main_v5 x1
  v7 : W (Proc.devRef .tc main_v7) = ReadP.val_main_v7 x0
  v4 : W (Proc.devRef .tc main_v4) = ReadP.val_main_v4 x1

/-- What the buffers that later stretches read hold after stretch 1: the two arguments, unchanged, and each
    intermediate array at its staged value. -/
structure Inv1 : Prop where
  arg0 : W (Proc.devRef .tc main_arg0) = x0
  arg1 : W (Proc.devRef .tc main_arg1) = x1
  v103 : W (Proc.devRef .tc main_v103) = ReadP.val_main_v103 x1
  v104 : W (Proc.devRef .tc main_v104) = ReadP.val_main_v104
  v101 : W (Proc.devRef .tc main_v101) = ReadP.val_main_v101 x1
  v5 : W (Proc.devRef .tc main_v5) = ReadP.val_main_v5 x1
  v7 : W (Proc.devRef .tc main_v7) = ReadP.val_main_v7 x0
  v92 : W (Proc.devRef .tc main_v92) = ReadP.val_main_v92 x1
  v99 : W (Proc.devRef .tc main_v99) = ReadP.val_main_v99 x1
  v85 : W (Proc.devRef .tc main_v85) = ReadP.val_main_v85 x0 x1
  v6 : W (Proc.devRef .tc main_v6) = ReadP.val_main_v6 x0
  v4 : W (Proc.devRef .tc main_v4) = ReadP.val_main_v4 x1

/-- What the buffers that later stretches read hold after stretch 2: the two arguments, unchanged, and each
    intermediate array at its staged value. -/
structure Inv2 : Prop where
  arg0 : W (Proc.devRef .tc main_arg0) = x0
  arg1 : W (Proc.devRef .tc main_arg1) = x1
  v157 : W (Proc.devRef .tc main_v157) = ReadP.val_main_v157 x0
  v154 : W (Proc.devRef .tc main_v154) = ReadP.val_main_v154 x1
  v150 : W (Proc.devRef .tc main_v150) = ReadP.val_main_v150 x0 x1
  v85 : W (Proc.devRef .tc main_v85) = ReadP.val_main_v85 x0 x1
  v6 : W (Proc.devRef .tc main_v6) = ReadP.val_main_v6 x0
  v7 : W (Proc.devRef .tc main_v7) = ReadP.val_main_v7 x0
  v5 : W (Proc.devRef .tc main_v5) = ReadP.val_main_v5 x1
  v4 : W (Proc.devRef .tc main_v4) = ReadP.val_main_v4 x1

/-- What the buffers that later stretches read hold after stretch 3: the two arguments, unchanged, and each
    intermediate array at its staged value. -/
structure Inv3 : Prop where
  arg0 : W (Proc.devRef .tc main_arg0) = x0
  arg1 : W (Proc.devRef .tc main_arg1) = x1
  v4 : W (Proc.devRef .tc main_v4) = ReadP.val_main_v4 x1
  v214 : W (Proc.devRef .tc main_v214) = ReadP.val_main_v214 x0 x1
  v178 : W (Proc.devRef .tc main_v178) = ReadP.val_main_v178 x0 x1
  v176 : W (Proc.devRef .tc main_v176) = ReadP.val_main_v176 x0 x1
  v193 : W (Proc.devRef .tc main_v193) = ReadP.val_main_v193 x0 x1
  v212 : W (Proc.devRef .tc main_v212) = ReadP.val_main_v212 x0 x1

/-- What the buffers that later stretches read hold after stretch 4: the two arguments, unchanged, and each
    intermediate array at its staged value. -/
structure Inv4 : Prop where
  arg0 : W (Proc.devRef .tc main_arg0) = x0
  arg1 : W (Proc.devRef .tc main_arg1) = x1
  v247 : W (Proc.devRef .tc main_v247) = ReadP.val_main_v247 x0 x1

/-! ### Stretch 0 -/
theorem w0_arg0 (h0 : W (Proc.devRef .tc main_arg0) = x0) (h1 : W (Proc.devRef .tc main_arg1) = x1) :
    after ops0 W (Proc.devRef .tc main_arg0) = x0 := by
  after_results_simp
  exact h0
theorem w0_arg1 (h0 : W (Proc.devRef .tc main_arg0) = x0) (h1 : W (Proc.devRef .tc main_arg1) = x1) :
    after ops0 W (Proc.devRef .tc main_arg1) = x1 := by
  after_results_simp
  exact h1
theorem w0_v52 (h0 : W (Proc.devRef .tc main_arg0) = x0) (h1 : W (Proc.devRef .tc main_arg1) = x1) :
    after ops0 W (Proc.devRef .tc main_v52) = ReadP.val_main_v52 x0 := by
  after_results_simp
  try simp only [h0, h1]
  rfl
theorem w0_v51 (h0 : W (Proc.devRef .tc main_arg0) = x0) (h1 : W (Proc.devRef .tc main_arg1) = x1) :
    after ops0 W (Proc.devRef .tc main_v51) = ReadP.val_main_v51 x0 := by
  after_results_simp
  try simp only [h0, h1]
  rfl
theorem w0_v6 (h0 : W (Proc.devRef .tc main_arg0) = x0) (h1 : W (Proc.devRef .tc main_arg1) = x1) :
    after ops0 W (Proc.devRef .tc main_v6) = ReadP.val_main_v6 x0 := by
  after_results_simp
  try simp only [h0, h1]
  rfl
theorem w0_v28 (h0 : W (Proc.devRef .tc main_arg0) = x0) (h1 : W (Proc.devRef .tc main_arg1) = x1) :
    after ops0 W (Proc.devRef .tc main_v28) = ReadP.val_main_v28 x1 := by
  after_results_simp
  try simp only [h0, h1]
  rfl
theorem w0_v14 (h0 : W (Proc.devRef .tc main_arg0) = x0) (h1 : W (Proc.devRef .tc main_arg1) = x1) :
    after ops0 W (Proc.devRef .tc main_v14) = ReadP.val_main_v14 x1 := by
  after_results_simp
  try simp only [h0, h1]
  rfl
theorem w0_v42 (h0 : W (Proc.devRef .tc main_arg0) = x0) (h1 : W (Proc.devRef .tc main_arg1) = x1) :
    after ops0 W (Proc.devRef .tc main_v42) = ReadP.val_main_v42 x0 := by
  after_results_simp
  try simp only [h0, h1]
  rfl
theorem w0_v35 (h0 : W (Proc.devRef .tc main_arg0) = x0) (h1 : W (Proc.devRef .tc main_arg1) = x1) :
    after ops0 W (Proc.devRef .tc main_v35) = ReadP.val_main_v35 x1 := by
  after_results_simp
  try simp only [h0, h1]
  rfl
theorem w0_v21 (h0 : W (Proc.devRef .tc main_arg0) = x0) (h1 : W (Proc.devRef .tc main_arg1) = x1) :
    after ops0 W (Proc.devRef .tc main_v21) = ReadP.val_main_v21 x1 := by
  after_results_simp
  try simp only [h0, h1]
  rfl
theorem w0_v49 (h0 : W (Proc.devRef .tc main_arg0) = x0) (h1 : W (Proc.devRef .tc main_arg1) = x1) :
    after ops0 W (Proc.devRef .tc main_v49) = ReadP.val_main_v49 x0 := by
  after_results_simp
  try simp only [h0, h1]
  rfl
theorem w0_v5 (h0 : W (Proc.devRef .tc main_arg0) = x0) (h1 : W (Proc.devRef .tc main_arg1) = x1) :
    after ops0 W (Proc.devRef .tc main_v5) = ReadP.val_main_v5 x1 := by
  after_results_simp
  try simp only [h0, h1]
  rfl
theorem w0_v7 (h0 : W (Proc.devRef .tc main_arg0) = x0) (h1 : W (Proc.devRef .tc main_arg1) = x1) :
    after ops0 W (Proc.devRef .tc main_v7) = ReadP.val_main_v7 x0 := by
  after_results_simp
  try simp only [h0, h1]
  rfl
theorem w0_v4 (h0 : W (Proc.devRef .tc main_arg0) = x0) (h1 : W (Proc.devRef .tc main_arg1) = x1) :
    after ops0 W (Proc.devRef .tc main_v4) = ReadP.val_main_v4 x1 := by
  after_results_simp
  try simp only [h0, h1]
  rfl

/-- Stretch 0 carries the invariant on. -/
theorem stage0 (h0 : W (Proc.devRef .tc main_arg0) = x0) (h1 : W (Proc.devRef .tc main_arg1) = x1) : Inv0 (after ops0 W) x0 x1 :=
  ⟨w0_arg0 W x0 x1 h0 h1,
   w0_arg1 W x0 x1 h0 h1,
   w0_v52 W x0 x1 h0 h1,
   w0_v51 W x0 x1 h0 h1,
   w0_v6 W x0 x1 h0 h1,
   w0_v28 W x0 x1 h0 h1,
   w0_v14 W x0 x1 h0 h1,
   w0_v42 W x0 x1 h0 h1,
   w0_v35 W x0 x1 h0 h1,
   w0_v21 W x0 x1 h0 h1,
   w0_v49 W x0 x1 h0 h1,
   w0_v5 W x0 x1 h0 h1,
   w0_v7 W x0 x1 h0 h1,
   w0_v4 W x0 x1 h0 h1⟩

/-! ### Stretch 1 -/
theorem w1_arg0 (h : Inv0 W x0 x1) :
    after ops1 W (Proc.devRef .tc main_arg0) = x0 := by
  after_results_simp
  exact h.arg0
theorem w1_arg1 (h : Inv0 W x0 x1) :
    after ops1 W (Proc.devRef .tc main_arg1) = x1 := by
  after_results_simp
  exact h.arg1
theorem w1_v103 (h : Inv0 W x0 x1) :
    after ops1 W (Proc.devRef .tc main_v103) = ReadP.val_main_v103 x1 := by
  after_results_simp
  try simp only [h.v52, h.v51, h.v6, h.v28, h.v14, h.v42, h.v35, h.v21, h.v49, h.v5]
  rfl
theorem w1_v104 (h : Inv0 W x0 x1) :
    after ops1 W (Proc.devRef .tc main_v104) = ReadP.val_main_v104 := by
  after_results_simp
  try simp only [h.v52, h.v51, h.v6, h.v28, h.v14, h.v42, h.v35, h.v21, h.v49, h.v5]
  rfl
theorem w1_v101 (h : Inv0 W x0 x1) :
    after ops1 W (Proc.devRef .tc main_v101) = ReadP.val_main_v101 x1 := by
  after_results_simp
  try simp only [h.v52, h.v51, h.v6, h.v28, h.v14, h.v42, h.v35, h.v21, h.v49, h.v5]
  rfl
theorem w1_v5 (h : Inv0 W x0 x1) :
    after ops1 W (Proc.devRef .tc main_v5) = ReadP.val_main_v5 x1 := by
  after_results_simp
  exact h.v5
theorem w1_v7 (h : Inv0 W x0 x1) :
    after ops1 W (Proc.devRef .tc main_v7) = ReadP.val_main_v7 x0 := by
  after_results_simp
  exact h.v7
theorem w1_v92 (h : Inv0 W x0 x1) :
    after ops1 W (Proc.devRef .tc main_v92) = ReadP.val_main_v92 x1 := by
  after_results_simp
  try simp only [h.v52, h.v51, h.v6, h.v28, h.v14, h.v42, h.v35, h.v21, h.v49, h.v5]
  rfl
theorem w1_v99 (h : Inv0 W x0 x1) :
    after ops1 W (Proc.devRef .tc main_v99) = ReadP.val_main_v99 x1 := by
  after_results_simp
  try simp only [h.v52, h.v51, h.v6, h.v28, h.v14, h.v42, h.v35, h.v21, h.v49, h.v5]
  rfl
theorem w1_v85 (h : Inv0 W x0 x1) :
    after ops1 W (Proc.devRef .tc main_v85) = ReadP.val_main_v85 x0 x1 := by
  after_results_simp
  try simp only [h.v52, h.v51, h.v6, h.v28, h.v14, h.v42, h.v35, h.v21, h.v49, h.v5]
  rfl
theorem w1_v6 (h : Inv0 W x0 x1) :
    after ops1 W (Proc.devRef .tc main_v6) = ReadP.val_main_v6 x0 := by
  after_results_simp
  exact h.v6
theorem w1_v4 (h : Inv0 W x0 x1) :
    after ops1 W (Proc.devRef .tc main_v4) = ReadP.val_main_v4 x1 := by
  after_results_simp
  exact h.v4

/-- Stretch 1 carries the invariant on. -/
theorem stage1 (h : Inv0 W x0 x1) : Inv1 (after ops1 W) x0 x1 :=
  ⟨w1_arg0 W x0 x1 h,
   w1_arg1 W x0 x1 h,
   w1_v103 W x0 x1 h,
   w1_v104 W x0 x1 h,
   w1_v101 W x0 x1 h,
   w1_v5 W x0 x1 h,
   w1_v7 W x0 x1 h,
   w1_v92 W x0 x1 h,
   w1_v99 W x0 x1 h,
   w1_v85 W x0 x1 h,
   w1_v6 W x0 x1 h,
   w1_v4 W x0 x1 h⟩

/-! ### Stretch 2 -/
theorem w2_arg0 (h : Inv1 W x0 x1) :
    after ops2 W (Proc.devRef .tc main_arg0) = x0 := by
  after_results_simp
  exact h.arg0
theorem w2_arg1 (h : Inv1 W x0 x1) :
    after ops2 W (Proc.devRef .tc main_arg1) = x1 := by
  after_results_simp
  exact h.arg1
theorem w2_v157 (h : Inv1 W x0 x1) :
    after ops2 W (Proc.devRef .tc main_v157) = ReadP.val_main_v157 x0 := by
  after_results_simp
  try simp only [h.v103, h.v104, h.v101, h.v5, h.v7, h.v92, h.v99]
  rfl
theorem w2_v154 (h : Inv1 W x0 x1) :
    after ops2 W (Proc.devRef .tc main_v154) = ReadP.val_main_v154 x1 := by
  after_results_simp
  try simp only [h.v103, h.v104, h.v101, h.v5, h.v7, h.v92, h.v99]
  rfl
theorem w2_v150 (h : Inv1 W x0 x1) :
    after ops2 W (Proc.devRef .tc main_v150) = ReadP.val_main_v150 x0 x1 := by
  after_results_simp
  try simp only [h.v103, h.v104, h.v101, h.v5, h.v7, h.v92, h.v99]
  rfl
theorem w2_v85 (h : Inv1 W x0 x1) :
    after ops2 W (Proc.devRef .tc main_v85) = ReadP.val_main_v85 x0 x1 := by
  after_results_simp
  exact h.v85
theorem w2_v6 (h : Inv1 W x0 x1) :
    after ops2 W (Proc.devRef .tc main_v6) = ReadP.val_main_v6 x0 := by
  after_results_simp
  exact h.v6
theorem w2_v7 (h : Inv1 W x0 x1) :
    after ops2 W (Proc.devRef .tc main_v7) = ReadP.val_main_v7 x0 := by
  after_results_simp
  exact h.v7
theorem w2_v5 (h : Inv1 W x0 x1) :
    after ops2 W (Proc.devRef .tc main_v5) = ReadP.val_main_v5 x1 := by
  after_results_simp
  exact h.v5
theorem w2_v4 (h : Inv1 W x0 x1) :
    after ops2 W (Proc.devRef .tc main_v4) = ReadP.val_main_v4 x1 := by
  after_results_simp
  exact h.v4

/-- Stretch 2 carries the invariant on. -/
theorem stage2 (h : Inv1 W x0 x1) : Inv2 (after ops2 W) x0 x1 :=
  ⟨w2_arg0 W x0 x1 h,
   w2_arg1 W x0 x1 h,
   w2_v157 W x0 x1 h,
   w2_v154 W x0 x1 h,
   w2_v150 W x0 x1 h,
   w2_v85 W x0 x1 h,
   w2_v6 W x0 x1 h,
   w2_v7 W x0 x1 h,
   w2_v5 W x0 x1 h,
   w2_v4 W x0 x1 h⟩

/-! ### Stretch 3 -/
theorem w3_arg0 (h : Inv2 W x0 x1) :
    after ops3 W (Proc.devRef .tc main_arg0) = x0 := by
  after_results_simp
  exact h.arg0
theorem w3_arg1 (h : Inv2 W x0 x1) :
    after ops3 W (Proc.devRef .tc main_arg1) = x1 := by
  after_results_simp
  exact h.arg1
theorem w3_v4 (h : Inv2 W x0 x1) :
    after ops3 W (Proc.devRef .tc main_v4) = ReadP.val_main_v4 x1 := by
  after_results_simp
  exact h.v4
theorem w3_v214 (h : Inv2 W x0 x1) :
    after ops3 W (Proc.devRef .tc main_v214) = ReadP.val_main_v214 x0 x1 := by
  after_results_simp
  try simp only [h.v157, h.v154, h.v150, h.v85, h.v6, h.v7, h.arg0, h.v5, h.v4]
  rfl
theorem w3_v178 (h : Inv2 W x0 x1) :
    after ops3 W (Proc.devRef .tc main_v178) = ReadP.val_main_v178 x0 x1 := by
  after_results_simp
  try simp only [h.v157, h.v154, h.v150, h.v85, h.v6, h.v7, h.arg0, h.v5, h.v4]
  rfl
theorem w3_v176 (h : Inv2 W x0 x1) :
    after ops3 W (Proc.devRef .tc main_v176) = ReadP.val_main_v176 x0 x1 := by
  after_results_simp
  try simp only [h.v157, h.v154, h.v150, h.v85, h.v6, h.v7, h.arg0, h.v5, h.v4]
  rfl
theorem w3_v193 (h : Inv2 W x0 x1) :
    after ops3 W (Proc.devRef .tc main_v193) = ReadP.val_main_v193 x0 x1 := by
  after_results_simp
  try simp only [h.v157, h.v154, h.v150, h.v85, h.v6, h.v7, h.arg0, h.v5, h.v4]
  rfl
theorem w3_v212 (h : Inv2 W x0 x1) :
    after ops3 W (Proc.devRef .tc main_v212) = ReadP.val_main_v212 x0 x1 := by
  after_results_simp
  try simp only [h.v157, h.v154, h.v150, h.v85, h.v6, h.v7, h.arg0, h.v5, h.v4]
  rfl

/-- Stretch 3 carries the invariant on. -/
theorem stage3 (h : Inv2 W x0 x1) : Inv3 (after ops3 W) x0 x1 :=
  ⟨w3_arg0 W x0 x1 h,
   w3_arg1 W x0 x1 h,
   w3_v4 W x0 x1 h,
   w3_v214 W x0 x1 h,
   w3_v178 W x0 x1 h,
   w3_v176 W x0 x1 h,
   w3_v193 W x0 x1 h,
   w3_v212 W x0 x1 h⟩

/-! ### Stretch 4 -/
theorem w4_arg0 (h : Inv3 W x0 x1) :
    after ops4 W (Proc.devRef .tc main_arg0) = x0 := by
  after_results_simp
  exact h.arg0
theorem w4_arg1 (h : Inv3 W x0 x1) :
    after ops4 W (Proc.devRef .tc main_arg1) = x1 := by
  after_results_simp
  exact h.arg1
theorem w4_v247 (h : Inv3 W x0 x1) :
    after ops4 W (Proc.devRef .tc main_v247) = ReadP.val_main_v247 x0 x1 := by
  after_results_simp
  try simp only [h.v4, h.v214, h.arg0, h.v178, h.v176, h.arg1, h.v193, h.v212]
  rfl

/-- Stretch 4 carries the invariant on. -/
theorem stage4 (h : Inv3 W x0 x1) : Inv4 (after ops4 W) x0 x1 :=
  ⟨w4_arg0 W x0 x1 h,
   w4_arg1 W x0 x1 h,
   w4_v247 W x0 x1 h⟩

/-! ### The whole line -/

/-- After the whole line the result buffer holds the staged value of the arguments, and the arguments are unchanged. -/
theorem result (h0 : W (Proc.devRef .tc main_arg0) = x0) (h1 : W (Proc.devRef .tc main_arg1) = x1) :
    after ops W (Proc.devRef .tc main_v247) = ReadP.val_main_v247 x0 x1
      ∧ after ops W (Proc.devRef .tc main_arg0) = x0
      ∧ after ops W (Proc.devRef .tc main_arg1) = x1 := by
  rw [after_ops]
  have s0 := stage0 W x0 x1 h0 h1
  have s1 := stage1 _ x0 x1 s0
  have s2 := stage2 _ x0 x1 s1
  have s3 := stage3 _ x0 x1 s2
  have s4 := stage4 _ x0 x1 s3
  exact ⟨s4.v247, s4.arg0, s4.arg1⟩

/-- On every device, for any float values, from any memory with zero counters: every weakly fair execution of the
    reference terminates with its result at the staged value of the two arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v247)
          = ReadP.val_main_v247 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      have R := result (launchContents m c) (m ((c.tc : Thread nD τ).loc main_arg0)) (m ((c.tc : Thread nD τ).loc main_arg1)) rfl rfl
      ⟨(h c main_v247).trans R.1, (h c main_arg0).trans R.2.1, (h c main_arg1).trans R.2.2⟩)
    (run_seq scopedRefs_eq scopedSems_eq defs main (fun _ => ops) main_eq (fun _ => ops_sub) m ρ)

end Cert.ReferenceIdeal.ValueP

end
-- ==== Proof.lean ====
/-
  The proof of `Cert.Claim`: a YOLO-v1 detection loss over a batch of 16384 images of 7 × 7 grid cells, thirty
  channels a cell, computed two ways.

  Every cell has a loss: with m the indicator of an object in the cell, 5·m·(centre error)² + 5·m·(root-size error)²
  + m·(larger overlap − its confidence)² + (1 − m)·(both confidences)² + ½·m·(smaller overlap − the other confidence)²
  + m·(class error)², the overlaps being the intersection-over-union of the true box with each of the two predicted
  boxes. The kernel adds ONE combined term per cell — the weights 5 and ½ already inside — into tiled partial sums,
  which the host adds up and divides by 16384. The reference sums each of the SIX terms over all cells separately,
  combines the six sums with the weights 5 and ½ outside, and divides by 16384. At the extended reals both results are
  the specification's total (Proof/CellLoss.lean): the kernel's because its tiles meet every cell exactly once and finite
  sums of extended reals may be regrouped; the reference's because a finite nonnegative factor distributes over a sum
  of extended reals, whatever the summands (infinite ones included), so the weights may move inside the sums, and a sum
  of sums is the sum of the termwise sums. No finiteness of the inputs is used.
-/
import proofs.«147053_j34737695490341_2_alg».proof.Defs
import proofs.«147053_j34737695490341_2_alg».proof.Proof.Gen.Kernel
import proofs.«147053_j34737695490341_2_alg».proof.Proof.Gen.Kernel.Skeleton
import proofs.«147053_j34737695490341_2_alg».proof.Proof.Gen.Kernel.Launch
import proofs.«147053_j34737695490341_2_alg».proof.Proof.Gen.Kernel.Points
import proofs.«147053_j34737695490341_2_alg».proof.Proof.Gen.Kernel.Frame
import proofs.«147053_j34737695490341_2_alg».proof.Proof.Gen.KernelIdeal
import proofs.«147053_j34737695490341_2_alg».proof.Proof.Gen.KernelIdeal.Skeleton
import proofs.«147053_j34737695490341_2_alg».proof.Proof.Gen.KernelIdeal.Launch
import proofs.«147053_j34737695490341_2_alg».proof.Proof.Gen.KernelIdeal.Points
import proofs.«147053_j34737695490341_2_alg».proof.Proof.Gen.KernelIdeal.Frame
import proofs.«147053_j34737695490341_2_alg».proof.Proof.Gen.ReferenceIdeal
import proofs.«147053_j34737695490341_2_alg».proof.Proof.Gen.Pre_finite_inputs
import proofs.«147053_j34737695490341_2_alg».proof.Proof.CellLoss
import proofs.«147053_j34737695490341_2_alg».proof.Proof.KIdeal
import proofs.«147053_j34737695490341_2_alg».proof.Proof.RefResult
import proofs.«147053_j34737695490341_2_alg».proof.Proof.RefRun
import Idealize.ShloMosaic.Adequacy
import Idealize.ShloMosaic.Init

noncomputable section

namespace Cert.Proof

open Idealize.ShloMosaic Idealize.SL.Sem Cert.Kernel

/-! ## The three programs run and leave their arguments unchanged -/

theorem frame_k : Cert.frame_Kernel := fun m ρ _ => Cert.Kernel.Gen.frame m ρ

theorem frame_ki : Cert.frame_KernelIdeal := fun m ρ _ => Cert.KernelIdeal.Gen.frame m ρ

/-- The reference's run states its result first and then the two arguments: the frame keeps the arguments' part. -/
theorem frame_ri : Cert.frame_ReferenceIdeal := fun m ρ _ =>
  (θ_run Cert.ReferenceIdeal.defs _ _).mono (fun _ h c => (h c).2) (Cert.ReferenceIdeal.ValueP.run (F := Ideal) m ρ)

/-- The idealized kernel is the kernel's own text read at the extended reals: nothing was rewritten. -/
theorem preserves : Cert.preserves_Kernel_KernelIdeal := trivial

/-! ## Both results are the specification's total -/

/-- From memories that agree on the two arguments, the kernel and the reference both end with the rank-0 result holding
    the batch's summed cell loss divided by the batch size, and with their arguments unchanged. -/
theorem algebraic : Cert.algebraic_KernelIdeal_ReferenceIdeal := by
  intro m ρ m' ρ' _ hagree
  -- the common value: at the result's one index, the specification's total of the kernel's two arguments
  refine ⟨fun c _ => Cert.CellLoss.total
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · -- the kernel: its run ends at the host's sum of the partial sums, which is the total
    exact (θ_run Cert.KernelIdeal.defs _ _).mono
      (fun _ h c => ⟨(h c).1.trans (funext fun i => Cert.KValue.result_eq m c i), (h c).2⟩)
      (Cert.KValue.run (F := Ideal) m ρ)
  · -- the reference: its run ends at its last stage, which is the combined six sums divided by the batch size
    refine (θ_run Cert.ReferenceIdeal.defs _ _).mono (fun _ h c => ⟨(h c).1.trans ?_, (h c).2⟩)
      (Cert.ReferenceIdeal.ValueP.run (F := Ideal) m' ρ')
    funext i
    show _ = Cert.CellLoss.total _ _
    rw [(hagree c).1, (hagree c).2]
    refine (Cert.RefValue.ref_value _ _ i).trans ?_
    unfold Cert.RefValue.refCombo Cert.RefValue.cellSum
    exact Cert.Regroup.total_eq' _ _

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
